-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v231)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v231) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x128x128 : Shape := ⟨3, ![3, 128, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S128x64 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128x128 .f32) (main_arg12 : FVec F S128 .f32) (main_arg13 : FVec F S128x64 .f32) (main_arg14 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S3x128x128 .f32) (main_arg8 : FVec F S128 .f32) (main_arg9 : FVec F S128 .f32) (main_arg10 : FVec F S128 .f32) (main_arg11 : FVec F S128x128 .f32) (main_arg12 : FVec F S128 .f32) (main_arg13 : FVec F S128x64 .f32) (main_arg14 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S3x128x128 .f32) (main_arg4 : FVec F S128 .f32) (main_arg5 : FVec F S3x128x128 .f32) (main_arg6 : FVec F S128 .f32) (main_arg7 : FVec F S3x128x128 .f32) (main_arg8 : FVec F S128 .f32) (main_arg9 : FVec F S128 .f32) (main_arg10 : FVec F S128 .f32) (main_arg11 : FVec F S128x128 .f32) (main_arg12 : FVec F S128 .f32) (main_arg13 : FVec F S128x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S3x128x128 : Shape := ⟨3, ![3, 128, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128x128 : Shape := ⟨3, ![1, 128, 128]⟩
abbrev S1x128 : Shape := ⟨2, ![1, 128]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 319
  | .vmem => 48
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S128, .f32⟩
  | 5 => ⟨S3x128x128, .f32⟩
  | 6 => ⟨S128, .f32⟩
  | 7 => ⟨S3x128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x64, .f32⟩
  | 14 => ⟨S64, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000x1, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x1, .f32⟩
  | 51 => ⟨S50000x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000, .f32⟩
  | 72 => ⟨S800000x1, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x1, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000x1, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x1, .f32⟩
  | 29 => ⟨S50000x128, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000x1, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x1, .f32⟩
  | 91 => ⟨S50000x128, .f32⟩
  | 92 => ⟨S50000x128, .f32⟩
  | 93 => ⟨S50000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x1, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S_, .i32⟩
  | _ => ⟨S50000x128, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000x1, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x1, .f32⟩
  | 25 => ⟨S50000x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000x1, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S50000x1, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S50000x128, .f32⟩
  | 61 => ⟨S50000x128, .f32⟩
  | 62 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S3x128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S3x128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S3x128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S3x128x128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S128, .f32⟩
  | .local _ .vmem, ⟨44, _⟩ => ⟨S128x64, .f32⟩
  | .local _ .vmem, ⟨45, _⟩ => ⟨S64, .f32⟩
  | .local _ .vmem, ⟨46, _⟩ => ⟨S2000x64, .f32⟩
  | .local _ .vmem, ⟨47, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_cst_0 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_cst_1 : Ref sig .tc := ⟨.hbm, 103, rfl⟩
abbrev main_call0_v8 : Ref sig .tc := ⟨.hbm, 104, rfl⟩
abbrev main_call0_cst_2 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_cst_3 : Ref sig .tc := ⟨.hbm, 109, rfl⟩
abbrev main_call0_v12 : Ref sig .tc := ⟨.hbm, 110, rfl⟩
abbrev main_call0_cst_4 : Ref sig .tc := ⟨.hbm, 111, rfl⟩
abbrev main_call0_call0_v0 : Ref sig .tc := ⟨.hbm, 112, rfl⟩
abbrev main_call0_call0_v1 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_15 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_16 : Ref sig .tc := ⟨.hbm, 131, rfl⟩
abbrev main_v77 : Ref sig .tc := ⟨.hbm, 132, rfl⟩
abbrev main_v78 : Ref sig .tc := ⟨.hbm, 133, rfl⟩
abbrev main_c_17 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_c_18 : Ref sig .tc := ⟨.hbm, 140, rfl⟩
abbrev main_v84 : Ref sig .tc := ⟨.hbm, 141, rfl⟩
abbrev main_v85 : Ref sig .tc := ⟨.hbm, 142, rfl⟩
abbrev main_c_19 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_20 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_c_21 : Ref sig .tc := ⟨.hbm, 160, rfl⟩
abbrev main_v101 : Ref sig .tc := ⟨.hbm, 161, rfl⟩
abbrev main_v102 : Ref sig .tc := ⟨.hbm, 162, rfl⟩
abbrev main_c_22 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_c_23 : Ref sig .tc := ⟨.hbm, 169, rfl⟩
abbrev main_v108 : Ref sig .tc := ⟨.hbm, 170, rfl⟩
abbrev main_v109 : Ref sig .tc := ⟨.hbm, 171, rfl⟩
abbrev main_c_24 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_25 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_26 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_c_27 : Ref sig .tc := ⟨.hbm, 193, rfl⟩
abbrev main_v128 : Ref sig .tc := ⟨.hbm, 194, rfl⟩
abbrev main_v129 : Ref sig .tc := ⟨.hbm, 195, rfl⟩
abbrev main_c_28 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_c_29 : Ref sig .tc := ⟨.hbm, 202, rfl⟩
abbrev main_v135 : Ref sig .tc := ⟨.hbm, 203, rfl⟩
abbrev main_v136 : Ref sig .tc := ⟨.hbm, 204, rfl⟩
abbrev main_c_30 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_31 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_c_32 : Ref sig .tc := ⟨.hbm, 222, rfl⟩
abbrev main_v152 : Ref sig .tc := ⟨.hbm, 223, rfl⟩
abbrev main_v153 : Ref sig .tc := ⟨.hbm, 224, rfl⟩
abbrev main_c_33 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_c_34 : Ref sig .tc := ⟨.hbm, 231, rfl⟩
abbrev main_v159 : Ref sig .tc := ⟨.hbm, 232, rfl⟩
abbrev main_v160 : Ref sig .tc := ⟨.hbm, 233, rfl⟩
abbrev main_c_35 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_cst_36 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_cst_37 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_c_38 : Ref sig .tc := ⟨.hbm, 255, rfl⟩
abbrev main_v179 : Ref sig .tc := ⟨.hbm, 256, rfl⟩
abbrev main_v180 : Ref sig .tc := ⟨.hbm, 257, rfl⟩
abbrev main_c_39 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_c_40 : Ref sig .tc := ⟨.hbm, 264, rfl⟩
abbrev main_v186 : Ref sig .tc := ⟨.hbm, 265, rfl⟩
abbrev main_v187 : Ref sig .tc := ⟨.hbm, 266, rfl⟩
abbrev main_c_41 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_cst_42 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_c_43 : Ref sig .tc := ⟨.hbm, 284, rfl⟩
abbrev main_v203 : Ref sig .tc := ⟨.hbm, 285, rfl⟩
abbrev main_v204 : Ref sig .tc := ⟨.hbm, 286, rfl⟩
abbrev main_c_44 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_c_45 : Ref sig .tc := ⟨.hbm, 293, rfl⟩
abbrev main_v210 : Ref sig .tc := ⟨.hbm, 294, rfl⟩
abbrev main_v211 : Ref sig .tc := ⟨.hbm, 295, rfl⟩
abbrev main_c_46 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_cst_47 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_cst_48 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .f32 = 32 ∨ (Rect.block (s := S3x128x128) S3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x128.size a ≤ S3x128x128.size a
  hwx2_3 : ∀ i : grid2.Coords, EltTy.bits .f32 = 32 ∨ (Rect.block (s := S3x128x128) S3x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x128x128.size a ≤ S3x128x128.size a
  hwx3_3 : ∀ i : grid3.Coords, EltTy.bits .f32 = 32 ∨ (Rect.block (s := S3x128x128) S3x128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v76) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v100) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v126) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v127) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v127) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v151) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v177) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S3x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v178) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v178) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v202) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v228) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S3x128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v229) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v230) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v231) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S3x128x128 : Shape := ⟨3, ![3, 128, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 393
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S128, .f32⟩
  | 5 => ⟨S3x128x128, .f32⟩
  | 6 => ⟨S128, .f32⟩
  | 7 => ⟨S3x128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x64, .f32⟩
  | 14 => ⟨S64, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000x1, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x1, .f32⟩
  | 51 => ⟨S50000x128, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128x128, .f32⟩
  | 58 => ⟨S128x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S800000x1, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S50000x1, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S1x128x128, .f32⟩
  | 94 => ⟨S128x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000x1, .f32⟩
  | 38 => ⟨S800000x128, .f32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x1, .f32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S1x128x128, .f32⟩
  | 52 => ⟨S128x128, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000, .f32⟩
  | 73 => ⟨S800000x1, .f32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x1, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S800000x1, .f32⟩
  | 116 => ⟨S800000x128, .f32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x1, .f32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_2 (i : Nat) : BufTy := match i % 128 with
  | 0 => ⟨S50000x128, .f32⟩
  | 1 => ⟨S1x128x128, .f32⟩
  | 2 => ⟨S128x128, .f32⟩
  | 3 => ⟨S50000x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S800000x1, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x1, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000x1, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S50000x1, .f32⟩
  | 73 => ⟨S50000x128, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S1x128x128, .f32⟩
  | 80 => ⟨S128x128, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x1, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_3 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x64, .f32⟩
  | 6 => ⟨S1x64, .f32⟩
  | 7 => ⟨S50000x64, .f32⟩
  | 8 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call0_cst : Ref sig .tc := ⟨.hbm, 100, rfl⟩
abbrev main_call0_v0 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_c_14 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_15 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_16 : Ref sig .tc := ⟨.hbm, 147, rfl⟩
abbrev main_v91 : Ref sig .tc := ⟨.hbm, 148, rfl⟩
abbrev main_v92 : Ref sig .tc := ⟨.hbm, 149, rfl⟩
abbrev main_c_17 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_18 : Ref sig .tc := ⟨.hbm, 156, rfl⟩
abbrev main_v98 : Ref sig .tc := ⟨.hbm, 157, rfl⟩
abbrev main_v99 : Ref sig .tc := ⟨.hbm, 158, rfl⟩
abbrev main_c_19 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_20 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_c_21 : Ref sig .tc := ⟨.hbm, 183, rfl⟩
abbrev main_v122 : Ref sig .tc := ⟨.hbm, 184, rfl⟩
abbrev main_v123 : Ref sig .tc := ⟨.hbm, 185, rfl⟩
abbrev main_c_22 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_23 : Ref sig .tc := ⟨.hbm, 192, rfl⟩
abbrev main_v129 : Ref sig .tc := ⟨.hbm, 193, rfl⟩
abbrev main_v130 : Ref sig .tc := ⟨.hbm, 194, rfl⟩
abbrev main_c_24 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_25 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_26 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_call2_cst : Ref sig .tc := ⟨.hbm, 222, rfl⟩
abbrev main_call2_v0 : Ref sig .tc := ⟨.hbm, 223, rfl⟩
abbrev main_v155 : Ref sig .tc := ⟨.hbm, 224, rfl⟩
abbrev main_c_27 : Ref sig .tc := ⟨.hbm, 225, rfl⟩
abbrev main_v156 : Ref sig .tc := ⟨.hbm, 226, rfl⟩
abbrev main_v157 : Ref sig .tc := ⟨.hbm, 227, rfl⟩
abbrev main_c_28 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_c_29 : Ref sig .tc := ⟨.hbm, 234, rfl⟩
abbrev main_v163 : Ref sig .tc := ⟨.hbm, 235, rfl⟩
abbrev main_v164 : Ref sig .tc := ⟨.hbm, 236, rfl⟩
abbrev main_c_30 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_31 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_c_32 : Ref sig .tc := ⟨.hbm, 261, rfl⟩
abbrev main_v187 : Ref sig .tc := ⟨.hbm, 262, rfl⟩
abbrev main_v188 : Ref sig .tc := ⟨.hbm, 263, rfl⟩
abbrev main_c_33 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_c_34 : Ref sig .tc := ⟨.hbm, 270, rfl⟩
abbrev main_v194 : Ref sig .tc := ⟨.hbm, 271, rfl⟩
abbrev main_v195 : Ref sig .tc := ⟨.hbm, 272, rfl⟩
abbrev main_c_35 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_cst_36 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_cst_37 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_call3_cst : Ref sig .tc := ⟨.hbm, 300, rfl⟩
abbrev main_call3_v0 : Ref sig .tc := ⟨.hbm, 301, rfl⟩
abbrev main_v220 : Ref sig .tc := ⟨.hbm, 302, rfl⟩
abbrev main_c_38 : Ref sig .tc := ⟨.hbm, 303, rfl⟩
abbrev main_v221 : Ref sig .tc := ⟨.hbm, 304, rfl⟩
abbrev main_v222 : Ref sig .tc := ⟨.hbm, 305, rfl⟩
abbrev main_c_39 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_c_40 : Ref sig .tc := ⟨.hbm, 312, rfl⟩
abbrev main_v228 : Ref sig .tc := ⟨.hbm, 313, rfl⟩
abbrev main_v229 : Ref sig .tc := ⟨.hbm, 314, rfl⟩
abbrev main_c_41 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_cst_42 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_c_43 : Ref sig .tc := ⟨.hbm, 339, rfl⟩
abbrev main_v252 : Ref sig .tc := ⟨.hbm, 340, rfl⟩
abbrev main_v253 : Ref sig .tc := ⟨.hbm, 341, rfl⟩
abbrev main_c_44 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_c_45 : Ref sig .tc := ⟨.hbm, 348, rfl⟩
abbrev main_v259 : Ref sig .tc := ⟨.hbm, 349, rfl⟩
abbrev main_v260 : Ref sig .tc := ⟨.hbm, 350, rfl⟩
abbrev main_c_46 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_cst_47 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_cst_48 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_call4_cst : Ref sig .tc := ⟨.hbm, 378, rfl⟩
abbrev main_call4_v0 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_call5_cst : Ref sig .tc := ⟨.hbm, 386, rfl⟩
abbrev main_call5_v0 : Ref sig .tc := ⟨.hbm, 387, rfl⟩
abbrev main_v291 : Ref sig .tc := ⟨.hbm, 388, rfl⟩
abbrev main_v292 : Ref sig .tc := ⟨.hbm, 389, rfl⟩
abbrev main_v293 : Ref sig .tc := ⟨.hbm, 390, rfl⟩
abbrev main_v294 : Ref sig .tc := ⟨.hbm, 391, rfl⟩
abbrev main_v295 : Ref sig .tc := ⟨.hbm, 392, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/- The kernel program's run, with its result buffer read at the last boundary's contents.

   Every weakly fair execution of @main on the TensorCores terminates without a fault; in every final state
   the result buffer `main_v231` holds the contents `Gen.W12 m ρ c` — the fold of @main's twelve segments
   (host stretches and pipelined regions) over the launch memory — and each of the fifteen argument arrays
   holds what it held at launch.  The run is the segment-by-segment composition: the last thread state holds
   EVERY unscoped buffer at `W12`, and the final memory is read against it buffer by buffer. -/
import proofs.«144721_j84121229460224_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main from any memory with zero counters: it terminates, nothing faults, the result buffer ends at
    the last boundary's contents `W12`, and every argument array ends as launched. -/
theorem run_value : θ_run defs (onTc (τ := τ) (main (F := F))) ⟨m, fun _ => 0, ρ⟩ (fun r => ∀ c : Dev nD,
      r.2.mem ((c.tc : Thread nD τ).loc main_v231) = W12 m ρ c (Proc.devRef .tc main_v231)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v231 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.KRun

end
-- ==== Proof.KernelWrites.lean ====
/- The result buffers of the kernel program's host stretches: for each literal list `hostOpsK` of the launch
   module, the buffer its n-th operation writes, in order.  A table only; that each operation writes inside its
   stretch's list is proved where the table is used.  (The lists are only reasoned about, never run.) -/
import proofs.«144721_j84121229460224_1_alg».proof.Proof.Gen.KernelIdeal.Launch

namespace Cert.KernelIdeal.KKeep

open Idealize.ShloMosaic

/-- The result buffers of `hostOps0` (71 operations), in order. -/
noncomputable def writes0 : List (Ref sig .tc) :=
  [main_cst, main_v0, main_cst_0, main_v1, main_v2, main_v3, main_cst_1, main_v4,
   main_v5, main_v6, main_c, main_v7, main_v8, main_c_2, main_v9, main_v10,
   main_v11, main_v12, main_v13, main_c_3, main_v14, main_v15, main_c_4, main_v16,
   main_v17, main_v18, main_v19, main_v20, main_v21, main_v22, main_v23, main_cst_5,
   main_v24, main_v25, main_v26, main_v27, main_v28, main_v29, main_v30, main_c_6,
   main_v31, main_v32, main_c_7, main_v33, main_v34, main_v35, main_v36, main_v37,
   main_c_8, main_v38, main_v39, main_c_9, main_v40, main_v41, main_v42, main_v43,
   main_v44, main_v45, main_v46, main_v47, main_cst_10, main_v48, main_v49, main_v50,
   main_v51, main_v52, main_v53, main_cst_11, main_v54, main_v55, main_v56]

/-- The result buffers of `hostOps1` (6 operations), in order. -/
noncomputable def writes1 : List (Ref sig .tc) :=
  [main_cst_12, main_v58, main_cst_13, main_v59, main_v60, main_c_14]

/-- The result buffers of `hostOps1_1` (22 operations), in order. -/
noncomputable def writes1_1 : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v61]

/-- The result buffers of `hostOps1_2` (77 operations), in order. -/
noncomputable def writes1_2 : List (Ref sig .tc) :=
  [main_v62, main_v63, main_v64, main_cst_15, main_v65, main_v66, main_v67, main_v68,
   main_v69, main_v70, main_v71, main_v72, main_v73, main_v74, main_v75, main_v76,
   main_c_16, main_v77, main_v78, main_c_17, main_v79, main_v80, main_v81, main_v82,
   main_v83, main_c_18, main_v84, main_v85, main_c_19, main_v86, main_v87, main_v88,
   main_v89, main_v90, main_v91, main_v92, main_v93, main_cst_20, main_v94, main_v95,
   main_v96, main_v97, main_v98, main_v99, main_v100, main_c_21, main_v101, main_v102,
   main_c_22, main_v103, main_v104, main_v105, main_v106, main_v107, main_c_23, main_v108,
   main_v109, main_c_24, main_v110, main_v111, main_v112, main_v113, main_v114, main_v115,
   main_v116, main_v117, main_cst_25, main_v118, main_v119, main_v120, main_v121, main_v122,
   main_v123, main_cst_26, main_v124, main_v125, main_v126]

/-- The result buffers of `hostOps2` (61 operations), in order. -/
noncomputable def writes2 : List (Ref sig .tc) :=
  [main_c_27, main_v128, main_v129, main_c_28, main_v130, main_v131, main_v132, main_v133,
   main_v134, main_c_29, main_v135, main_v136, main_c_30, main_v137, main_v138, main_v139,
   main_v140, main_v141, main_v142, main_v143, main_v144, main_cst_31, main_v145, main_v146,
   main_v147, main_v148, main_v149, main_v150, main_v151, main_c_32, main_v152, main_v153,
   main_c_33, main_v154, main_v155, main_v156, main_v157, main_v158, main_c_34, main_v159,
   main_v160, main_c_35, main_v161, main_v162, main_v163, main_v164, main_v165, main_v166,
   main_v167, main_v168, main_cst_36, main_v169, main_v170, main_v171, main_v172, main_v173,
   main_v174, main_cst_37, main_v175, main_v176, main_v177]

/-- The result buffers of `hostOps3` (61 operations), in order. -/
noncomputable def writes3 : List (Ref sig .tc) :=
  [main_c_38, main_v179, main_v180, main_c_39, main_v181, main_v182, main_v183, main_v184,
   main_v185, main_c_40, main_v186, main_v187, main_c_41, main_v188, main_v189, main_v190,
   main_v191, main_v192, main_v193, main_v194, main_v195, main_cst_42, main_v196, main_v197,
   main_v198, main_v199, main_v200, main_v201, main_v202, main_c_43, main_v203, main_v204,
   main_c_44, main_v205, main_v206, main_v207, main_v208, main_v209, main_c_45, main_v210,
   main_v211, main_c_46, main_v212, main_v213, main_v214, main_v215, main_v216, main_v217,
   main_v218, main_v219, main_cst_47, main_v220, main_v221, main_v222, main_v223, main_v224,
   main_v225, main_cst_48, main_v226, main_v227, main_v228]

/-- The result buffers of `hostOps4` (1 operations), in order. -/
noncomputable def writes4 : List (Ref sig .tc) :=
  [main_v230]

end Cert.KernelIdeal.KKeep
-- ==== Proof.KernelKeepHost.lean ====
/- What a host stretch of the kernel program leaves alone.

   Each stretch of host operations between two pipelined regions is a literal list of operations, and every
   operation writes exactly one buffer, its result.  So a buffer that is not the result of any operation of
   the stretch holds after the stretch what it held before it, whatever the contents `V` the stretch starts
   from.  Per stretch, over the table of its result buffers (`writesK`, its own module): every operation
   writes inside that list (`writesK_sub`), and the kept-buffer lemma `keepK` for any reference outside it. -/
import proofs.«144721_j84121229460224_1_alg».proof.Proof.KernelWrites
import Idealize.ShloMosaic.Lib.StableHlo.Run

set_option maxRecDepth 16384

noncomputable section

namespace Cert.KernelIdeal.KKeep

open Idealize.ShloMosaic Idealize.ShloMosaic.TcCoe
open Cert.KernelIdeal.Gen

variable {F : FTy → Type} [FloatOps F]

/-- A singleton of a listed reference lies inside the listed references, read as device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation of a literal stretch writes inside the listed references: unfold the stretch, read each
    operation's one result buffer off its builder, and find it in the list. -/
local macro "writes_in_list" ops:ident : tactic =>
  `(tactic| (
    simp only [$ops:ident, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)))

set_option maxHeartbeats 4000000 in
theorem writes0_sub : (hostOps0 : List (HloOp τ sig (Elt F))).Forall fun op =>
    op.writes ⊆ (writes0.map (Proc.devRef (τ := τ) .tc)).toFinset := by
  writes_in_list hostOps0
/-- A buffer that is no result of `hostOps0` holds after it what it held before. -/
theorem keep0 (V : Valuation τ sig (Elt F)) (r : Ref sig .tc) (hr : r ∉ writes0) :
    StableHlo.after hostOps0 V (Proc.devRef .tc r) = V (Proc.devRef .tc r) :=
  StableHlo.after_of_writes_sub hostOps0 V writes0_sub hr

theorem writes1_sub : (hostOps1 : List (HloOp τ sig (Elt F))).Forall fun op =>
    op.writes ⊆ (writes1.map (Proc.devRef (τ := τ) .tc)).toFinset := by
  writes_in_list hostOps1
/-- A buffer that is no result of `hostOps1` holds after it what it held before. -/
theorem keep1 (V : Valuation τ sig (Elt F)) (r : Ref sig .tc) (hr : r ∉ writes1) :
    StableHlo.after hostOps1 V (Proc.devRef .tc r) = V (Proc.devRef .tc r) :=
  StableHlo.after_of_writes_sub hostOps1 V writes1_sub hr

theorem writes1_1_sub : (hostOps1_1 : List (HloOp τ sig (Elt F))).Forall fun op =>
    op.writes ⊆ (writes1_1.map (Proc.devRef (τ := τ) .tc)).toFinset := by
  writes_in_list hostOps1_1
/-- A buffer that is no result of `hostOps1_1` holds after it what it held before. -/
theorem keep1_1 (V : Valuation τ sig (Elt F)) (r : Ref sig .tc) (hr : r ∉ writes1_1) :
    StableHlo.after hostOps1_1 V (Proc.devRef .tc r) = V (Proc.devRef .tc r) :=
  StableHlo.after_of_writes_sub hostOps1_1 V writes1_1_sub hr

set_option maxHeartbeats 4000000 in
theorem writes1_2_sub : (hostOps1_2 : List (HloOp τ sig (Elt F))).Forall fun op =>
    op.writes ⊆ (writes1_2.map (Proc.devRef (τ := τ) .tc)).toFinset := by
  writes_in_list hostOps1_2
/-- A buffer that is no result of `hostOps1_2` holds after it what it held before. -/
theorem keep1_2 (V : Valuation τ sig (Elt F)) (r : Ref sig .tc) (hr : r ∉ writes1_2) :
    StableHlo.after hostOps1_2 V (Proc.devRef .tc r) = V (Proc.devRef .tc r) :=
  StableHlo.after_of_writes_sub hostOps1_2 V writes1_2_sub hr

set_option maxHeartbeats 4000000 in
theorem writes2_sub : (hostOps2 : List (HloOp τ sig (Elt F))).Forall fun op =>
    op.writes ⊆ (writes2.map (Proc.devRef (τ := τ) .tc)).toFinset := by
  writes_in_list hostOps2
/-- A buffer that is no result of `hostOps2` holds after it what it held before. -/
theorem keep2 (V : Valuation τ sig (Elt F)) (r : Ref sig .tc) (hr : r ∉ writes2) :
    StableHlo.after hostOps2 V (Proc.devRef .tc r) = V (Proc.devRef .tc r) :=
  StableHlo.after_of_writes_sub hostOps2 V writes2_sub hr

set_option maxHeartbeats 4000000 in
theorem writes3_sub : (hostOps3 : List (HloOp τ sig (Elt F))).Forall fun op =>
    op.writes ⊆ (writes3.map (Proc.devRef (τ := τ) .tc)).toFinset := by
  writes_in_list hostOps3
/-- A buffer that is no result of `hostOps3` holds after it what it held before. -/
theorem keep3 (V : Valuation τ sig (Elt F)) (r : Ref sig .tc) (hr : r ∉ writes3) :
    StableHlo.after hostOps3 V (Proc.devRef .tc r) = V (Proc.devRef .tc r) :=
  StableHlo.after_of_writes_sub hostOps3 V writes3_sub hr

theorem writes4_sub : (hostOps4 : List (HloOp τ sig (Elt F))).Forall fun op =>
    op.writes ⊆ (writes4.map (Proc.devRef (τ := τ) .tc)).toFinset := by
  writes_in_list hostOps4
/-- A buffer that is no result of `hostOps4` holds after it what it held before. -/
theorem keep4 (V : Valuation τ sig (Elt F)) (r : Ref sig .tc) (hr : r ∉ writes4) :
    StableHlo.after hostOps4 V (Proc.devRef .tc r) = V (Proc.devRef .tc r) :=
  StableHlo.after_of_writes_sub hostOps4 V writes4_sub hr

end Cert.KernelIdeal.KKeep

end
-- ==== Proof.KernelKeep.lean ====
/- The buffers the kernel program's value chain reads, traced back through the segments that leave them alone.

   The run of @main is twelve segments — host stretches and pipelined regions alternating — and `Gen.WJ m ρ c` is
   core `c`'s buffer contents at the boundary after segment J.  A host stretch leaves every buffer that is not one
   of its results (`keepK`); a region leaves every buffer that is not one of its six arrays, and leaves its five
   input arrays as it found them (an input window is never written back).  Composing these per segment:
     * each argument array still holds its launch contents at every boundary where a later segment reads it;
     * the inverse square-root degree vector `main_v6`, computed once in the first stretch, is unchanged at every
       later boundary that reads it;
     * the layer outputs `main_v57`, `main_v127`, `main_v178` and the column mean `main_v60` survive the stretches
       and the region that read them.
   Also recorded: each region's output array at the region's exit is what the pipeline's write-backs leave. -/
import proofs.«144721_j84121229460224_1_alg».proof.Proof.Gen.KernelIdeal.Frame
import proofs.«144721_j84121229460224_1_alg».proof.Proof.KernelKeepHost

set_option maxRecDepth 16384

noncomputable section

namespace Cert.KernelIdeal.KKeep

open Idealize.ShloMosaic Idealize.ShloMosaic.TcCoe
open Cert.KernelIdeal.Gen

variable {F : FTy → Type} [FloatOps F]
variable (m : (ℓ : Loc nD τ sig) → Buf (Elt F) ℓ) (ρ : Dev nD → PrngReg)

/-! ## The argument arrays at the boundaries that read them -/

-- `main_arg0`: launch contents at boundaries 1 to 1
theorem W1_arg0 (c : Dev nD) : Gen.W1 m ρ c (Proc.devRef .tc main_arg0) = m ((c : Thread nD τ).loc main_arg0) :=
  keep0 (Gen.W0 m ρ c) main_arg0 (by decide)

-- `main_arg1`: launch contents at boundaries 1 to 8
theorem W1_arg1 (c : Dev nD) : Gen.W1 m ρ c (Proc.devRef .tc main_arg1) = m ((c : Thread nD τ).loc main_arg1) :=
  keep0 (Gen.W0 m ρ c) main_arg1 (by decide)
theorem W2_arg1 (c : Dev nD) : Gen.W2 m ρ c (Proc.devRef .tc main_arg1) = m ((c : Thread nD τ).loc main_arg1) :=
  (Gen.W2_of_ne m ρ c main_arg1 (by decide)).trans (W1_arg1 m ρ c)
theorem W3_arg1 (c : Dev nD) : Gen.W3 m ρ c (Proc.devRef .tc main_arg1) = m ((c : Thread nD τ).loc main_arg1) :=
  (keep1 (Gen.W2 m ρ c) main_arg1 (by decide)).trans (W2_arg1 m ρ c)
theorem W4_arg1 (c : Dev nD) : Gen.W4 m ρ c (Proc.devRef .tc main_arg1) = m ((c : Thread nD τ).loc main_arg1) :=
  (keep1_1 (Gen.W3 m ρ c) main_arg1 (by decide)).trans (W3_arg1 m ρ c)
theorem W5_arg1 (c : Dev nD) : Gen.W5 m ρ c (Proc.devRef .tc main_arg1) = m ((c : Thread nD τ).loc main_arg1) :=
  (keep1_2 (Gen.W4 m ρ c) main_arg1 (by decide)).trans (W4_arg1 m ρ c)
theorem W6_arg1 (c : Dev nD) : Gen.W6 m ρ c (Proc.devRef .tc main_arg1) = m ((c : Thread nD τ).loc main_arg1) :=
  (Gen.W6_of_ne m ρ c main_arg1 (by decide)).trans (W5_arg1 m ρ c)
theorem W7_arg1 (c : Dev nD) : Gen.W7 m ρ c (Proc.devRef .tc main_arg1) = m ((c : Thread nD τ).loc main_arg1) :=
  (keep2 (Gen.W6 m ρ c) main_arg1 (by decide)).trans (W6_arg1 m ρ c)
theorem W8_arg1 (c : Dev nD) : Gen.W8 m ρ c (Proc.devRef .tc main_arg1) = m ((c : Thread nD τ).loc main_arg1) :=
  (Gen.W8_of_ne m ρ c main_arg1 (by decide)).trans (W7_arg1 m ρ c)

-- `main_arg2`: launch contents at boundaries 1 to 8
theorem W1_arg2 (c : Dev nD) : Gen.W1 m ρ c (Proc.devRef .tc main_arg2) = m ((c : Thread nD τ).loc main_arg2) :=
  keep0 (Gen.W0 m ρ c) main_arg2 (by decide)
theorem W2_arg2 (c : Dev nD) : Gen.W2 m ρ c (Proc.devRef .tc main_arg2) = m ((c : Thread nD τ).loc main_arg2) :=
  (Gen.W2_of_ne m ρ c main_arg2 (by decide)).trans (W1_arg2 m ρ c)
theorem W3_arg2 (c : Dev nD) : Gen.W3 m ρ c (Proc.devRef .tc main_arg2) = m ((c : Thread nD τ).loc main_arg2) :=
  (keep1 (Gen.W2 m ρ c) main_arg2 (by decide)).trans (W2_arg2 m ρ c)
theorem W4_arg2 (c : Dev nD) : Gen.W4 m ρ c (Proc.devRef .tc main_arg2) = m ((c : Thread nD τ).loc main_arg2) :=
  (keep1_1 (Gen.W3 m ρ c) main_arg2 (by decide)).trans (W3_arg2 m ρ c)
theorem W5_arg2 (c : Dev nD) : Gen.W5 m ρ c (Proc.devRef .tc main_arg2) = m ((c : Thread nD τ).loc main_arg2) :=
  (keep1_2 (Gen.W4 m ρ c) main_arg2 (by decide)).trans (W4_arg2 m ρ c)
theorem W6_arg2 (c : Dev nD) : Gen.W6 m ρ c (Proc.devRef .tc main_arg2) = m ((c : Thread nD τ).loc main_arg2) :=
  (Gen.W6_of_ne m ρ c main_arg2 (by decide)).trans (W5_arg2 m ρ c)
theorem W7_arg2 (c : Dev nD) : Gen.W7 m ρ c (Proc.devRef .tc main_arg2) = m ((c : Thread nD τ).loc main_arg2) :=
  (keep2 (Gen.W6 m ρ c) main_arg2 (by decide)).trans (W6_arg2 m ρ c)
theorem W8_arg2 (c : Dev nD) : Gen.W8 m ρ c (Proc.devRef .tc main_arg2) = m ((c : Thread nD τ).loc main_arg2) :=
  (Gen.W8_of_ne m ρ c main_arg2 (by decide)).trans (W7_arg2 m ρ c)

-- `main_arg3`: launch contents at boundaries 1 to 1
theorem W1_arg3 (c : Dev nD) : Gen.W1 m ρ c (Proc.devRef .tc main_arg3) = m ((c : Thread nD τ).loc main_arg3) :=
  keep0 (Gen.W0 m ρ c) main_arg3 (by decide)

-- `main_arg4`: launch contents at boundaries 1 to 1
theorem W1_arg4 (c : Dev nD) : Gen.W1 m ρ c (Proc.devRef .tc main_arg4) = m ((c : Thread nD τ).loc main_arg4) :=
  keep0 (Gen.W0 m ρ c) main_arg4 (by decide)

-- `main_arg5`: launch contents at boundaries 1 to 7
theorem W1_arg5 (c : Dev nD) : Gen.W1 m ρ c (Proc.devRef .tc main_arg5) = m ((c : Thread nD τ).loc main_arg5) :=
  keep0 (Gen.W0 m ρ c) main_arg5 (by decide)
theorem W2_arg5 (c : Dev nD) : Gen.W2 m ρ c (Proc.devRef .tc main_arg5) = m ((c : Thread nD τ).loc main_arg5) :=
  (Gen.W2_of_ne m ρ c main_arg5 (by decide)).trans (W1_arg5 m ρ c)
theorem W3_arg5 (c : Dev nD) : Gen.W3 m ρ c (Proc.devRef .tc main_arg5) = m ((c : Thread nD τ).loc main_arg5) :=
  (keep1 (Gen.W2 m ρ c) main_arg5 (by decide)).trans (W2_arg5 m ρ c)
theorem W4_arg5 (c : Dev nD) : Gen.W4 m ρ c (Proc.devRef .tc main_arg5) = m ((c : Thread nD τ).loc main_arg5) :=
  (keep1_1 (Gen.W3 m ρ c) main_arg5 (by decide)).trans (W3_arg5 m ρ c)
theorem W5_arg5 (c : Dev nD) : Gen.W5 m ρ c (Proc.devRef .tc main_arg5) = m ((c : Thread nD τ).loc main_arg5) :=
  (keep1_2 (Gen.W4 m ρ c) main_arg5 (by decide)).trans (W4_arg5 m ρ c)
theorem W6_arg5 (c : Dev nD) : Gen.W6 m ρ c (Proc.devRef .tc main_arg5) = m ((c : Thread nD τ).loc main_arg5) :=
  ((Gen.W6_arr m ρ c 3).trans (((Gen.dat1 (Gen.V5 m ρ) c).arrAt_in 3 rfl _).trans (Gen.A_eq1 (Gen.V5 m ρ) c 3))).trans (W5_arg5 m ρ c)
theorem W7_arg5 (c : Dev nD) : Gen.W7 m ρ c (Proc.devRef .tc main_arg5) = m ((c : Thread nD τ).loc main_arg5) :=
  (keep2 (Gen.W6 m ρ c) main_arg5 (by decide)).trans (W6_arg5 m ρ c)

-- `main_arg6`: launch contents at boundaries 1 to 7
theorem W1_arg6 (c : Dev nD) : Gen.W1 m ρ c (Proc.devRef .tc main_arg6) = m ((c : Thread nD τ).loc main_arg6) :=
  keep0 (Gen.W0 m ρ c) main_arg6 (by decide)
theorem W2_arg6 (c : Dev nD) : Gen.W2 m ρ c (Proc.devRef .tc main_arg6) = m ((c : Thread nD τ).loc main_arg6) :=
  (Gen.W2_of_ne m ρ c main_arg6 (by decide)).trans (W1_arg6 m ρ c)
theorem W3_arg6 (c : Dev nD) : Gen.W3 m ρ c (Proc.devRef .tc main_arg6) = m ((c : Thread nD τ).loc main_arg6) :=
  (keep1 (Gen.W2 m ρ c) main_arg6 (by decide)).trans (W2_arg6 m ρ c)
theorem W4_arg6 (c : Dev nD) : Gen.W4 m ρ c (Proc.devRef .tc main_arg6) = m ((c : Thread nD τ).loc main_arg6) :=
  (keep1_1 (Gen.W3 m ρ c) main_arg6 (by decide)).trans (W3_arg6 m ρ c)
theorem W5_arg6 (c : Dev nD) : Gen.W5 m ρ c (Proc.devRef .tc main_arg6) = m ((c : Thread nD τ).loc main_arg6) :=
  (keep1_2 (Gen.W4 m ρ c) main_arg6 (by decide)).trans (W4_arg6 m ρ c)
theorem W6_arg6 (c : Dev nD) : Gen.W6 m ρ c (Proc.devRef .tc main_arg6) = m ((c : Thread nD τ).loc main_arg6) :=
  ((Gen.W6_arr m ρ c 4).trans (((Gen.dat1 (Gen.V5 m ρ) c).arrAt_in 4 rfl _).trans (Gen.A_eq1 (Gen.V5 m ρ) c 4))).trans (W5_arg6 m ρ c)
theorem W7_arg6 (c : Dev nD) : Gen.W7 m ρ c (Proc.devRef .tc main_arg6) = m ((c : Thread nD τ).loc main_arg6) :=
  (keep2 (Gen.W6 m ρ c) main_arg6 (by decide)).trans (W6_arg6 m ρ c)

-- `main_arg7`: launch contents at boundaries 1 to 9
theorem W1_arg7 (c : Dev nD) : Gen.W1 m ρ c (Proc.devRef .tc main_arg7) = m ((c : Thread nD τ).loc main_arg7) :=
  keep0 (Gen.W0 m ρ c) main_arg7 (by decide)
theorem W2_arg7 (c : Dev nD) : Gen.W2 m ρ c (Proc.devRef .tc main_arg7) = m ((c : Thread nD τ).loc main_arg7) :=
  (Gen.W2_of_ne m ρ c main_arg7 (by decide)).trans (W1_arg7 m ρ c)
theorem W3_arg7 (c : Dev nD) : Gen.W3 m ρ c (Proc.devRef .tc main_arg7) = m ((c : Thread nD τ).loc main_arg7) :=
  (keep1 (Gen.W2 m ρ c) main_arg7 (by decide)).trans (W2_arg7 m ρ c)
theorem W4_arg7 (c : Dev nD) : Gen.W4 m ρ c (Proc.devRef .tc main_arg7) = m ((c : Thread nD τ).loc main_arg7) :=
  (keep1_1 (Gen.W3 m ρ c) main_arg7 (by decide)).trans (W3_arg7 m ρ c)
theorem W5_arg7 (c : Dev nD) : Gen.W5 m ρ c (Proc.devRef .tc main_arg7) = m ((c : Thread nD τ).loc main_arg7) :=
  (keep1_2 (Gen.W4 m ρ c) main_arg7 (by decide)).trans (W4_arg7 m ρ c)
theorem W6_arg7 (c : Dev nD) : Gen.W6 m ρ c (Proc.devRef .tc main_arg7) = m ((c : Thread nD τ).loc main_arg7) :=
  (Gen.W6_of_ne m ρ c main_arg7 (by decide)).trans (W5_arg7 m ρ c)
theorem W7_arg7 (c : Dev nD) : Gen.W7 m ρ c (Proc.devRef .tc main_arg7) = m ((c : Thread nD τ).loc main_arg7) :=
  (keep2 (Gen.W6 m ρ c) main_arg7 (by decide)).trans (W6_arg7 m ρ c)
theorem W8_arg7 (c : Dev nD) : Gen.W8 m ρ c (Proc.devRef .tc main_arg7) = m ((c : Thread nD τ).loc main_arg7) :=
  (Gen.W8_of_ne m ρ c main_arg7 (by decide)).trans (W7_arg7 m ρ c)
theorem W9_arg7 (c : Dev nD) : Gen.W9 m ρ c (Proc.devRef .tc main_arg7) = m ((c : Thread nD τ).loc main_arg7) :=
  (keep3 (Gen.W8 m ρ c) main_arg7 (by decide)).trans (W8_arg7 m ρ c)

-- `main_arg8`: launch contents at boundaries 1 to 9
theorem W1_arg8 (c : Dev nD) : Gen.W1 m ρ c (Proc.devRef .tc main_arg8) = m ((c : Thread nD τ).loc main_arg8) :=
  keep0 (Gen.W0 m ρ c) main_arg8 (by decide)
theorem W2_arg8 (c : Dev nD) : Gen.W2 m ρ c (Proc.devRef .tc main_arg8) = m ((c : Thread nD τ).loc main_arg8) :=
  (Gen.W2_of_ne m ρ c main_arg8 (by decide)).trans (W1_arg8 m ρ c)
theorem W3_arg8 (c : Dev nD) : Gen.W3 m ρ c (Proc.devRef .tc main_arg8) = m ((c : Thread nD τ).loc main_arg8) :=
  (keep1 (Gen.W2 m ρ c) main_arg8 (by decide)).trans (W2_arg8 m ρ c)
theorem W4_arg8 (c : Dev nD) : Gen.W4 m ρ c (Proc.devRef .tc main_arg8) = m ((c : Thread nD τ).loc main_arg8) :=
  (keep1_1 (Gen.W3 m ρ c) main_arg8 (by decide)).trans (W3_arg8 m ρ c)
theorem W5_arg8 (c : Dev nD) : Gen.W5 m ρ c (Proc.devRef .tc main_arg8) = m ((c : Thread nD τ).loc main_arg8) :=
  (keep1_2 (Gen.W4 m ρ c) main_arg8 (by decide)).trans (W4_arg8 m ρ c)
theorem W6_arg8 (c : Dev nD) : Gen.W6 m ρ c (Proc.devRef .tc main_arg8) = m ((c : Thread nD τ).loc main_arg8) :=
  (Gen.W6_of_ne m ρ c main_arg8 (by decide)).trans (W5_arg8 m ρ c)
theorem W7_arg8 (c : Dev nD) : Gen.W7 m ρ c (Proc.devRef .tc main_arg8) = m ((c : Thread nD τ).loc main_arg8) :=
  (keep2 (Gen.W6 m ρ c) main_arg8 (by decide)).trans (W6_arg8 m ρ c)
theorem W8_arg8 (c : Dev nD) : Gen.W8 m ρ c (Proc.devRef .tc main_arg8) = m ((c : Thread nD τ).loc main_arg8) :=
  (Gen.W8_of_ne m ρ c main_arg8 (by decide)).trans (W7_arg8 m ρ c)
theorem W9_arg8 (c : Dev nD) : Gen.W9 m ρ c (Proc.devRef .tc main_arg8) = m ((c : Thread nD τ).loc main_arg8) :=
  (keep3 (Gen.W8 m ρ c) main_arg8 (by decide)).trans (W8_arg8 m ρ c)

-- `main_arg9`: launch contents at boundaries 1 to 4
theorem W1_arg9 (c : Dev nD) : Gen.W1 m ρ c (Proc.devRef .tc main_arg9) = m ((c : Thread nD τ).loc main_arg9) :=
  keep0 (Gen.W0 m ρ c) main_arg9 (by decide)
theorem W2_arg9 (c : Dev nD) : Gen.W2 m ρ c (Proc.devRef .tc main_arg9) = m ((c : Thread nD τ).loc main_arg9) :=
  (Gen.W2_of_ne m ρ c main_arg9 (by decide)).trans (W1_arg9 m ρ c)
theorem W3_arg9 (c : Dev nD) : Gen.W3 m ρ c (Proc.devRef .tc main_arg9) = m ((c : Thread nD τ).loc main_arg9) :=
  (keep1 (Gen.W2 m ρ c) main_arg9 (by decide)).trans (W2_arg9 m ρ c)
theorem W4_arg9 (c : Dev nD) : Gen.W4 m ρ c (Proc.devRef .tc main_arg9) = m ((c : Thread nD τ).loc main_arg9) :=
  (keep1_1 (Gen.W3 m ρ c) main_arg9 (by decide)).trans (W3_arg9 m ρ c)

-- `main_arg10`: launch contents at boundaries 1 to 4
theorem W1_arg10 (c : Dev nD) : Gen.W1 m ρ c (Proc.devRef .tc main_arg10) = m ((c : Thread nD τ).loc main_arg10) :=
  keep0 (Gen.W0 m ρ c) main_arg10 (by decide)
theorem W2_arg10 (c : Dev nD) : Gen.W2 m ρ c (Proc.devRef .tc main_arg10) = m ((c : Thread nD τ).loc main_arg10) :=
  (Gen.W2_of_ne m ρ c main_arg10 (by decide)).trans (W1_arg10 m ρ c)
theorem W3_arg10 (c : Dev nD) : Gen.W3 m ρ c (Proc.devRef .tc main_arg10) = m ((c : Thread nD τ).loc main_arg10) :=
  (keep1 (Gen.W2 m ρ c) main_arg10 (by decide)).trans (W2_arg10 m ρ c)
theorem W4_arg10 (c : Dev nD) : Gen.W4 m ρ c (Proc.devRef .tc main_arg10) = m ((c : Thread nD τ).loc main_arg10) :=
  (keep1_1 (Gen.W3 m ρ c) main_arg10 (by decide)).trans (W3_arg10 m ρ c)

-- `main_arg11`: launch contents at boundaries 1 to 11
theorem W1_arg11 (c : Dev nD) : Gen.W1 m ρ c (Proc.devRef .tc main_arg11) = m ((c : Thread nD τ).loc main_arg11) :=
  keep0 (Gen.W0 m ρ c) main_arg11 (by decide)
theorem W2_arg11 (c : Dev nD) : Gen.W2 m ρ c (Proc.devRef .tc main_arg11) = m ((c : Thread nD τ).loc main_arg11) :=
  (Gen.W2_of_ne m ρ c main_arg11 (by decide)).trans (W1_arg11 m ρ c)
theorem W3_arg11 (c : Dev nD) : Gen.W3 m ρ c (Proc.devRef .tc main_arg11) = m ((c : Thread nD τ).loc main_arg11) :=
  (keep1 (Gen.W2 m ρ c) main_arg11 (by decide)).trans (W2_arg11 m ρ c)
theorem W4_arg11 (c : Dev nD) : Gen.W4 m ρ c (Proc.devRef .tc main_arg11) = m ((c : Thread nD τ).loc main_arg11) :=
  (keep1_1 (Gen.W3 m ρ c) main_arg11 (by decide)).trans (W3_arg11 m ρ c)
theorem W5_arg11 (c : Dev nD) : Gen.W5 m ρ c (Proc.devRef .tc main_arg11) = m ((c : Thread nD τ).loc main_arg11) :=
  (keep1_2 (Gen.W4 m ρ c) main_arg11 (by decide)).trans (W4_arg11 m ρ c)
theorem W6_arg11 (c : Dev nD) : Gen.W6 m ρ c (Proc.devRef .tc main_arg11) = m ((c : Thread nD τ).loc main_arg11) :=
  (Gen.W6_of_ne m ρ c main_arg11 (by decide)).trans (W5_arg11 m ρ c)
theorem W7_arg11 (c : Dev nD) : Gen.W7 m ρ c (Proc.devRef .tc main_arg11) = m ((c : Thread nD τ).loc main_arg11) :=
  (keep2 (Gen.W6 m ρ c) main_arg11 (by decide)).trans (W6_arg11 m ρ c)
theorem W8_arg11 (c : Dev nD) : Gen.W8 m ρ c (Proc.devRef .tc main_arg11) = m ((c : Thread nD τ).loc main_arg11) :=
  (Gen.W8_of_ne m ρ c main_arg11 (by decide)).trans (W7_arg11 m ρ c)
theorem W9_arg11 (c : Dev nD) : Gen.W9 m ρ c (Proc.devRef .tc main_arg11) = m ((c : Thread nD τ).loc main_arg11) :=
  (keep3 (Gen.W8 m ρ c) main_arg11 (by decide)).trans (W8_arg11 m ρ c)
theorem W10_arg11 (c : Dev nD) : Gen.W10 m ρ c (Proc.devRef .tc main_arg11) = m ((c : Thread nD τ).loc main_arg11) :=
  (Gen.W10_of_ne m ρ c main_arg11 (by decide)).trans (W9_arg11 m ρ c)
theorem W11_arg11 (c : Dev nD) : Gen.W11 m ρ c (Proc.devRef .tc main_arg11) = m ((c : Thread nD τ).loc main_arg11) :=
  (keep4 (Gen.W10 m ρ c) main_arg11 (by decide)).trans (W10_arg11 m ρ c)

-- `main_arg12`: launch contents at boundaries 1 to 11
theorem W1_arg12 (c : Dev nD) : Gen.W1 m ρ c (Proc.devRef .tc main_arg12) = m ((c : Thread nD τ).loc main_arg12) :=
  keep0 (Gen.W0 m ρ c) main_arg12 (by decide)
theorem W2_arg12 (c : Dev nD) : Gen.W2 m ρ c (Proc.devRef .tc main_arg12) = m ((c : Thread nD τ).loc main_arg12) :=
  (Gen.W2_of_ne m ρ c main_arg12 (by decide)).trans (W1_arg12 m ρ c)
theorem W3_arg12 (c : Dev nD) : Gen.W3 m ρ c (Proc.devRef .tc main_arg12) = m ((c : Thread nD τ).loc main_arg12) :=
  (keep1 (Gen.W2 m ρ c) main_arg12 (by decide)).trans (W2_arg12 m ρ c)
theorem W4_arg12 (c : Dev nD) : Gen.W4 m ρ c (Proc.devRef .tc main_arg12) = m ((c : Thread nD τ).loc main_arg12) :=
  (keep1_1 (Gen.W3 m ρ c) main_arg12 (by decide)).trans (W3_arg12 m ρ c)
theorem W5_arg12 (c : Dev nD) : Gen.W5 m ρ c (Proc.devRef .tc main_arg12) = m ((c : Thread nD τ).loc main_arg12) :=
  (keep1_2 (Gen.W4 m ρ c) main_arg12 (by decide)).trans (W4_arg12 m ρ c)
theorem W6_arg12 (c : Dev nD) : Gen.W6 m ρ c (Proc.devRef .tc main_arg12) = m ((c : Thread nD τ).loc main_arg12) :=
  (Gen.W6_of_ne m ρ c main_arg12 (by decide)).trans (W5_arg12 m ρ c)
theorem W7_arg12 (c : Dev nD) : Gen.W7 m ρ c (Proc.devRef .tc main_arg12) = m ((c : Thread nD τ).loc main_arg12) :=
  (keep2 (Gen.W6 m ρ c) main_arg12 (by decide)).trans (W6_arg12 m ρ c)
theorem W8_arg12 (c : Dev nD) : Gen.W8 m ρ c (Proc.devRef .tc main_arg12) = m ((c : Thread nD τ).loc main_arg12) :=
  (Gen.W8_of_ne m ρ c main_arg12 (by decide)).trans (W7_arg12 m ρ c)
theorem W9_arg12 (c : Dev nD) : Gen.W9 m ρ c (Proc.devRef .tc main_arg12) = m ((c : Thread nD τ).loc main_arg12) :=
  (keep3 (Gen.W8 m ρ c) main_arg12 (by decide)).trans (W8_arg12 m ρ c)
theorem W10_arg12 (c : Dev nD) : Gen.W10 m ρ c (Proc.devRef .tc main_arg12) = m ((c : Thread nD τ).loc main_arg12) :=
  (Gen.W10_of_ne m ρ c main_arg12 (by decide)).trans (W9_arg12 m ρ c)
theorem W11_arg12 (c : Dev nD) : Gen.W11 m ρ c (Proc.devRef .tc main_arg12) = m ((c : Thread nD τ).loc main_arg12) :=
  (keep4 (Gen.W10 m ρ c) main_arg12 (by decide)).trans (W10_arg12 m ρ c)

-- `main_arg13`: launch contents at boundaries 1 to 11
theorem W1_arg13 (c : Dev nD) : Gen.W1 m ρ c (Proc.devRef .tc main_arg13) = m ((c : Thread nD τ).loc main_arg13) :=
  keep0 (Gen.W0 m ρ c) main_arg13 (by decide)
theorem W2_arg13 (c : Dev nD) : Gen.W2 m ρ c (Proc.devRef .tc main_arg13) = m ((c : Thread nD τ).loc main_arg13) :=
  (Gen.W2_of_ne m ρ c main_arg13 (by decide)).trans (W1_arg13 m ρ c)
theorem W3_arg13 (c : Dev nD) : Gen.W3 m ρ c (Proc.devRef .tc main_arg13) = m ((c : Thread nD τ).loc main_arg13) :=
  (keep1 (Gen.W2 m ρ c) main_arg13 (by decide)).trans (W2_arg13 m ρ c)
theorem W4_arg13 (c : Dev nD) : Gen.W4 m ρ c (Proc.devRef .tc main_arg13) = m ((c : Thread nD τ).loc main_arg13) :=
  (keep1_1 (Gen.W3 m ρ c) main_arg13 (by decide)).trans (W3_arg13 m ρ c)
theorem W5_arg13 (c : Dev nD) : Gen.W5 m ρ c (Proc.devRef .tc main_arg13) = m ((c : Thread nD τ).loc main_arg13) :=
  (keep1_2 (Gen.W4 m ρ c) main_arg13 (by decide)).trans (W4_arg13 m ρ c)
theorem W6_arg13 (c : Dev nD) : Gen.W6 m ρ c (Proc.devRef .tc main_arg13) = m ((c : Thread nD τ).loc main_arg13) :=
  (Gen.W6_of_ne m ρ c main_arg13 (by decide)).trans (W5_arg13 m ρ c)
theorem W7_arg13 (c : Dev nD) : Gen.W7 m ρ c (Proc.devRef .tc main_arg13) = m ((c : Thread nD τ).loc main_arg13) :=
  (keep2 (Gen.W6 m ρ c) main_arg13 (by decide)).trans (W6_arg13 m ρ c)
theorem W8_arg13 (c : Dev nD) : Gen.W8 m ρ c (Proc.devRef .tc main_arg13) = m ((c : Thread nD τ).loc main_arg13) :=
  (Gen.W8_of_ne m ρ c main_arg13 (by decide)).trans (W7_arg13 m ρ c)
theorem W9_arg13 (c : Dev nD) : Gen.W9 m ρ c (Proc.devRef .tc main_arg13) = m ((c : Thread nD τ).loc main_arg13) :=
  (keep3 (Gen.W8 m ρ c) main_arg13 (by decide)).trans (W8_arg13 m ρ c)
theorem W10_arg13 (c : Dev nD) : Gen.W10 m ρ c (Proc.devRef .tc main_arg13) = m ((c : Thread nD τ).loc main_arg13) :=
  (Gen.W10_of_ne m ρ c main_arg13 (by decide)).trans (W9_arg13 m ρ c)
theorem W11_arg13 (c : Dev nD) : Gen.W11 m ρ c (Proc.devRef .tc main_arg13) = m ((c : Thread nD τ).loc main_arg13) :=
  (keep4 (Gen.W10 m ρ c) main_arg13 (by decide)).trans (W10_arg13 m ρ c)

-- `main_arg14`: launch contents at boundaries 1 to 11
theorem W1_arg14 (c : Dev nD) : Gen.W1 m ρ c (Proc.devRef .tc main_arg14) = m ((c : Thread nD τ).loc main_arg14) :=
  keep0 (Gen.W0 m ρ c) main_arg14 (by decide)
theorem W2_arg14 (c : Dev nD) : Gen.W2 m ρ c (Proc.devRef .tc main_arg14) = m ((c : Thread nD τ).loc main_arg14) :=
  (Gen.W2_of_ne m ρ c main_arg14 (by decide)).trans (W1_arg14 m ρ c)
theorem W3_arg14 (c : Dev nD) : Gen.W3 m ρ c (Proc.devRef .tc main_arg14) = m ((c : Thread nD τ).loc main_arg14) :=
  (keep1 (Gen.W2 m ρ c) main_arg14 (by decide)).trans (W2_arg14 m ρ c)
theorem W4_arg14 (c : Dev nD) : Gen.W4 m ρ c (Proc.devRef .tc main_arg14) = m ((c : Thread nD τ).loc main_arg14) :=
  (keep1_1 (Gen.W3 m ρ c) main_arg14 (by decide)).trans (W3_arg14 m ρ c)
theorem W5_arg14 (c : Dev nD) : Gen.W5 m ρ c (Proc.devRef .tc main_arg14) = m ((c : Thread nD τ).loc main_arg14) :=
  (keep1_2 (Gen.W4 m ρ c) main_arg14 (by decide)).trans (W4_arg14 m ρ c)
theorem W6_arg14 (c : Dev nD) : Gen.W6 m ρ c (Proc.devRef .tc main_arg14) = m ((c : Thread nD τ).loc main_arg14) :=
  (Gen.W6_of_ne m ρ c main_arg14 (by decide)).trans (W5_arg14 m ρ c)
theorem W7_arg14 (c : Dev nD) : Gen.W7 m ρ c (Proc.devRef .tc main_arg14) = m ((c : Thread nD τ).loc main_arg14) :=
  (keep2 (Gen.W6 m ρ c) main_arg14 (by decide)).trans (W6_arg14 m ρ c)
theorem W8_arg14 (c : Dev nD) : Gen.W8 m ρ c (Proc.devRef .tc main_arg14) = m ((c : Thread nD τ).loc main_arg14) :=
  (Gen.W8_of_ne m ρ c main_arg14 (by decide)).trans (W7_arg14 m ρ c)
theorem W9_arg14 (c : Dev nD) : Gen.W9 m ρ c (Proc.devRef .tc main_arg14) = m ((c : Thread nD τ).loc main_arg14) :=
  (keep3 (Gen.W8 m ρ c) main_arg14 (by decide)).trans (W8_arg14 m ρ c)
theorem W10_arg14 (c : Dev nD) : Gen.W10 m ρ c (Proc.devRef .tc main_arg14) = m ((c : Thread nD τ).loc main_arg14) :=
  (Gen.W10_of_ne m ρ c main_arg14 (by decide)).trans (W9_arg14 m ρ c)
theorem W11_arg14 (c : Dev nD) : Gen.W11 m ρ c (Proc.devRef .tc main_arg14) = m ((c : Thread nD τ).loc main_arg14) :=
  (keep4 (Gen.W10 m ρ c) main_arg14 (by decide)).trans (W10_arg14 m ρ c)

/-! ## The inverse square-root degrees `main_v6`, written in the first stretch, at every later boundary that reads them -/

theorem W2_v6 (c : Dev nD) : Gen.W2 m ρ c (Proc.devRef .tc main_v6) = Gen.W1 m ρ c (Proc.devRef .tc main_v6) :=
  Gen.W2_of_ne m ρ c main_v6 (by decide)
theorem W3_v6 (c : Dev nD) : Gen.W3 m ρ c (Proc.devRef .tc main_v6) = Gen.W1 m ρ c (Proc.devRef .tc main_v6) :=
  (keep1 (Gen.W2 m ρ c) main_v6 (by decide)).trans (W2_v6 m ρ c)
theorem W4_v6 (c : Dev nD) : Gen.W4 m ρ c (Proc.devRef .tc main_v6) = Gen.W1 m ρ c (Proc.devRef .tc main_v6) :=
  (keep1_1 (Gen.W3 m ρ c) main_v6 (by decide)).trans (W3_v6 m ρ c)
theorem W5_v6 (c : Dev nD) : Gen.W5 m ρ c (Proc.devRef .tc main_v6) = Gen.W1 m ρ c (Proc.devRef .tc main_v6) :=
  (keep1_2 (Gen.W4 m ρ c) main_v6 (by decide)).trans (W4_v6 m ρ c)
theorem W6_v6 (c : Dev nD) : Gen.W6 m ρ c (Proc.devRef .tc main_v6) = Gen.W1 m ρ c (Proc.devRef .tc main_v6) :=
  (Gen.W6_of_ne m ρ c main_v6 (by decide)).trans (W5_v6 m ρ c)
theorem W7_v6 (c : Dev nD) : Gen.W7 m ρ c (Proc.devRef .tc main_v6) = Gen.W1 m ρ c (Proc.devRef .tc main_v6) :=
  (keep2 (Gen.W6 m ρ c) main_v6 (by decide)).trans (W6_v6 m ρ c)
theorem W8_v6 (c : Dev nD) : Gen.W8 m ρ c (Proc.devRef .tc main_v6) = Gen.W1 m ρ c (Proc.devRef .tc main_v6) :=
  (Gen.W8_of_ne m ρ c main_v6 (by decide)).trans (W7_v6 m ρ c)

/-! ## Layer 1's output `main_v57` through the mean and variance stretches -/

theorem W3_v57 (c : Dev nD) : Gen.W3 m ρ c (Proc.devRef .tc main_v57) = Gen.W2 m ρ c (Proc.devRef .tc main_v57) :=
  keep1 (Gen.W2 m ρ c) main_v57 (by decide)
theorem W4_v57 (c : Dev nD) : Gen.W4 m ρ c (Proc.devRef .tc main_v57) = Gen.W2 m ρ c (Proc.devRef .tc main_v57) :=
  (keep1_1 (Gen.W3 m ρ c) main_v57 (by decide)).trans (W3_v57 m ρ c)

/-! ## The column mean `main_v60` through the variance stretch -/

theorem W4_v60 (c : Dev nD) : Gen.W4 m ρ c (Proc.devRef .tc main_v60) = Gen.W3 m ρ c (Proc.devRef .tc main_v60) :=
  keep1_1 (Gen.W3 m ρ c) main_v60 (by decide)

/-! ## Layer 2's output `main_v127` through the stretch that reads it -/

theorem W7_v127 (c : Dev nD) : Gen.W7 m ρ c (Proc.devRef .tc main_v127) = Gen.W6 m ρ c (Proc.devRef .tc main_v127) :=
  keep2 (Gen.W6 m ρ c) main_v127 (by decide)

/-! ## Layer 3's output `main_v178` through the stretch and the region that read it (the residual) -/

theorem W9_v178 (c : Dev nD) : Gen.W9 m ρ c (Proc.devRef .tc main_v178) = Gen.W8 m ρ c (Proc.devRef .tc main_v178) :=
  keep3 (Gen.W8 m ρ c) main_v178 (by decide)
theorem W10_v178 (c : Dev nD) : Gen.W10 m ρ c (Proc.devRef .tc main_v178) = Gen.W8 m ρ c (Proc.devRef .tc main_v178) :=
  ((Gen.W10_arr m ρ c 0).trans (((Gen.dat3 (Gen.V9 m ρ) c).arrAt_in 0 rfl _).trans (Gen.A_eq3 (Gen.V9 m ρ) c 0))).trans (W9_v178 m ρ c)

/-! ## Each region's output array at its exit -/

theorem W2_v57 (c : Dev nD) : Gen.W2 m ρ c (Proc.devRef .tc main_v57) = (Gen.dat0 (Gen.V1 m ρ) c).arrAt 5 cfg0.N := Gen.W2_arr m ρ c 5
theorem W6_v127 (c : Dev nD) : Gen.W6 m ρ c (Proc.devRef .tc main_v127) = (Gen.dat1 (Gen.V5 m ρ) c).arrAt 5 cfg1.N := Gen.W6_arr m ρ c 5
theorem W8_v178 (c : Dev nD) : Gen.W8 m ρ c (Proc.devRef .tc main_v178) = (Gen.dat2 (Gen.V7 m ρ) c).arrAt 5 cfg2.N := Gen.W8_arr m ρ c 5
theorem W10_v229 (c : Dev nD) : Gen.W10 m ρ c (Proc.devRef .tc main_v229) = (Gen.dat3 (Gen.V9 m ρ) c).arrAt 5 cfg3.N := Gen.W10_arr m ρ c 5
theorem W12_v231 (c : Dev nD) : Gen.W12 m ρ c (Proc.devRef .tc main_v231) = (Gen.dat4 (Gen.V11 m ρ) c).arrAt 5 cfg4.N := Gen.W12_arr m ρ c 5

end Cert.KernelIdeal.KKeep

end
-- ==== Proof.Stages.lean ====
/-
  The network both programs compute, as pure functions of whole arrays (no program, no memory): a four-layer
  Chebyshev graph convolution (order 3) on a graph given by edge lists `src`, `dst` over 50000 nodes with 128
  features, batch normalisation after the first layer, a residual connection around the last layer, and a
  two-layer perceptron to 64 outputs.

  * `dinvT dst`  : the inverse square root of max(in-degree, 1), the in-degree a scatter-add of ones along `dst`.
  * `spmmT x src dst dinv` : the normalised adjacency product  D^{-1/2} A D^{-1/2} x : row `e` of the message
    array is `x[src e] · dinv[src e]`, the messages are scatter-added into their destination rows, and row `n`
    is scaled by `dinv n`.  A negative index wraps by the row count first, as array indexing does.
  * `x1T`, `x2T` : the Chebyshev terms  T1 = -spmm x,  T2 = -2 · spmm T1 - x.
  * `combT X0 X1 X2 W b` : relu(((X0 · W[0] + X1 · W[1]) + X2 · W[2]) + b), each product contracting the feature axis.
  * `bnT x gamma beta` : (x - mean) · rsqrt(var + eps) · gamma + beta with the column mean and the (biased) column
    variance over the 50000 rows; the variance as array libraries compute it, a sum of squared deviations divided
    by 50000 - 0, guarded by a comparison that is always true here.
  * `mlpT x mw1 mb1 mw2 mb2` : relu(x · mw1 + mb1) · mw2 + mb2.
  * `netT` : the composition.
  Every function is stated for any interpretation of the float operations; the certificate reads them at the
  extended reals.
-/
import proofs.«144721_j84121229460224_1_alg».proof.ReferenceIdeal
import proofs.«144721_j84121229460224_1_alg».proof.Proof.Gen.ReferenceIdeal

noncomputable section

namespace Cert.Stages

open Idealize.ShloMosaic Cert.ReferenceIdeal Cert.ReferenceIdeal.Facts₀

variable {F : FTy → Type} [FloatOps F]

/-- Node features, 50000 rows of 128. -/
abbrev TN (F : FTy → Type) := (⟨S50000x128, .f32⟩ : BufTy).Contents (Elt F)
/-- One value per node. -/
abbrev TD (F : FTy → Type) := (⟨S50000, .f32⟩ : BufTy).Contents (Elt F)
/-- One node index per edge. -/
abbrev TE (F : FTy → Type) := (⟨S800000, .i32⟩ : BufTy).Contents (Elt F)
/-- Three 128 by 128 weight matrices. -/
abbrev TW3 (F : FTy → Type) := (⟨S3x128x128, .f32⟩ : BufTy).Contents (Elt F)
/-- A row of 128. -/
abbrev TB (F : FTy → Type) := (⟨S128, .f32⟩ : BufTy).Contents (Elt F)
abbrev TW (F : FTy → Type) := (⟨S128x128, .f32⟩ : BufTy).Contents (Elt F)
abbrev TW64 (F : FTy → Type) := (⟨S128x64, .f32⟩ : BufTy).Contents (Elt F)
abbrev TB64 (F : FTy → Type) := (⟨S64, .f32⟩ : BufTy).Contents (Elt F)
abbrev TO (F : FTy → Type) := (⟨S50000x64, .f32⟩ : BufTy).Contents (Elt F)

/-- An edge's node index as a gather index: a negative index wraps by the row count. -/
def wrapT (src : TE F) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- rsqrt(max(in-degree, 1)). -/
def dinvT (dst : TE F) : TD F :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- The normalised adjacency product. -/
def spmmT (x : TN F) (src dst : TE F) (dinv : TD F) : TN F :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf (Host.gather gather_S50000x128_S800000x1_S800000x128_1_0_n_n_0_1_1128 x (wrapT src))
        (broadcastInDim S800000x128 ![0, 1] bcast_S800000x1_S800000x128_0_1
          (broadcastInDim S800000x1 ![0] bcast_S800000_S800000x1_0
            (Host.gather gather_S50000_S800000x1_S800000_n_0_n_n_0_1_1 dinv (wrapT src))))))
    (broadcastInDim S50000x128 ![0, 1] bcast_S50000x1_S50000x128_0_1
      (broadcastInDim S50000x1 ![0] bcast_S50000_S50000x1_0 dinv))

/-- T1 = -spmm x. -/
def x1T (x : TN F) (src dst : TE F) (dinv : TD F) : TN F := Host.negf (spmmT x src dst dinv)

/-- T2 = -2 · spmm T1 - x. -/
def x2T (x x1 : TN F) (src dst : TE F) (dinv : TD F) : TN F :=
  subf (mulf (broadcastInDim S50000x128 ![] bcast_S_S50000x128 (constant S_ .f32 0xC0000000#32)) (spmmT x1 src dst dinv)) x

/-- Weight matrix 0 of the three. -/
def w0T (W : TW3 F) : TW F :=
  fun i => shapeCast S128x128 (extractStridedSlice S1x128x128 ![0, 0, 0] W slices_S3x128x128_S1x128x128_0_0_0) shapeCasts_S1x128x128_S128x128 i
def w1T (W : TW3 F) : TW F :=
  fun i => shapeCast S128x128 (extractStridedSlice S1x128x128 ![1, 0, 0] W slices_S3x128x128_S1x128x128_1_0_0) shapeCasts_S1x128x128_S128x128 i
def w2T (W : TW3 F) : TW F :=
  fun i => shapeCast S128x128 (extractStridedSlice S1x128x128 ![2, 0, 0] W slices_S3x128x128_S1x128x128_2_0_0) shapeCasts_S1x128x128_S128x128 i

/-- A row of 128 repeated down the 50000 rows. -/
def rowsT (b : TB F) : TN F :=
  broadcastInDim S50000x128 ![0, 1] bcast_S1x128_S50000x128_0_1 (broadcastInDim S1x128 ![1] bcast_S128_S1x128_1 b)

/-- max(x, 0). -/
def reluT (x : TN F) : TN F := maximumf x (broadcastInDim S50000x128 ![] bcast_S_S50000x128 (constant S_ .f32 0x00000000#32))

/-- relu(((X0 · W[0] + X1 · W[1]) + X2 · W[2]) + b). -/
def combT (X0 X1 X2 : TN F) (W : TW3 F) (b : TB F) : TN F :=
  reluT (addf (addf (addf
      (Host.dotGeneral dot_S50000x128_S128x128_S50000x128_1_0_0_1_n_n none X0 (w0T W))
      (Host.dotGeneral dot_S50000x128_S128x128_S50000x128_1_0_0_1_n_n none X1 (w1T W)))
      (Host.dotGeneral dot_S50000x128_S128x128_S50000x128_1_0_0_1_n_n none X2 (w2T W)))
    (rowsT b))

/-- The column sums over the 50000 rows. -/
def colsumT (x : TN F) : TB F := Host.reduceAdd x (constant S_ .f32 0x00000000#32) reducesTo_S50000x128_S128_d0 h_S_

/-- The column mean. -/
def meanT (x : TN F) : TB F := Host.divf (colsumT x) (broadcastInDim S128 ![] bcast_S_S128 (constant S_ .f32 0x47435000#32))

/-- 50000 - ddof as a float, ddof the integer 0. -/
def cntT : (⟨S_, .f32⟩ : BufTy).Contents (Elt F) := subf (constant S_ .f32 0x47435000#32) (sitofp .f32 (constantI S_ 32 0#32))

/-- The column variance, as the array library's variance routine computes it. -/
def varT (x : TN F) : TB F :=
  select (broadcastInDim S128 ![] bcast_S_S128 (cmpf .ogt (cntT (F := F)) (constant S_ .f32 0x00000000#32)))
    (Host.divf
      (colsumT
        ((fun d : TN F => mulf d d)
          (subf x (broadcastInDim S50000x128 ![0, 1] bcast_S1x128_S50000x128_0_1
            (Host.divf (broadcastInDim S1x128 ![1] bcast_S128_S1x128_1 (colsumT x))
              (broadcastInDim S1x128 ![] bcast_S_S1x128 (constant S_ .f32 0x47435000#32)))))))
      (broadcastInDim S128 ![] bcast_S_S128 (cntT (F := F))))
    (broadcastInDim S128 ![] bcast_S_S128 (id (constant S_ .f32 0x7FC00000#32)))

/-- (x - mean) · rsqrt(var + eps) · gamma + beta. -/
def bnT (x : TN F) (gamma beta : TB F) : TN F :=
  addf (mulf (mulf (subf x (rowsT (meanT x)))
      (rowsT (Host.rsqrt (addf (varT x) (broadcastInDim S128 ![] bcast_S_S128 (constant S_ .f32 0x3727C5AC#32))))))
      (rowsT gamma))
    (rowsT beta)

/-- relu(x · mw1 + mb1) · mw2 + mb2. -/
def mlpT (x : TN F) (mw1 : TW F) (mb1 : TB F) (mw2 : TW64 F) (mb2 : TB64 F) : TO F :=
  addf (Host.dotGeneral dot_S50000x128_S128x64_S50000x64_1_0_0_1_n_n none
      (reluT (addf (Host.dotGeneral dot_S50000x128_S128x128_S50000x128_1_0_0_1_n_n none x mw1) (rowsT mb1))) mw2)
    (broadcastInDim S50000x64 ![0, 1] bcast_S1x64_S50000x64_0_1 (broadcastInDim S1x64 ![1] bcast_S64_S1x64_1 mb2))

/-- One graph convolution layer. -/
def layerT (x : TN F) (src dst : TE F) (dinv : TD F) (W : TW3 F) (b : TB F) : TN F :=
  combT x (x1T x src dst dinv) (x2T x (x1T x src dst dinv) src dst dinv) W b

def h1T (f : TN F) (src dst : TE F) (W1 : TW3 F) (b1 : TB F) : TN F := layerT f src dst (dinvT dst) W1 b1
def h2T (f : TN F) (src dst : TE F) (W1 : TW3 F) (b1 : TB F) (W2 : TW3 F) (b2 gamma beta : TB F) : TN F :=
  layerT (bnT (h1T f src dst W1 b1) gamma beta) src dst (dinvT dst) W2 b2
def h3T (f : TN F) (src dst : TE F) (W1 : TW3 F) (b1 : TB F) (W2 : TW3 F) (b2 gamma beta : TB F) : TN F :=
  layerT (h2T f src dst W1 b1 W2 b2 gamma beta) src dst (dinvT dst) W2 b2
def h4T (f : TN F) (src dst : TE F) (W1 : TW3 F) (b1 : TB F) (W2 : TW3 F) (b2 : TB F) (W3 : TW3 F) (b3 gamma beta : TB F) : TN F :=
  layerT (h3T f src dst W1 b1 W2 b2 gamma beta) src dst (dinvT dst) W3 b3

/-- The whole network, its arguments in the programs' order. -/
def netT (f : TN F) (src dst : TE F) (W1 : TW3 F) (b1 : TB F) (W2 : TW3 F) (b2 : TB F) (W3 : TW3 F) (b3 gamma beta : TB F)
    (mw1 : TW F) (mb1 : TB F) (mw2 : TW64 F) (mb2 : TB64 F) : TO F :=
  mlpT (addf (h4T f src dst W1 b1 W2 b2 W3 b3 gamma beta) (h3T f src dst W1 b1 W2 b2 gamma beta)) mw1 mb1 mw2 mb2

end Cert.Stages

end
-- ==== Proof.KernelStretch.lean ====
/- The values the kernel program's host stretches compute, as the network's stage functions.

   Each host stretch between two pipelined regions is a literal list of array operations.  Folding the list from
   any buffer contents `V` and reading one result buffer gives a closed expression in `V` at the buffers the
   stretch reads; that expression is, operation for operation, one of the stage functions of the network:
     * the first stretch computes the inverse square-root degrees `dinvT dst` and the two Chebyshev terms of the
       input features;
     * the three stretches after the first layer compute the column mean, the column variance (an inlined call)
       and then the batch normalisation of the layer's output together with its two Chebyshev terms;
     * the stretches before the third and fourth layers compute the Chebyshev terms of the previous layer's output;
     * the last stretch adds the residual.
   A stretch that reads a buffer an earlier stretch wrote takes that buffer's value as a hypothesis. -/
import proofs.«144721_j84121229460224_1_alg».proof.Proof.Gen.KernelIdeal.Launch
import proofs.«144721_j84121229460224_1_alg».proof.Proof.Stages
import proofs.«144721_j84121229460224_1_alg».proof.Proof.KernelKeepHost
import Idealize.ShloMosaic.Lib.StableHlo.Run

set_option maxRecDepth 16384

noncomputable section

namespace Cert.KernelIdeal.KStretch

open Idealize.ShloMosaic Idealize.ShloMosaic.TcCoe Idealize.ShloMosaic.StableHlo
open Cert.KernelIdeal.Gen Cert.KernelIdeal.KKeep

variable {F : FTy → Type} [FloatOps F]

/-! ## The first stretch: degrees and the Chebyshev terms of the features -/

theorem h0_v6 (V : Valuation τ sig (Elt F)) :
    StableHlo.after hostOps0 V (Proc.devRef .tc main_v6) = Cert.Stages.dinvT (V (Proc.devRef .tc main_arg2)) := by
  after_results_simp <;> rfl

set_option maxHeartbeats 4000000 in
theorem h0_v30 (V : Valuation τ sig (Elt F)) :
    StableHlo.after hostOps0 V (Proc.devRef .tc main_v30)
      = Cert.Stages.x1T (V (Proc.devRef .tc main_arg0)) (V (Proc.devRef .tc main_arg1)) (V (Proc.devRef .tc main_arg2))
          (Cert.Stages.dinvT (V (Proc.devRef .tc main_arg2))) := by
  after_results_simp <;> rfl

set_option maxHeartbeats 4000000 in
theorem h0_v56 (V : Valuation τ sig (Elt F)) :
    StableHlo.after hostOps0 V (Proc.devRef .tc main_v56)
      = Cert.Stages.x2T (V (Proc.devRef .tc main_arg0))
          (Cert.Stages.x1T (V (Proc.devRef .tc main_arg0)) (V (Proc.devRef .tc main_arg1)) (V (Proc.devRef .tc main_arg2))
            (Cert.Stages.dinvT (V (Proc.devRef .tc main_arg2))))
          (V (Proc.devRef .tc main_arg1)) (V (Proc.devRef .tc main_arg2))
          (Cert.Stages.dinvT (V (Proc.devRef .tc main_arg2))) := by
  after_results_simp <;> rfl

/-! ## After the first layer: the column mean, the column variance, the batch normalisation and its Chebyshev terms -/

theorem h1_v60 (V : Valuation τ sig (Elt F)) :
    StableHlo.after hostOps1 V (Proc.devRef .tc main_v60) = Cert.Stages.meanT (V (Proc.devRef .tc main_v57)) := by
  after_results_simp <;> rfl

/-- The integer 0 the variance call is passed (its `ddof`). -/
theorem h1_c14 (V : Valuation τ sig (Elt F)) :
    StableHlo.after hostOps1 V (Proc.devRef .tc main_c_14) = constantI S_ 32 0#32 := by
  after_results_simp <;> rfl

theorem h1_1_v61 (V : Valuation τ sig (Elt F)) (hc : V (Proc.devRef .tc main_c_14) = constantI S_ 32 0#32) :
    StableHlo.after hostOps1_1 V (Proc.devRef .tc main_v61) = Cert.Stages.varT (V (Proc.devRef .tc main_v57)) := by
  after_results_simp
  rw [hc] <;> rfl

set_option maxHeartbeats 4000000 in
theorem h1_2_v76 (V : Valuation τ sig (Elt F))
    (h60 : V (Proc.devRef .tc main_v60) = Cert.Stages.meanT (V (Proc.devRef .tc main_v57)))
    (h61 : V (Proc.devRef .tc main_v61) = Cert.Stages.varT (V (Proc.devRef .tc main_v57))) :
    StableHlo.after hostOps1_2 V (Proc.devRef .tc main_v76)
      = Cert.Stages.bnT (V (Proc.devRef .tc main_v57)) (V (Proc.devRef .tc main_arg9)) (V (Proc.devRef .tc main_arg10)) := by
  after_results_simp
  rw [h60, h61] <;> rfl

set_option maxHeartbeats 4000000 in
theorem h1_2_v100 (V : Valuation τ sig (Elt F))
    (h60 : V (Proc.devRef .tc main_v60) = Cert.Stages.meanT (V (Proc.devRef .tc main_v57)))
    (h61 : V (Proc.devRef .tc main_v61) = Cert.Stages.varT (V (Proc.devRef .tc main_v57))) :
    StableHlo.after hostOps1_2 V (Proc.devRef .tc main_v100)
      = Cert.Stages.x1T (Cert.Stages.bnT (V (Proc.devRef .tc main_v57)) (V (Proc.devRef .tc main_arg9)) (V (Proc.devRef .tc main_arg10))) (V (Proc.devRef .tc main_arg1)) (V (Proc.devRef .tc main_arg2)) (V (Proc.devRef .tc main_v6)) := by
  after_results_simp
  rw [h60, h61] <;> rfl

set_option maxHeartbeats 4000000 in
theorem h1_2_v126 (V : Valuation τ sig (Elt F))
    (h60 : V (Proc.devRef .tc main_v60) = Cert.Stages.meanT (V (Proc.devRef .tc main_v57)))
    (h61 : V (Proc.devRef .tc main_v61) = Cert.Stages.varT (V (Proc.devRef .tc main_v57))) :
    StableHlo.after hostOps1_2 V (Proc.devRef .tc main_v126)
      = Cert.Stages.x2T (Cert.Stages.bnT (V (Proc.devRef .tc main_v57)) (V (Proc.devRef .tc main_arg9)) (V (Proc.devRef .tc main_arg10)))
          (Cert.Stages.x1T (Cert.Stages.bnT (V (Proc.devRef .tc main_v57)) (V (Proc.devRef .tc main_arg9)) (V (Proc.devRef .tc main_arg10))) (V (Proc.devRef .tc main_arg1)) (V (Proc.devRef .tc main_arg2)) (V (Proc.devRef .tc main_v6)))
          (V (Proc.devRef .tc main_arg1)) (V (Proc.devRef .tc main_arg2)) (V (Proc.devRef .tc main_v6)) := by
  after_results_simp
  rw [h60, h61] <;> rfl

/-! ### The three stretches in turn, from the contents the first of them starts at -/

section ThreeStretches
variable (V : Valuation τ sig (Elt F))

/-- A buffer neither the mean stretch nor the variance stretch writes. -/
theorem keep1_11 (r : Ref sig .tc) (h1 : r ∉ writes1) (h2 : r ∉ writes1_1) :
    (StableHlo.after hostOps1_1 (StableHlo.after hostOps1 V)) (Proc.devRef .tc r) = V (Proc.devRef .tc r) :=
  (keep1_1 _ r h2).trans (keep1 V r h1)

theorem mid_v60 : (StableHlo.after hostOps1_1 (StableHlo.after hostOps1 V)) (Proc.devRef .tc main_v60) = Cert.Stages.meanT ((StableHlo.after hostOps1_1 (StableHlo.after hostOps1 V)) (Proc.devRef .tc main_v57)) := by
  rw [keep1_1 _ main_v60 (by decide), h1_v60 V, keep1_11 V main_v57 (by decide) (by decide)]

theorem mid_v61 : (StableHlo.after hostOps1_1 (StableHlo.after hostOps1 V)) (Proc.devRef .tc main_v61) = Cert.Stages.varT ((StableHlo.after hostOps1_1 (StableHlo.after hostOps1 V)) (Proc.devRef .tc main_v57)) := by
  rw [h1_1_v61 (StableHlo.after hostOps1 V) (h1_c14 V), keep1 V main_v57 (by decide), keep1_11 V main_v57 (by decide) (by decide)]

theorem bn_v76 : (StableHlo.after hostOps1_2 (StableHlo.after hostOps1_1 (StableHlo.after hostOps1 V))) (Proc.devRef .tc main_v76) = (Cert.Stages.bnT (V (Proc.devRef .tc main_v57)) (V (Proc.devRef .tc main_arg9)) (V (Proc.devRef .tc main_arg10))) := by
  rw [h1_2_v76 _ (mid_v60 V) (mid_v61 V), keep1_11 V main_v57 (by decide) (by decide),
    keep1_11 V main_arg9 (by decide) (by decide), keep1_11 V main_arg10 (by decide) (by decide)]

theorem bn_v100 : (StableHlo.after hostOps1_2 (StableHlo.after hostOps1_1 (StableHlo.after hostOps1 V))) (Proc.devRef .tc main_v100)
      = Cert.Stages.x1T (Cert.Stages.bnT (V (Proc.devRef .tc main_v57)) (V (Proc.devRef .tc main_arg9)) (V (Proc.devRef .tc main_arg10))) (V (Proc.devRef .tc main_arg1)) (V (Proc.devRef .tc main_arg2)) (V (Proc.devRef .tc main_v6)) := by
  rw [h1_2_v100 _ (mid_v60 V) (mid_v61 V), keep1_11 V main_v57 (by decide) (by decide),
    keep1_11 V main_arg9 (by decide) (by decide), keep1_11 V main_arg10 (by decide) (by decide),
    keep1_11 V main_arg1 (by decide) (by decide), keep1_11 V main_arg2 (by decide) (by decide),
    keep1_11 V main_v6 (by decide) (by decide)]

theorem bn_v126 : (StableHlo.after hostOps1_2 (StableHlo.after hostOps1_1 (StableHlo.after hostOps1 V))) (Proc.devRef .tc main_v126)
      = Cert.Stages.x2T (Cert.Stages.bnT (V (Proc.devRef .tc main_v57)) (V (Proc.devRef .tc main_arg9)) (V (Proc.devRef .tc main_arg10)))
          (Cert.Stages.x1T (Cert.Stages.bnT (V (Proc.devRef .tc main_v57)) (V (Proc.devRef .tc main_arg9)) (V (Proc.devRef .tc main_arg10))) (V (Proc.devRef .tc main_arg1)) (V (Proc.devRef .tc main_arg2)) (V (Proc.devRef .tc main_v6)))
          (V (Proc.devRef .tc main_arg1)) (V (Proc.devRef .tc main_arg2)) (V (Proc.devRef .tc main_v6)) := by
  rw [h1_2_v126 _ (mid_v60 V) (mid_v61 V), keep1_11 V main_v57 (by decide) (by decide),
    keep1_11 V main_arg9 (by decide) (by decide), keep1_11 V main_arg10 (by decide) (by decide),
    keep1_11 V main_arg1 (by decide) (by decide), keep1_11 V main_arg2 (by decide) (by decide),
    keep1_11 V main_v6 (by decide) (by decide)]

end ThreeStretches

/-! ## Before the third and fourth layers: the Chebyshev terms of the previous layer's output -/

set_option maxHeartbeats 4000000 in
theorem h2_v151 (V : Valuation τ sig (Elt F)) :
    StableHlo.after hostOps2 V (Proc.devRef .tc main_v151)
      = Cert.Stages.x1T (V (Proc.devRef .tc main_v127)) (V (Proc.devRef .tc main_arg1)) (V (Proc.devRef .tc main_arg2)) (V (Proc.devRef .tc main_v6)) := by
  after_results_simp <;> rfl

set_option maxHeartbeats 4000000 in
theorem h2_v177 (V : Valuation τ sig (Elt F)) :
    StableHlo.after hostOps2 V (Proc.devRef .tc main_v177)
      = Cert.Stages.x2T (V (Proc.devRef .tc main_v127))
          (Cert.Stages.x1T (V (Proc.devRef .tc main_v127)) (V (Proc.devRef .tc main_arg1)) (V (Proc.devRef .tc main_arg2)) (V (Proc.devRef .tc main_v6)))
          (V (Proc.devRef .tc main_arg1)) (V (Proc.devRef .tc main_arg2)) (V (Proc.devRef .tc main_v6)) := by
  after_results_simp <;> rfl

set_option maxHeartbeats 4000000 in
theorem h3_v202 (V : Valuation τ sig (Elt F)) :
    StableHlo.after hostOps3 V (Proc.devRef .tc main_v202)
      = Cert.Stages.x1T (V (Proc.devRef .tc main_v178)) (V (Proc.devRef .tc main_arg1)) (V (Proc.devRef .tc main_arg2)) (V (Proc.devRef .tc main_v6)) := by
  after_results_simp <;> rfl

set_option maxHeartbeats 4000000 in
theorem h3_v228 (V : Valuation τ sig (Elt F)) :
    StableHlo.after hostOps3 V (Proc.devRef .tc main_v228)
      = Cert.Stages.x2T (V (Proc.devRef .tc main_v178))
          (Cert.Stages.x1T (V (Proc.devRef .tc main_v178)) (V (Proc.devRef .tc main_arg1)) (V (Proc.devRef .tc main_arg2)) (V (Proc.devRef .tc main_v6)))
          (V (Proc.devRef .tc main_arg1)) (V (Proc.devRef .tc main_arg2)) (V (Proc.devRef .tc main_v6)) := by
  after_results_simp <;> rfl

/-! ## The residual -/

theorem h4_v230 (V : Valuation τ sig (Elt F)) :
    StableHlo.after hostOps4 V (Proc.devRef .tc main_v230)
      = addf (V (Proc.devRef .tc main_v229)) (V (Proc.devRef .tc main_v178)) := by
  after_results_simp <;> rfl

end Cert.KernelIdeal.KStretch

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«144721_j84121229460224_1_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.SpecIdx.lean ====
/-
  The reference forms of the two dense stages, read at an entry over the extended reals.

  * `combT X0 X1 X2 W b` at (P, q):  max(((Σ_k X0[P,k]·W[0,k,q] + Σ_k X1[P,k]·W[1,k,q]) + Σ_k X2[P,k]·W[2,k,q]) + b[q], 0).
  * `mlpT x mw1 mb1 mw2 mb2` at (P, q):  Σ_j max(Σ_k x[P,k]·mw1[k,j] + mb1[j], 0)·mw2[j,q] + mb2[q].
  Each matrix product is a plain sum over the contracted axis; a weight matrix W[i] is the slab i of the [3,128,128]
  array with its leading unit axis dropped; a bias is its row repeated down the rows.
-/
import proofs.«144721_j84121229460224_1_alg».proof.Proof.Stages
import proofs.«144721_j84121229460224_1_alg».proof.Proof.LibDotNN
import Idealize.ShloMosaic.Lib.Pipeline.Value
import Idealize.ShloMosaic.Lib.ValueIdx
import Idealize.ShloMosaic.Lib.ValueLayout

noncomputable section

namespace Cert.Stages

open Idealize.ShloMosaic Idealize.ShloMosaic.ValueIdx Cert.ReferenceIdeal Cert.ReferenceIdeal.Facts₀

/-- The zero word. -/
abbrev z0 : EReal := Ideal.ofBits .f32 0x00000000#32

/-- A host product of a [50000,128] array by a [128,128] matrix at (P, q). -/
theorem dot128_apply (X : FVec Ideal S50000x128 .f32) (Wm : FVec Ideal S128x128 .f32) (P : Fin 50000) (q : Fin 128) :
    Host.dotGeneral (F := Ideal) dot_S50000x128_S128x128_S50000x128_1_0_0_1_n_n none X Wm (ix2 P q)
      = ∑ k : Fin 128, X (ix2 P k) * Wm (ix2 k q) :=
  Cert.DotNN.dotGeneral_apply _ rfl none _ X Wm P q

/-- A host product of a [50000,128] array by a [128,64] matrix at (P, q). -/
theorem dot64_apply (X : FVec Ideal S50000x128 .f32) (Wm : FVec Ideal S128x64 .f32) (P : Fin 50000) (q : Fin 64) :
    Host.dotGeneral (F := Ideal) dot_S50000x128_S128x64_S50000x64_1_0_0_1_n_n none X Wm (ix2 P q)
      = ∑ k : Fin 128, X (ix2 P k) * Wm (ix2 k q) :=
  Cert.DotNN.dotGeneral_apply _ rfl none _ X Wm P q

/-- Slab 0 of the weights at (k, q). -/
theorem w0T_apply (W : TW3 Ideal) (k q : Fin 128) : w0T W (ix2 k q) = W (ix3 (0 : Fin 3) k q) := by
  unfold w0T
  refine (shapeCast_1ab_ab_apply _ _ k q).trans ?_
  exact extractStridedSlice_apply _ W _ _ (ix3 (0 : Fin 3) k q) fun a => by
    match a with
    | ⟨0, _⟩ => rfl
    | ⟨1, _⟩ => show k.val = 0 + k.val; omega
    | ⟨2, _⟩ => show q.val = 0 + q.val; omega

/-- Slab 1 of the weights at (k, q). -/
theorem w1T_apply (W : TW3 Ideal) (k q : Fin 128) : w1T W (ix2 k q) = W (ix3 (1 : Fin 3) k q) := by
  unfold w1T
  refine (shapeCast_1ab_ab_apply _ _ k q).trans ?_
  exact extractStridedSlice_apply _ W _ _ (ix3 (1 : Fin 3) k q) fun a => by
    match a with
    | ⟨0, _⟩ => rfl
    | ⟨1, _⟩ => show k.val = 0 + k.val; omega
    | ⟨2, _⟩ => show q.val = 0 + q.val; omega

/-- Slab 2 of the weights at (k, q). -/
theorem w2T_apply (W : TW3 Ideal) (k q : Fin 128) : w2T W (ix2 k q) = W (ix3 (2 : Fin 3) k q) := by
  unfold w2T
  refine (shapeCast_1ab_ab_apply _ _ k q).trans ?_
  exact extractStridedSlice_apply _ W _ _ (ix3 (2 : Fin 3) k q) fun a => by
    match a with
    | ⟨0, _⟩ => rfl
    | ⟨1, _⟩ => show k.val = 0 + k.val; omega
    | ⟨2, _⟩ => show q.val = 0 + q.val; omega

/-- A row repeated down the rows, at (P, q): the row at q. -/
theorem rowsT_apply (b : TB Ideal) (P : Fin 50000) (q : Fin 128) : rowsT b (ix2 P q) = b (ix1 q) := by
  unfold rowsT
  refine (broadcastInDim_apply _ _ _ (ix2 P q) (ix2 (0 : Fin 1) q) fun a => ?_).trans ?_
  · match a with
    | ⟨0, _⟩ => rfl
    | ⟨1, _⟩ => rfl
  · exact broadcastInDim_apply _ _ b (ix2 (0 : Fin 1) q) (ix1 q) fun a => by
      match a with
      | ⟨0, _⟩ => rfl

/-- The zero splat at any entry. -/
theorem zerosT_apply (j : S50000x128.Idx) :
    broadcastInDim S50000x128 ![] bcast_S_S50000x128 (constant (F := Ideal) S_ .f32 0x00000000#32) j = z0 :=
  broadcastInDim_apply _ _ _ j ix0 fun a => a.elim0

/-- The combine stage at an entry. -/
theorem combT_apply (X0 X1 X2 : TN Ideal) (W : TW3 Ideal) (b : TB Ideal) (P : Fin 50000) (q : Fin 128) :
    combT X0 X1 X2 W b (ix2 P q)
      = max ((((∑ k : Fin 128, X0 (ix2 P k) * W (ix3 (0 : Fin 3) k q)) + ∑ k : Fin 128, X1 (ix2 P k) * W (ix3 (1 : Fin 3) k q))
          + ∑ k : Fin 128, X2 (ix2 P k) * W (ix3 (2 : Fin 3) k q)) + b (ix1 q)) z0 := by
  unfold combT reluT
  rw [maximumf_apply, addf_apply, addf_apply, addf_apply, dot128_apply, dot128_apply, dot128_apply, rowsT_apply, zerosT_apply]
  simp only [w0T_apply, w1T_apply, w2T_apply]

/-- The perceptron stage at an entry. -/
theorem mlpT_apply (x : TN Ideal) (mw1 : TW Ideal) (mb1 : TB Ideal) (mw2 : TW64 Ideal) (mb2 : TB64 Ideal) (P : Fin 50000) (q : Fin 64) :
    mlpT x mw1 mb1 mw2 mb2 (ix2 P q)
      = (∑ j : Fin 128, max ((∑ k : Fin 128, x (ix2 P k) * mw1 (ix2 k j)) + mb1 (ix1 j)) z0 * mw2 (ix2 j q)) + mb2 (ix1 q) := by
  unfold mlpT reluT
  rw [addf_apply, dot64_apply]
  congr 1
  · refine Finset.sum_congr rfl fun j _ => ?_
    rw [maximumf_apply, addf_apply, dot128_apply, rowsT_apply, zerosT_apply]
  · refine (broadcastInDim_apply _ _ _ (ix2 P q) (ix2 (0 : Fin 1) q) fun a => ?_).trans ?_
    · match a with
      | ⟨0, _⟩ => rfl
      | ⟨1, _⟩ => rfl
    · exact broadcastInDim_apply _ _ mb2 (ix2 (0 : Fin 1) q) (ix1 q) fun a => by
        match a with
        | ⟨0, _⟩ => rfl

end Cert.Stages

end
-- ==== Proof.PayIdx.lean ====
/-
  The kernels' bodies read at an entry over the extended reals.

  The combine body takes a block of 2000 rows of each Chebyshev term, the three weight slabs (each loaded with a leading
  unit axis) and the bias, rounds the products' operands to a narrower format (the identity on the extended reals),
  forms the three products into zeros, adds them in order, adds the bias row and takes the maximum with zero:
  at (p, q) it is  max(((Σ_k x0[p,k]·w0[0,k,q] + Σ_k x1[p,k]·w1[0,k,q]) + Σ_k x2[p,k]·w2[0,k,q]) + b[q], 0).
  The perceptron body is  Σ_j max(Σ_k x[p,k]·mw1[k,j] + mb1[j], 0)·mw2[j,q] + mb2[q].
-/
import proofs.«144721_j84121229460224_1_alg».proof.Proof.Gen.KernelIdeal.Skeleton
import proofs.«144721_j84121229460224_1_alg».proof.Proof.LibMatmulNN
import proofs.«144721_j84121229460224_1_alg».proof.Proof.SpecIdx
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Facts₀
open Cert.Stages (z0)

/-- A product of a [2000,128] block by a [128,128] matrix into zeros, at (p, q). -/
theorem mm128_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Cert.MatmulNN.matmul_zero_apply _ rfl none l r p q

/-- A product of a [2000,128] block by a [128,64] matrix into zeros, at (p, q). -/
theorem mm64_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) :=
  Cert.MatmulNN.matmul_zero_apply _ rfl none l r p q

/-- The bias row of 128 broadcast down a block, at (p, q). -/
theorem bias128_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ _ p q).trans (shapeCast_a_1a_apply b _ (0 : Fin 1) q)

/-- The bias row of 64 broadcast down a block, at (p, q). -/
theorem bias64_apply (b : Vec Ideal S64 .f32) (p : Fin 2000) (q : Fin 64) :
    broadcastTo S2000x64 (shapeCast S1x64 b shapeCasts_S64_S1x64) broadcasts_S1x64_S2000x64 (ix2 p q) = b (ix1 q) :=
  (broadcastTo_1b_ab_apply _ _ p q).trans (shapeCast_a_1a_apply b _ (0 : Fin 1) q)

/-- A weight slab with its unit axis dropped, at (k, q). -/
theorem slab_apply (w : Vec Ideal S1x128x128 .f32) (h : S1x128x128.ShapeCasts S128x128) (k q : Fin 128) :
    shapeCast S128x128 w h (ix2 k q) = w (ix3 (0 : Fin 1) k q) :=
  shapeCast_1ab_ab_apply w h k q

/-- The combine body of region 0 at (p, q). -/
theorem k0_pay1_apply (x0 x1 x2 : Vec Ideal S2000x128 .f32) (w0 w1 w2 : Vec Ideal S1x128x128 .f32) (b : Vec Ideal S128 .f32)
    (p : Fin 2000) (q : Fin 128) :
    Gen.k0_pay1 x0 x1 x2 w0 w1 w2 b (ix2 p q)
      = max ((((∑ k : Fin 128, x0 (ix2 p k) * w0 (ix3 (0 : Fin 1) k q)) + ∑ k : Fin 128, x1 (ix2 p k) * w1 (ix3 (0 : Fin 1) k q))
          + ∑ k : Fin 128, x2 (ix2 p k) * w2 (ix3 (0 : Fin 1) k q)) + b (ix1 q)) z0 := by
  unfold Gen.k0_pay1
  rw [maximumf_apply, addf_apply, addf_apply, addf_apply, mm128_apply, mm128_apply, mm128_apply, bias128_apply]
  simp only [truncf_apply, shapeCast_self]
  have e0 : ∀ k : Fin 128, shapeCast S128x128 w0 Gen.shapeCasts_S1x128x128_S128x128 (ix2 k q) = w0 (ix3 (0 : Fin 1) k q) := fun k => slab_apply w0 _ k q
  have e1 : ∀ k : Fin 128, shapeCast S128x128 w1 Gen.shapeCasts_S1x128x128_S128x128 (ix2 k q) = w1 (ix3 (0 : Fin 1) k q) := fun k => slab_apply w1 _ k q
  have e2 : ∀ k : Fin 128, shapeCast S128x128 w2 Gen.shapeCasts_S1x128x128_S128x128 (ix2 k q) = w2 (ix3 (0 : Fin 1) k q) := fun k => slab_apply w2 _ k q
  simp only [e0, e1, e2]
  rfl

/-- The combine body of region 1 at (p, q). -/
theorem k1_pay1_apply (x0 x1 x2 : Vec Ideal S2000x128 .f32) (w0 w1 w2 : Vec Ideal S1x128x128 .f32) (b : Vec Ideal S128 .f32)
    (p : Fin 2000) (q : Fin 128) :
    Gen.k1_pay1 x0 x1 x2 w0 w1 w2 b (ix2 p q)
      = max ((((∑ k : Fin 128, x0 (ix2 p k) * w0 (ix3 (0 : Fin 1) k q)) + ∑ k : Fin 128, x1 (ix2 p k) * w1 (ix3 (0 : Fin 1) k q))
          + ∑ k : Fin 128, x2 (ix2 p k) * w2 (ix3 (0 : Fin 1) k q)) + b (ix1 q)) z0 := by
  unfold Gen.k1_pay1
  rw [maximumf_apply, addf_apply, addf_apply, addf_apply, mm128_apply, mm128_apply, mm128_apply, bias128_apply]
  simp only [truncf_apply, shapeCast_self]
  have e0 : ∀ k : Fin 128, shapeCast S128x128 w0 Gen.shapeCasts_S1x128x128_S128x128 (ix2 k q) = w0 (ix3 (0 : Fin 1) k q) := fun k => slab_apply w0 _ k q
  have e1 : ∀ k : Fin 128, shapeCast S128x128 w1 Gen.shapeCasts_S1x128x128_S128x128 (ix2 k q) = w1 (ix3 (0 : Fin 1) k q) := fun k => slab_apply w1 _ k q
  have e2 : ∀ k : Fin 128, shapeCast S128x128 w2 Gen.shapeCasts_S1x128x128_S128x128 (ix2 k q) = w2 (ix3 (0 : Fin 1) k q) := fun k => slab_apply w2 _ k q
  simp only [e0, e1, e2]
  rfl

/-- The combine body of region 2 at (p, q). -/
theorem k2_pay1_apply (x0 x1 x2 : Vec Ideal S2000x128 .f32) (w0 w1 w2 : Vec Ideal S1x128x128 .f32) (b : Vec Ideal S128 .f32)
    (p : Fin 2000) (q : Fin 128) :
    Gen.k2_pay1 x0 x1 x2 w0 w1 w2 b (ix2 p q)
      = max ((((∑ k : Fin 128, x0 (ix2 p k) * w0 (ix3 (0 : Fin 1) k q)) + ∑ k : Fin 128, x1 (ix2 p k) * w1 (ix3 (0 : Fin 1) k q))
          + ∑ k : Fin 128, x2 (ix2 p k) * w2 (ix3 (0 : Fin 1) k q)) + b (ix1 q)) z0 := by
  unfold Gen.k2_pay1
  rw [maximumf_apply, addf_apply, addf_apply, addf_apply, mm128_apply, mm128_apply, mm128_apply, bias128_apply]
  simp only [truncf_apply, shapeCast_self]
  have e0 : ∀ k : Fin 128, shapeCast S128x128 w0 Gen.shapeCasts_S1x128x128_S128x128 (ix2 k q) = w0 (ix3 (0 : Fin 1) k q) := fun k => slab_apply w0 _ k q
  have e1 : ∀ k : Fin 128, shapeCast S128x128 w1 Gen.shapeCasts_S1x128x128_S128x128 (ix2 k q) = w1 (ix3 (0 : Fin 1) k q) := fun k => slab_apply w1 _ k q
  have e2 : ∀ k : Fin 128, shapeCast S128x128 w2 Gen.shapeCasts_S1x128x128_S128x128 (ix2 k q) = w2 (ix3 (0 : Fin 1) k q) := fun k => slab_apply w2 _ k q
  simp only [e0, e1, e2]
  rfl

/-- The combine body of region 3 at (p, q). -/
theorem k3_pay1_apply (x0 x1 x2 : Vec Ideal S2000x128 .f32) (w0 w1 w2 : Vec Ideal S1x128x128 .f32) (b : Vec Ideal S128 .f32)
    (p : Fin 2000) (q : Fin 128) :
    Gen.k3_pay1 x0 x1 x2 w0 w1 w2 b (ix2 p q)
      = max ((((∑ k : Fin 128, x0 (ix2 p k) * w0 (ix3 (0 : Fin 1) k q)) + ∑ k : Fin 128, x1 (ix2 p k) * w1 (ix3 (0 : Fin 1) k q))
          + ∑ k : Fin 128, x2 (ix2 p k) * w2 (ix3 (0 : Fin 1) k q)) + b (ix1 q)) z0 := by
  unfold Gen.k3_pay1
  rw [maximumf_apply, addf_apply, addf_apply, addf_apply, mm128_apply, mm128_apply, mm128_apply, bias128_apply]
  simp only [truncf_apply, shapeCast_self]
  have e0 : ∀ k : Fin 128, shapeCast S128x128 w0 Gen.shapeCasts_S1x128x128_S128x128 (ix2 k q) = w0 (ix3 (0 : Fin 1) k q) := fun k => slab_apply w0 _ k q
  have e1 : ∀ k : Fin 128, shapeCast S128x128 w1 Gen.shapeCasts_S1x128x128_S128x128 (ix2 k q) = w1 (ix3 (0 : Fin 1) k q) := fun k => slab_apply w1 _ k q
  have e2 : ∀ k : Fin 128, shapeCast S128x128 w2 Gen.shapeCasts_S1x128x128_S128x128 (ix2 k q) = w2 (ix3 (0 : Fin 1) k q) := fun k => slab_apply w2 _ k q
  simp only [e0, e1, e2]
  rfl

/-- The perceptron body at (p, q). -/
theorem k4_pay1_apply (x : Vec Ideal S2000x128 .f32) (mw1 : Vec Ideal S128x128 .f32) (mb1 : Vec Ideal S128 .f32)
    (mw2 : Vec Ideal S128x64 .f32) (mb2 : Vec Ideal S64 .f32) (p : Fin 2000) (q : Fin 64) :
    Gen.k4_pay1 x mw1 mb1 mw2 mb2 (ix2 p q)
      = (∑ j : Fin 128, max ((∑ k : Fin 128, x (ix2 p k) * mw1 (ix2 k j)) + mb1 (ix1 j)) z0 * mw2 (ix2 j q)) + mb2 (ix1 q) := by
  unfold Gen.k4_pay1
  rw [addf_apply, mm64_apply, bias64_apply]
  refine congrArg (· + mb2 (ix1 q)) (Finset.sum_congr rfl fun j _ => ?_)
  rw [truncf_apply, truncf_apply, maximumf_apply, addf_apply, mm128_apply, bias128_apply]
  simp only [truncf_apply, shapeCast_self]
  rfl

end Cert.KernelIdeal.Pay

end
-- ==== Proof.Region0.lean ====
/-
  What region 0 (the combine kernel over 25 blocks of 2000 rows) leaves in its output array, as one function of the
  arrays it finds: the combine stage of the whole arrays. Block t of the output is the body applied to block t of the
  three Chebyshev terms and to the whole weights and bias; row p of block t is row t·2000 + p of the array, and an entry
  of the stage depends on that row alone, so each block of the stage is what the point writes back; the 25 blocks tile
  the 50000 rows.
-/
import proofs.«144721_j84121229460224_1_alg».proof.Proof.Gen.KernelIdeal.Frame
import proofs.«144721_j84121229460224_1_alg».proof.Proof.PayIdx
import proofs.«144721_j84121229460224_1_alg».proof.Proof.SpecIdx

set_option maxRecDepth 16384

noncomputable section

namespace Cert.KernelIdeal.Region0

open Idealize.ShloMosaic Idealize.ShloMosaic.TcCoe Idealize.ShloMosaic.ValueIdx Idealize.SL.Sem Cert.KernelIdeal
open Cert.Stages (z0 combT combT_apply)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block (t, 0), the weights and bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- Row p of block t is a row of the array. -/
theorem row_lt (t : Fin cfg0.N) (p : Fin 2000) : t.val * 2000 + p.val < 50000 := by
  have hN : grid0.N = 25 := Gen.N_0
  have ht : t.val < grid0.N := t.isLt
  have hp := p.isLt
  omega

/-- Row p of block t, as a row of the array. -/
abbrev row (t : Fin cfg0.N) (p : Fin 2000) : Fin 50000 := ⟨t.val * 2000 + p.val, row_lt t p⟩

theorem iblk_0 (c : Dev nD) (t : Fin cfg0.N) (p : Fin 2000) (k : Fin 128) :
    Gen.iblk0 V c 0 t (ix2 p k) = V c main_arg0 (ix2 (row t p) k) := by
  show V c main_arg0 (((cfg0.win 0).blk t).view.emb (ix2 p k)) = _
  refine congrArg (V c main_arg0) (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 128 + 1 * k.val = k.val; omega

theorem iblk_1 (c : Dev nD) (t : Fin cfg0.N) (p : Fin 2000) (k : Fin 128) :
    Gen.iblk0 V c 1 t (ix2 p k) = V c main_v30 (ix2 (row t p) k) := by
  show V c main_v30 (((cfg0.win 1).blk t).view.emb (ix2 p k)) = _
  refine congrArg (V c main_v30) (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 128 + 1 * k.val = k.val; omega

theorem iblk_2 (c : Dev nD) (t : Fin cfg0.N) (p : Fin 2000) (k : Fin 128) :
    Gen.iblk0 V c 2 t (ix2 p k) = V c main_v56 (ix2 (row t p) k) := by
  show V c main_v56 (((cfg0.win 2).blk t).view.emb (ix2 p k)) = _
  refine congrArg (V c main_v56) (funext fun a => Fin.ext ?_)
  obtain ⟨-, -, -, -, e0, e1, -⟩ := idx_facts t
  match a with
  | ⟨0, _⟩ => show win0_2.index t (0 : Fin 2) * 2000 + 1 * p.val = t.val * 2000 + p.val; omega
  | ⟨1, _⟩ => show win0_2.index t (1 : Fin 2) * 128 + 1 * k.val = k.val; omega

/-- Slab 0 of the weights as the body loads it, at (0, k, q): the array at (0, k, q). -/
theorem wld_1 (c : Dev nD) (t : Fin cfg0.N) (k q : Fin 128) :
    View.ld (Gen.iblk0 V c 3 t) Gen.r0_1 (ix3 (0 : Fin 1) k q) = V c main_arg3 (ix3 (0 : Fin 3) k q) := by
  show V c main_arg3 (((cfg0.win 3).blk t).view.emb (Gen.r0_1.emb (ix3 (0 : Fin 1) k q))) = _
  refine congrArg (V c main_arg3) (funext fun a => Fin.ext ?_)
  obtain ⟨-, -, -, -, -, -, e0, e1, e2, -⟩ := idx_facts t
  match a with
  | ⟨0, _⟩ => show win0_3.index t (0 : Fin 3) * 3 + 1 * (0 + 1 * 0) = 0; omega
  | ⟨1, _⟩ => show win0_3.index t (1 : Fin 3) * 128 + 1 * (0 + 1 * k.val) = k.val; omega
  | ⟨2, _⟩ => show win0_3.index t (2 : Fin 3) * 128 + 1 * (0 + 1 * q.val) = q.val; omega

/-- Slab 1 of the weights as the body loads it, at (0, k, q): the array at (1, k, q). -/
theorem wld_2 (c : Dev nD) (t : Fin cfg0.N) (k q : Fin 128) :
    View.ld (Gen.iblk0 V c 3 t) Gen.r0_2 (ix3 (0 : Fin 1) k q) = V c main_arg3 (ix3 (1 : Fin 3) k q) := by
  show V c main_arg3 (((cfg0.win 3).blk t).view.emb (Gen.r0_2.emb (ix3 (0 : Fin 1) k q))) = _
  refine congrArg (V c main_arg3) (funext fun a => Fin.ext ?_)
  obtain ⟨-, -, -, -, -, -, e0, e1, e2, -⟩ := idx_facts t
  match a with
  | ⟨0, _⟩ => show win0_3.index t (0 : Fin 3) * 3 + 1 * (1 + 1 * 0) = 1; omega
  | ⟨1, _⟩ => show win0_3.index t (1 : Fin 3) * 128 + 1 * (0 + 1 * k.val) = k.val; omega
  | ⟨2, _⟩ => show win0_3.index t (2 : Fin 3) * 128 + 1 * (0 + 1 * q.val) = q.val; omega

/-- Slab 2 of the weights as the body loads it, at (0, k, q): the array at (2, k, q). -/
theorem wld_3 (c : Dev nD) (t : Fin cfg0.N) (k q : Fin 128) :
    View.ld (Gen.iblk0 V c 3 t) Gen.r0_3 (ix3 (0 : Fin 1) k q) = V c main_arg3 (ix3 (2 : Fin 3) k q) := by
  show V c main_arg3 (((cfg0.win 3).blk t).view.emb (Gen.r0_3.emb (ix3 (0 : Fin 1) k q))) = _
  refine congrArg (V c main_arg3) (funext fun a => Fin.ext ?_)
  obtain ⟨-, -, -, -, -, -, e0, e1, e2, -⟩ := idx_facts t
  match a with
  | ⟨0, _⟩ => show win0_3.index t (0 : Fin 3) * 3 + 1 * (2 + 1 * 0) = 2; omega
  | ⟨1, _⟩ => show win0_3.index t (1 : Fin 3) * 128 + 1 * (0 + 1 * k.val) = k.val; omega
  | ⟨2, _⟩ => show win0_3.index t (2 : Fin 3) * 128 + 1 * (0 + 1 * q.val) = q.val; omega

/-- The bias block is the whole bias. -/
theorem iblk_4 (c : Dev nD) (t : Fin cfg0.N) (q : Fin 128) :
    Gen.iblk0 V c 4 t (ix1 q) = V c main_arg4 (ix1 q) := by
  show V c main_arg4 (((cfg0.win 4).blk t).view.emb (ix1 q)) = _
  refine congrArg (V c main_arg4) (funext fun a => Fin.ext ?_)
  obtain ⟨-, -, -, -, -, -, -, -, -, e0, -⟩ := idx_facts t
  match a with
  | ⟨0, _⟩ => show win0_4.index t (0 : Fin 1) * 128 + 1 * q.val = q.val; omega

/-- Entry (p, q) of the output's block t sits at row t·2000 + p of the array. -/
theorem oemb (t : Fin cfg0.N) (p : Fin 2000) (q : Fin 128) :
    ((cfg0.win 5).blk t).view.emb (ix2 p q) = ix2 (row t p) q := by
  refine funext fun a => Fin.ext ?_
  obtain ⟨-, -, -, -, -, -, -, -, -, -, e0, e1⟩ := idx_facts t
  match a with
  | ⟨0, _⟩ => show win0_5.index t (0 : Fin 2) * 2000 + 1 * p.val = t.val * 2000 + p.val; omega
  | ⟨1, _⟩ => show win0_5.index t (1 : Fin 2) * 128 + 1 * q.val = q.val; omega

/-- What point t writes back is block t of the combine stage of the whole arrays. -/
theorem flushed_eq (c : Dev nD) (t : Fin cfg0.N) :
    (Gen.dat0 V c).flushed 5 t = ((cfg0.win 5).blk t).view.read (Elt Ideal)
      (combT (V c main_arg0) (V c main_v30) (V c main_v56) (V c main_arg3) (V c main_arg4)) := by
  show (cfg0.win 5).cut (grid0.coords t) ((Gen.dat0 V c).after 5 t) = _
  rw [Gen.after0_5]
  unfold Gen.out0_5
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 (n0 := 2000) (n1 := 128) j⟩
  show Gen.k0_pay1 (Gen.iblk0 V c 0 t) (Gen.iblk0 V c 1 t) (Gen.iblk0 V c 2 t) (View.ld (Gen.iblk0 V c 3 t) Gen.r0_1)
      (View.ld (Gen.iblk0 V c 3 t) Gen.r0_2) (View.ld (Gen.iblk0 V c 3 t) Gen.r0_3) (Gen.iblk0 V c 4 t) (ix2 p q)
    = combT (V c main_arg0) (V c main_v30) (V c main_v56) (V c main_arg3) (V c main_arg4) (((cfg0.win 5).blk t).view.emb (ix2 p q))
  rw [oemb t p q, combT_apply]
  refine (Pay.k0_pay1_apply (Gen.iblk0 V c 0 t) (Gen.iblk0 V c 1 t) (Gen.iblk0 V c 2 t) (View.ld (Gen.iblk0 V c 3 t) Gen.r0_1)
      (View.ld (Gen.iblk0 V c 3 t) Gen.r0_2) (View.ld (Gen.iblk0 V c 3 t) Gen.r0_3) (Gen.iblk0 V c 4 t) p q).trans ?_
  simp only [iblk_0 V c t p, iblk_1 V c t p, iblk_2 V c t p, wld_1 V c t, wld_2 V c t, wld_3 V c t, iblk_4 V c t q]

/-- An index of the array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v57).slice (win0_5.rect t)).set ↔ _
  rw [View.set_slice_whole, Rect.mem_set_unit]
  exact Iff.rfl

/-- Row r of the array is in block r / 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := Gen.N_0
  have ht : (i 0).val / 2000 < grid0.N := by omega
  refine ⟨⟨(i 0).val / 2000, ht⟩, Gen.flush0_5 _, ?_⟩
  rw [mem_blk]
  obtain ⟨-, -, -, -, -, -, -, -, -, -, e0, e1⟩ := idx_facts ⟨(i 0).val / 2000, ht⟩
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]; omega

/-- THE OUTPUT ARRAY of region 0 after its run: the combine stage of the arrays the region finds. -/
theorem value (c : Dev nD) :
    (Gen.dat0 V c).arrAt 5 cfg0.N = combT (V c main_arg0) (V c main_v30) (V c main_v56) (V c main_arg3) (V c main_arg4) :=
  (Gen.dat0 V c).arrAt_eq_of_cover 5 _ (fun t _ => flushed_eq V c t) cover

end Cert.KernelIdeal.Region0

end
-- ==== Proof.Region1.lean ====
/-
  What region 1 (the combine kernel over 25 blocks of 2000 rows) leaves in its output array, as one function of the
  arrays it finds: the combine stage of the whole arrays. Block t of the output is the body applied to block t of the
  three Chebyshev terms and to the whole weights and bias; row p of block t is row t·2000 + p of the array, and an entry
  of the stage depends on that row alone, so each block of the stage is what the point writes back; the 25 blocks tile
  the 50000 rows.
-/
import proofs.«144721_j84121229460224_1_alg».proof.Proof.Gen.KernelIdeal.Frame
import proofs.«144721_j84121229460224_1_alg».proof.Proof.PayIdx
import proofs.«144721_j84121229460224_1_alg».proof.Proof.SpecIdx

set_option maxRecDepth 16384

noncomputable section

namespace Cert.KernelIdeal.Region1

open Idealize.ShloMosaic Idealize.ShloMosaic.TcCoe Idealize.ShloMosaic.ValueIdx Idealize.SL.Sem Cert.KernelIdeal
open Cert.Stages (z0 combT combT_apply)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block (t, 0), the weights and bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = t.val ∧ win1_5.index t (1 : Fin 2) = 0 :=
  (by decide +kernel : ∀ t : Fin grid1.N, _)

/-- Row p of block t is a row of the array. -/
theorem row_lt (t : Fin cfg1.N) (p : Fin 2000) : t.val * 2000 + p.val < 50000 := by
  have hN : grid1.N = 25 := Gen.N_1
  have ht : t.val < grid1.N := t.isLt
  have hp := p.isLt
  omega

/-- Row p of block t, as a row of the array. -/
abbrev row (t : Fin cfg1.N) (p : Fin 2000) : Fin 50000 := ⟨t.val * 2000 + p.val, row_lt t p⟩

theorem iblk_0 (c : Dev nD) (t : Fin cfg1.N) (p : Fin 2000) (k : Fin 128) :
    Gen.iblk1 V c 0 t (ix2 p k) = V c main_v76 (ix2 (row t p) k) := by
  show V c main_v76 (((cfg1.win 0).blk t).view.emb (ix2 p k)) = _
  refine congrArg (V c main_v76) (funext fun a => Fin.ext ?_)
  obtain ⟨e0, e1, -⟩ := idx_facts t
  match a with
  | ⟨0, _⟩ => show win1_0.index t (0 : Fin 2) * 2000 + 1 * p.val = t.val * 2000 + p.val; omega
  | ⟨1, _⟩ => show win1_0.index t (1 : Fin 2) * 128 + 1 * k.val = k.val; omega

theorem iblk_1 (c : Dev nD) (t : Fin cfg1.N) (p : Fin 2000) (k : Fin 128) :
    Gen.iblk1 V c 1 t (ix2 p k) = V c main_v100 (ix2 (row t p) k) := by
  show V c main_v100 (((cfg1.win 1).blk t).view.emb (ix2 p k)) = _
  refine congrArg (V c main_v100) (funext fun a => Fin.ext ?_)
  obtain ⟨-, -, e0, e1, -⟩ := idx_facts t
  match a with
  | ⟨0, _⟩ => show win1_1.index t (0 : Fin 2) * 2000 + 1 * p.val = t.val * 2000 + p.val; omega
  | ⟨1, _⟩ => show win1_1.index t (1 : Fin 2) * 128 + 1 * k.val = k.val; omega

theorem iblk_2 (c : Dev nD) (t : Fin cfg1.N) (p : Fin 2000) (k : Fin 128) :
    Gen.iblk1 V c 2 t (ix2 p k) = V c main_v126 (ix2 (row t p) k) := by
  show V c main_v126 (((cfg1.win 2).blk t).view.emb (ix2 p k)) = _
  refine congrArg (V c main_v126) (funext fun a => Fin.ext ?_)
  obtain ⟨-, -, -, -, e0, e1, -⟩ := idx_facts t
  match a with
  | ⟨0, _⟩ => show win1_2.index t (0 : Fin 2) * 2000 + 1 * p.val = t.val * 2000 + p.val; omega
  | ⟨1, _⟩ => show win1_2.index t (1 : Fin 2) * 128 + 1 * k.val = k.val; omega

/-- Slab 0 of the weights as the body loads it, at (0, k, q): the array at (0, k, q). -/
theorem wld_1 (c : Dev nD) (t : Fin cfg1.N) (k q : Fin 128) :
    View.ld (Gen.iblk1 V c 3 t) Gen.r1_1 (ix3 (0 : Fin 1) k q) = V c main_arg5 (ix3 (0 : Fin 3) k q) := by
  show V c main_arg5 (((cfg1.win 3).blk t).view.emb (Gen.r1_1.emb (ix3 (0 : Fin 1) k q))) = _
  refine congrArg (V c main_arg5) (funext fun a => Fin.ext ?_)
  obtain ⟨-, -, -, -, -, -, e0, e1, e2, -⟩ := idx_facts t
  match a with
  | ⟨0, _⟩ => show win1_3.index t (0 : Fin 3) * 3 + 1 * (0 + 1 * 0) = 0; omega
  | ⟨1, _⟩ => show win1_3.index t (1 : Fin 3) * 128 + 1 * (0 + 1 * k.val) = k.val; omega
  | ⟨2, _⟩ => show win1_3.index t (2 : Fin 3) * 128 + 1 * (0 + 1 * q.val) = q.val; omega

/-- Slab 1 of the weights as the body loads it, at (0, k, q): the array at (1, k, q). -/
theorem wld_2 (c : Dev nD) (t : Fin cfg1.N) (k q : Fin 128) :
    View.ld (Gen.iblk1 V c 3 t) Gen.r1_2 (ix3 (0 : Fin 1) k q) = V c main_arg5 (ix3 (1 : Fin 3) k q) := by
  show V c main_arg5 (((cfg1.win 3).blk t).view.emb (Gen.r1_2.emb (ix3 (0 : Fin 1) k q))) = _
  refine congrArg (V c main_arg5) (funext fun a => Fin.ext ?_)
  obtain ⟨-, -, -, -, -, -, e0, e1, e2, -⟩ := idx_facts t
  match a with
  | ⟨0, _⟩ => show win1_3.index t (0 : Fin 3) * 3 + 1 * (1 + 1 * 0) = 1; omega
  | ⟨1, _⟩ => show win1_3.index t (1 : Fin 3) * 128 + 1 * (0 + 1 * k.val) = k.val; omega
  | ⟨2, _⟩ => show win1_3.index t (2 : Fin 3) * 128 + 1 * (0 + 1 * q.val) = q.val; omega

/-- Slab 2 of the weights as the body loads it, at (0, k, q): the array at (2, k, q). -/
theorem wld_3 (c : Dev nD) (t : Fin cfg1.N) (k q : Fin 128) :
    View.ld (Gen.iblk1 V c 3 t) Gen.r1_3 (ix3 (0 : Fin 1) k q) = V c main_arg5 (ix3 (2 : Fin 3) k q) := by
  show V c main_arg5 (((cfg1.win 3).blk t).view.emb (Gen.r1_3.emb (ix3 (0 : Fin 1) k q))) = _
  refine congrArg (V c main_arg5) (funext fun a => Fin.ext ?_)
  obtain ⟨-, -, -, -, -, -, e0, e1, e2, -⟩ := idx_facts t
  match a with
  | ⟨0, _⟩ => show win1_3.index t (0 : Fin 3) * 3 + 1 * (2 + 1 * 0) = 2; omega
  | ⟨1, _⟩ => show win1_3.index t (1 : Fin 3) * 128 + 1 * (0 + 1 * k.val) = k.val; omega
  | ⟨2, _⟩ => show win1_3.index t (2 : Fin 3) * 128 + 1 * (0 + 1 * q.val) = q.val; omega

/-- The bias block is the whole bias. -/
theorem iblk_4 (c : Dev nD) (t : Fin cfg1.N) (q : Fin 128) :
    Gen.iblk1 V c 4 t (ix1 q) = V c main_arg6 (ix1 q) := by
  show V c main_arg6 (((cfg1.win 4).blk t).view.emb (ix1 q)) = _
  refine congrArg (V c main_arg6) (funext fun a => Fin.ext ?_)
  obtain ⟨-, -, -, -, -, -, -, -, -, e0, -⟩ := idx_facts t
  match a with
  | ⟨0, _⟩ => show win1_4.index t (0 : Fin 1) * 128 + 1 * q.val = q.val; omega

/-- Entry (p, q) of the output's block t sits at row t·2000 + p of the array. -/
theorem oemb (t : Fin cfg1.N) (p : Fin 2000) (q : Fin 128) :
    ((cfg1.win 5).blk t).view.emb (ix2 p q) = ix2 (row t p) q := by
  refine funext fun a => Fin.ext ?_
  obtain ⟨-, -, -, -, -, -, -, -, -, -, e0, e1⟩ := idx_facts t
  match a with
  | ⟨0, _⟩ => show win1_5.index t (0 : Fin 2) * 2000 + 1 * p.val = t.val * 2000 + p.val; omega
  | ⟨1, _⟩ => show win1_5.index t (1 : Fin 2) * 128 + 1 * q.val = q.val; omega

/-- What point t writes back is block t of the combine stage of the whole arrays. -/
theorem flushed_eq (c : Dev nD) (t : Fin cfg1.N) :
    (Gen.dat1 V c).flushed 5 t = ((cfg1.win 5).blk t).view.read (Elt Ideal)
      (combT (V c main_v76) (V c main_v100) (V c main_v126) (V c main_arg5) (V c main_arg6)) := by
  show (cfg1.win 5).cut (grid1.coords t) ((Gen.dat1 V c).after 5 t) = _
  rw [Gen.after1_5]
  unfold Gen.out1_5
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 (n0 := 2000) (n1 := 128) j⟩
  show Gen.k1_pay1 (Gen.iblk1 V c 0 t) (Gen.iblk1 V c 1 t) (Gen.iblk1 V c 2 t) (View.ld (Gen.iblk1 V c 3 t) Gen.r1_1)
      (View.ld (Gen.iblk1 V c 3 t) Gen.r1_2) (View.ld (Gen.iblk1 V c 3 t) Gen.r1_3) (Gen.iblk1 V c 4 t) (ix2 p q)
    = combT (V c main_v76) (V c main_v100) (V c main_v126) (V c main_arg5) (V c main_arg6) (((cfg1.win 5).blk t).view.emb (ix2 p q))
  rw [oemb t p q, combT_apply]
  refine (Pay.k1_pay1_apply (Gen.iblk1 V c 0 t) (Gen.iblk1 V c 1 t) (Gen.iblk1 V c 2 t) (View.ld (Gen.iblk1 V c 3 t) Gen.r1_1)
      (View.ld (Gen.iblk1 V c 3 t) Gen.r1_2) (View.ld (Gen.iblk1 V c 3 t) Gen.r1_3) (Gen.iblk1 V c 4 t) p q).trans ?_
  simp only [iblk_0 V c t p, iblk_1 V c t p, iblk_2 V c t p, wld_1 V c t, wld_2 V c t, wld_3 V c t, iblk_4 V c t q]

/-- An index of the array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v127).slice (win1_5.rect t)).set ↔ _
  rw [View.set_slice_whole, Rect.mem_set_unit]
  exact Iff.rfl

/-- Row r of the array is in block r / 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := Gen.N_1
  have ht : (i 0).val / 2000 < grid1.N := by omega
  refine ⟨⟨(i 0).val / 2000, ht⟩, Gen.flush1_5 _, ?_⟩
  rw [mem_blk]
  obtain ⟨-, -, -, -, -, -, -, -, -, -, e0, e1⟩ := idx_facts ⟨(i 0).val / 2000, ht⟩
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- THE OUTPUT ARRAY of region 1 after its run: the combine stage of the arrays the region finds. -/
theorem value (c : Dev nD) :
    (Gen.dat1 V c).arrAt 5 cfg1.N = combT (V c main_v76) (V c main_v100) (V c main_v126) (V c main_arg5) (V c main_arg6) :=
  (Gen.dat1 V c).arrAt_eq_of_cover 5 _ (fun t _ => flushed_eq V c t) cover

end Cert.KernelIdeal.Region1

end
-- ==== Proof.Region2.lean ====
/-
  What region 2 (the combine kernel over 25 blocks of 2000 rows) leaves in its output array, as one function of the
  arrays it finds: the combine stage of the whole arrays. Block t of the output is the body applied to block t of the
  three Chebyshev terms and to the whole weights and bias; row p of block t is row t·2000 + p of the array, and an entry
  of the stage depends on that row alone, so each block of the stage is what the point writes back; the 25 blocks tile
  the 50000 rows.
-/
import proofs.«144721_j84121229460224_1_alg».proof.Proof.Gen.KernelIdeal.Frame
import proofs.«144721_j84121229460224_1_alg».proof.Proof.PayIdx
import proofs.«144721_j84121229460224_1_alg».proof.Proof.SpecIdx

set_option maxRecDepth 16384

noncomputable section

namespace Cert.KernelIdeal.Region2

open Idealize.ShloMosaic Idealize.ShloMosaic.TcCoe Idealize.ShloMosaic.ValueIdx Idealize.SL.Sem Cert.KernelIdeal
open Cert.Stages (z0 combT combT_apply)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block (t, 0), the weights and bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 1) = 0
    ∧ win2_5.index t (0 : Fin 2) = t.val ∧ win2_5.index t (1 : Fin 2) = 0 :=
  (by decide +kernel : ∀ t : Fin grid2.N, _)

/-- Row p of block t is a row of the array. -/
theorem row_lt (t : Fin cfg2.N) (p : Fin 2000) : t.val * 2000 + p.val < 50000 := by
  have hN : grid2.N = 25 := Gen.N_2
  have ht : t.val < grid2.N := t.isLt
  have hp := p.isLt
  omega

/-- Row p of block t, as a row of the array. -/
abbrev row (t : Fin cfg2.N) (p : Fin 2000) : Fin 50000 := ⟨t.val * 2000 + p.val, row_lt t p⟩

theorem iblk_0 (c : Dev nD) (t : Fin cfg2.N) (p : Fin 2000) (k : Fin 128) :
    Gen.iblk2 V c 0 t (ix2 p k) = V c main_v127 (ix2 (row t p) k) := by
  show V c main_v127 (((cfg2.win 0).blk t).view.emb (ix2 p k)) = _
  refine congrArg (V c main_v127) (funext fun a => Fin.ext ?_)
  obtain ⟨e0, e1, -⟩ := idx_facts t
  match a with
  | ⟨0, _⟩ => show win2_0.index t (0 : Fin 2) * 2000 + 1 * p.val = t.val * 2000 + p.val; omega
  | ⟨1, _⟩ => show win2_0.index t (1 : Fin 2) * 128 + 1 * k.val = k.val; omega

theorem iblk_1 (c : Dev nD) (t : Fin cfg2.N) (p : Fin 2000) (k : Fin 128) :
    Gen.iblk2 V c 1 t (ix2 p k) = V c main_v151 (ix2 (row t p) k) := by
  show V c main_v151 (((cfg2.win 1).blk t).view.emb (ix2 p k)) = _
  refine congrArg (V c main_v151) (funext fun a => Fin.ext ?_)
  obtain ⟨-, -, e0, e1, -⟩ := idx_facts t
  match a with
  | ⟨0, _⟩ => show win2_1.index t (0 : Fin 2) * 2000 + 1 * p.val = t.val * 2000 + p.val; omega
  | ⟨1, _⟩ => show win2_1.index t (1 : Fin 2) * 128 + 1 * k.val = k.val; omega

theorem iblk_2 (c : Dev nD) (t : Fin cfg2.N) (p : Fin 2000) (k : Fin 128) :
    Gen.iblk2 V c 2 t (ix2 p k) = V c main_v177 (ix2 (row t p) k) := by
  show V c main_v177 (((cfg2.win 2).blk t).view.emb (ix2 p k)) = _
  refine congrArg (V c main_v177) (funext fun a => Fin.ext ?_)
  obtain ⟨-, -, -, -, e0, e1, -⟩ := idx_facts t
  match a with
  | ⟨0, _⟩ => show win2_2.index t (0 : Fin 2) * 2000 + 1 * p.val = t.val * 2000 + p.val; omega
  | ⟨1, _⟩ => show win2_2.index t (1 : Fin 2) * 128 + 1 * k.val = k.val; omega

/-- Slab 0 of the weights as the body loads it, at (0, k, q): the array at (0, k, q). -/
theorem wld_1 (c : Dev nD) (t : Fin cfg2.N) (k q : Fin 128) :
    View.ld (Gen.iblk2 V c 3 t) Gen.r2_1 (ix3 (0 : Fin 1) k q) = V c main_arg5 (ix3 (0 : Fin 3) k q) := by
  show V c main_arg5 (((cfg2.win 3).blk t).view.emb (Gen.r2_1.emb (ix3 (0 : Fin 1) k q))) = _
  refine congrArg (V c main_arg5) (funext fun a => Fin.ext ?_)
  obtain ⟨-, -, -, -, -, -, e0, e1, e2, -⟩ := idx_facts t
  match a with
  | ⟨0, _⟩ => show win2_3.index t (0 : Fin 3) * 3 + 1 * (0 + 1 * 0) = 0; omega
  | ⟨1, _⟩ => show win2_3.index t (1 : Fin 3) * 128 + 1 * (0 + 1 * k.val) = k.val; omega
  | ⟨2, _⟩ => show win2_3.index t (2 : Fin 3) * 128 + 1 * (0 + 1 * q.val) = q.val; omega

/-- Slab 1 of the weights as the body loads it, at (0, k, q): the array at (1, k, q). -/
theorem wld_2 (c : Dev nD) (t : Fin cfg2.N) (k q : Fin 128) :
    View.ld (Gen.iblk2 V c 3 t) Gen.r2_2 (ix3 (0 : Fin 1) k q) = V c main_arg5 (ix3 (1 : Fin 3) k q) := by
  show V c main_arg5 (((cfg2.win 3).blk t).view.emb (Gen.r2_2.emb (ix3 (0 : Fin 1) k q))) = _
  refine congrArg (V c main_arg5) (funext fun a => Fin.ext ?_)
  obtain ⟨-, -, -, -, -, -, e0, e1, e2, -⟩ := idx_facts t
  match a with
  | ⟨0, _⟩ => show win2_3.index t (0 : Fin 3) * 3 + 1 * (1 + 1 * 0) = 1; omega
  | ⟨1, _⟩ => show win2_3.index t (1 : Fin 3) * 128 + 1 * (0 + 1 * k.val) = k.val; omega
  | ⟨2, _⟩ => show win2_3.index t (2 : Fin 3) * 128 + 1 * (0 + 1 * q.val) = q.val; omega

/-- Slab 2 of the weights as the body loads it, at (0, k, q): the array at (2, k, q). -/
theorem wld_3 (c : Dev nD) (t : Fin cfg2.N) (k q : Fin 128) :
    View.ld (Gen.iblk2 V c 3 t) Gen.r2_3 (ix3 (0 : Fin 1) k q) = V c main_arg5 (ix3 (2 : Fin 3) k q) := by
  show V c main_arg5 (((cfg2.win 3).blk t).view.emb (Gen.r2_3.emb (ix3 (0 : Fin 1) k q))) = _
  refine congrArg (V c main_arg5) (funext fun a => Fin.ext ?_)
  obtain ⟨-, -, -, -, -, -, e0, e1, e2, -⟩ := idx_facts t
  match a with
  | ⟨0, _⟩ => show win2_3.index t (0 : Fin 3) * 3 + 1 * (2 + 1 * 0) = 2; omega
  | ⟨1, _⟩ => show win2_3.index t (1 : Fin 3) * 128 + 1 * (0 + 1 * k.val) = k.val; omega
  | ⟨2, _⟩ => show win2_3.index t (2 : Fin 3) * 128 + 1 * (0 + 1 * q.val) = q.val; omega

/-- The bias block is the whole bias. -/
theorem iblk_4 (c : Dev nD) (t : Fin cfg2.N) (q : Fin 128) :
    Gen.iblk2 V c 4 t (ix1 q) = V c main_arg6 (ix1 q) := by
  show V c main_arg6 (((cfg2.win 4).blk t).view.emb (ix1 q)) = _
  refine congrArg (V c main_arg6) (funext fun a => Fin.ext ?_)
  obtain ⟨-, -, -, -, -, -, -, -, -, e0, -⟩ := idx_facts t
  match a with
  | ⟨0, _⟩ => show win2_4.index t (0 : Fin 1) * 128 + 1 * q.val = q.val; omega

/-- Entry (p, q) of the output's block t sits at row t·2000 + p of the array. -/
theorem oemb (t : Fin cfg2.N) (p : Fin 2000) (q : Fin 128) :
    ((cfg2.win 5).blk t).view.emb (ix2 p q) = ix2 (row t p) q := by
  refine funext fun a => Fin.ext ?_
  obtain ⟨-, -, -, -, -, -, -, -, -, -, e0, e1⟩ := idx_facts t
  match a with
  | ⟨0, _⟩ => show win2_5.index t (0 : Fin 2) * 2000 + 1 * p.val = t.val * 2000 + p.val; omega
  | ⟨1, _⟩ => show win2_5.index t (1 : Fin 2) * 128 + 1 * q.val = q.val; omega

/-- What point t writes back is block t of the combine stage of the whole arrays. -/
theorem flushed_eq (c : Dev nD) (t : Fin cfg2.N) :
    (Gen.dat2 V c).flushed 5 t = ((cfg2.win 5).blk t).view.read (Elt Ideal)
      (combT (V c main_v127) (V c main_v151) (V c main_v177) (V c main_arg5) (V c main_arg6)) := by
  show (cfg2.win 5).cut (grid2.coords t) ((Gen.dat2 V c).after 5 t) = _
  rw [Gen.after2_5]
  unfold Gen.out2_5
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 (n0 := 2000) (n1 := 128) j⟩
  show Gen.k2_pay1 (Gen.iblk2 V c 0 t) (Gen.iblk2 V c 1 t) (Gen.iblk2 V c 2 t) (View.ld (Gen.iblk2 V c 3 t) Gen.r2_1)
      (View.ld (Gen.iblk2 V c 3 t) Gen.r2_2) (View.ld (Gen.iblk2 V c 3 t) Gen.r2_3) (Gen.iblk2 V c 4 t) (ix2 p q)
    = combT (V c main_v127) (V c main_v151) (V c main_v177) (V c main_arg5) (V c main_arg6) (((cfg2.win 5).blk t).view.emb (ix2 p q))
  rw [oemb t p q, combT_apply]
  refine (Pay.k2_pay1_apply (Gen.iblk2 V c 0 t) (Gen.iblk2 V c 1 t) (Gen.iblk2 V c 2 t) (View.ld (Gen.iblk2 V c 3 t) Gen.r2_1)
      (View.ld (Gen.iblk2 V c 3 t) Gen.r2_2) (View.ld (Gen.iblk2 V c 3 t) Gen.r2_3) (Gen.iblk2 V c 4 t) p q).trans ?_
  simp only [iblk_0 V c t p, iblk_1 V c t p, iblk_2 V c t p, wld_1 V c t, wld_2 V c t, wld_3 V c t, iblk_4 V c t q]

/-- An index of the array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v178).slice (win2_5.rect t)).set ↔ _
  rw [View.set_slice_whole, Rect.mem_set_unit]
  exact Iff.rfl

/-- Row r of the array is in block r / 2000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 25 := Gen.N_2
  have ht : (i 0).val / 2000 < grid2.N := by omega
  refine ⟨⟨(i 0).val / 2000, ht⟩, Gen.flush2_5 _, ?_⟩
  rw [mem_blk]
  obtain ⟨-, -, -, -, -, -, -, -, -, -, e0, e1⟩ := idx_facts ⟨(i 0).val / 2000, ht⟩
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val
      ∧ (i 1).val < win2_5.index ⟨(i 0).val / 2000, ht⟩ (1 : Fin 2) * 128 + 128
    rw [e1]; omega

/-- THE OUTPUT ARRAY of region 2 after its run: the combine stage of the arrays the region finds. -/
theorem value (c : Dev nD) :
    (Gen.dat2 V c).arrAt 5 cfg2.N = combT (V c main_v127) (V c main_v151) (V c main_v177) (V c main_arg5) (V c main_arg6) :=
  (Gen.dat2 V c).arrAt_eq_of_cover 5 _ (fun t _ => flushed_eq V c t) cover

end Cert.KernelIdeal.Region2

end
-- ==== Proof.Region3.lean ====
/-
  What region 3 (the combine kernel over 25 blocks of 2000 rows) leaves in its output array, as one function of the
  arrays it finds: the combine stage of the whole arrays. Block t of the output is the body applied to block t of the
  three Chebyshev terms and to the whole weights and bias; row p of block t is row t·2000 + p of the array, and an entry
  of the stage depends on that row alone, so each block of the stage is what the point writes back; the 25 blocks tile
  the 50000 rows.
-/
import proofs.«144721_j84121229460224_1_alg».proof.Proof.Gen.KernelIdeal.Frame
import proofs.«144721_j84121229460224_1_alg».proof.Proof.PayIdx
import proofs.«144721_j84121229460224_1_alg».proof.Proof.SpecIdx

set_option maxRecDepth 16384

noncomputable section

namespace Cert.KernelIdeal.Region3

open Idealize.ShloMosaic Idealize.ShloMosaic.TcCoe Idealize.ShloMosaic.ValueIdx Idealize.SL.Sem Cert.KernelIdeal
open Cert.Stages (z0 combT combT_apply)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block (t, 0), the weights and bias at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 0 ∧ win3_3.index t (2 : Fin 3) = 0
    ∧ win3_4.index t (0 : Fin 1) = 0
    ∧ win3_5.index t (0 : Fin 2) = t.val ∧ win3_5.index t (1 : Fin 2) = 0 :=
  (by decide +kernel : ∀ t : Fin grid3.N, _)

/-- Row p of block t is a row of the array. -/
theorem row_lt (t : Fin cfg3.N) (p : Fin 2000) : t.val * 2000 + p.val < 50000 := by
  have hN : grid3.N = 25 := Gen.N_3
  have ht : t.val < grid3.N := t.isLt
  have hp := p.isLt
  omega

/-- Row p of block t, as a row of the array. -/
abbrev row (t : Fin cfg3.N) (p : Fin 2000) : Fin 50000 := ⟨t.val * 2000 + p.val, row_lt t p⟩

theorem iblk_0 (c : Dev nD) (t : Fin cfg3.N) (p : Fin 2000) (k : Fin 128) :
    Gen.iblk3 V c 0 t (ix2 p k) = V c main_v178 (ix2 (row t p) k) := by
  show V c main_v178 (((cfg3.win 0).blk t).view.emb (ix2 p k)) = _
  refine congrArg (V c main_v178) (funext fun a => Fin.ext ?_)
  obtain ⟨e0, e1, -⟩ := idx_facts t
  match a with
  | ⟨0, _⟩ => show win3_0.index t (0 : Fin 2) * 2000 + 1 * p.val = t.val * 2000 + p.val; omega
  | ⟨1, _⟩ => show win3_0.index t (1 : Fin 2) * 128 + 1 * k.val = k.val; omega

theorem iblk_1 (c : Dev nD) (t : Fin cfg3.N) (p : Fin 2000) (k : Fin 128) :
    Gen.iblk3 V c 1 t (ix2 p k) = V c main_v202 (ix2 (row t p) k) := by
  show V c main_v202 (((cfg3.win 1).blk t).view.emb (ix2 p k)) = _
  refine congrArg (V c main_v202) (funext fun a => Fin.ext ?_)
  obtain ⟨-, -, e0, e1, -⟩ := idx_facts t
  match a with
  | ⟨0, _⟩ => show win3_1.index t (0 : Fin 2) * 2000 + 1 * p.val = t.val * 2000 + p.val; omega
  | ⟨1, _⟩ => show win3_1.index t (1 : Fin 2) * 128 + 1 * k.val = k.val; omega

theorem iblk_2 (c : Dev nD) (t : Fin cfg3.N) (p : Fin 2000) (k : Fin 128) :
    Gen.iblk3 V c 2 t (ix2 p k) = V c main_v228 (ix2 (row t p) k) := by
  show V c main_v228 (((cfg3.win 2).blk t).view.emb (ix2 p k)) = _
  refine congrArg (V c main_v228) (funext fun a => Fin.ext ?_)
  obtain ⟨-, -, -, -, e0, e1, -⟩ := idx_facts t
  match a with
  | ⟨0, _⟩ => show win3_2.index t (0 : Fin 2) * 2000 + 1 * p.val = t.val * 2000 + p.val; omega
  | ⟨1, _⟩ => show win3_2.index t (1 : Fin 2) * 128 + 1 * k.val = k.val; omega

/-- Slab 0 of the weights as the body loads it, at (0, k, q): the array at (0, k, q). -/
theorem wld_1 (c : Dev nD) (t : Fin cfg3.N) (k q : Fin 128) :
    View.ld (Gen.iblk3 V c 3 t) Gen.r3_1 (ix3 (0 : Fin 1) k q) = V c main_arg7 (ix3 (0 : Fin 3) k q) := by
  show V c main_arg7 (((cfg3.win 3).blk t).view.emb (Gen.r3_1.emb (ix3 (0 : Fin 1) k q))) = _
  refine congrArg (V c main_arg7) (funext fun a => Fin.ext ?_)
  obtain ⟨-, -, -, -, -, -, e0, e1, e2, -⟩ := idx_facts t
  match a with
  | ⟨0, _⟩ => show win3_3.index t (0 : Fin 3) * 3 + 1 * (0 + 1 * 0) = 0; omega
  | ⟨1, _⟩ => show win3_3.index t (1 : Fin 3) * 128 + 1 * (0 + 1 * k.val) = k.val; omega
  | ⟨2, _⟩ => show win3_3.index t (2 : Fin 3) * 128 + 1 * (0 + 1 * q.val) = q.val; omega

/-- Slab 1 of the weights as the body loads it, at (0, k, q): the array at (1, k, q). -/
theorem wld_2 (c : Dev nD) (t : Fin cfg3.N) (k q : Fin 128) :
    View.ld (Gen.iblk3 V c 3 t) Gen.r3_2 (ix3 (0 : Fin 1) k q) = V c main_arg7 (ix3 (1 : Fin 3) k q) := by
  show V c main_arg7 (((cfg3.win 3).blk t).view.emb (Gen.r3_2.emb (ix3 (0 : Fin 1) k q))) = _
  refine congrArg (V c main_arg7) (funext fun a => Fin.ext ?_)
  obtain ⟨-, -, -, -, -, -, e0, e1, e2, -⟩ := idx_facts t
  match a with
  | ⟨0, _⟩ => show win3_3.index t (0 : Fin 3) * 3 + 1 * (1 + 1 * 0) = 1; omega
  | ⟨1, _⟩ => show win3_3.index t (1 : Fin 3) * 128 + 1 * (0 + 1 * k.val) = k.val; omega
  | ⟨2, _⟩ => show win3_3.index t (2 : Fin 3) * 128 + 1 * (0 + 1 * q.val) = q.val; omega

/-- Slab 2 of the weights as the body loads it, at (0, k, q): the array at (2, k, q). -/
theorem wld_3 (c : Dev nD) (t : Fin cfg3.N) (k q : Fin 128) :
    View.ld (Gen.iblk3 V c 3 t) Gen.r3_3 (ix3 (0 : Fin 1) k q) = V c main_arg7 (ix3 (2 : Fin 3) k q) := by
  show V c main_arg7 (((cfg3.win 3).blk t).view.emb (Gen.r3_3.emb (ix3 (0 : Fin 1) k q))) = _
  refine congrArg (V c main_arg7) (funext fun a => Fin.ext ?_)
  obtain ⟨-, -, -, -, -, -, e0, e1, e2, -⟩ := idx_facts t
  match a with
  | ⟨0, _⟩ => show win3_3.index t (0 : Fin 3) * 3 + 1 * (2 + 1 * 0) = 2; omega
  | ⟨1, _⟩ => show win3_3.index t (1 : Fin 3) * 128 + 1 * (0 + 1 * k.val) = k.val; omega
  | ⟨2, _⟩ => show win3_3.index t (2 : Fin 3) * 128 + 1 * (0 + 1 * q.val) = q.val; omega

/-- The bias block is the whole bias. -/
theorem iblk_4 (c : Dev nD) (t : Fin cfg3.N) (q : Fin 128) :
    Gen.iblk3 V c 4 t (ix1 q) = V c main_arg8 (ix1 q) := by
  show V c main_arg8 (((cfg3.win 4).blk t).view.emb (ix1 q)) = _
  refine congrArg (V c main_arg8) (funext fun a => Fin.ext ?_)
  obtain ⟨-, -, -, -, -, -, -, -, -, e0, -⟩ := idx_facts t
  match a with
  | ⟨0, _⟩ => show win3_4.index t (0 : Fin 1) * 128 + 1 * q.val = q.val; omega

/-- Entry (p, q) of the output's block t sits at row t·2000 + p of the array. -/
theorem oemb (t : Fin cfg3.N) (p : Fin 2000) (q : Fin 128) :
    ((cfg3.win 5).blk t).view.emb (ix2 p q) = ix2 (row t p) q := by
  refine funext fun a => Fin.ext ?_
  obtain ⟨-, -, -, -, -, -, -, -, -, -, e0, e1⟩ := idx_facts t
  match a with
  | ⟨0, _⟩ => show win3_5.index t (0 : Fin 2) * 2000 + 1 * p.val = t.val * 2000 + p.val; omega
  | ⟨1, _⟩ => show win3_5.index t (1 : Fin 2) * 128 + 1 * q.val = q.val; omega

/-- What point t writes back is block t of the combine stage of the whole arrays. -/
theorem flushed_eq (c : Dev nD) (t : Fin cfg3.N) :
    (Gen.dat3 V c).flushed 5 t = ((cfg3.win 5).blk t).view.read (Elt Ideal)
      (combT (V c main_v178) (V c main_v202) (V c main_v228) (V c main_arg7) (V c main_arg8)) := by
  show (cfg3.win 5).cut (grid3.coords t) ((Gen.dat3 V c).after 5 t) = _
  rw [Gen.after3_5]
  unfold Gen.out3_5
  rw [View.canon_unit_zero hz2]
  simp only [View.ld_unit_zero (S := S2000x128) hz2, View.ld_unit_zero (S := S128) hz1]
  funext j
  obtain ⟨p, q, rfl⟩ : ∃ (p : Fin 2000) (q : Fin 128), j = ix2 p q := ⟨j 0, j 1, eq_ix2 (n0 := 2000) (n1 := 128) j⟩
  show Gen.k3_pay1 (Gen.iblk3 V c 0 t) (Gen.iblk3 V c 1 t) (Gen.iblk3 V c 2 t) (View.ld (Gen.iblk3 V c 3 t) Gen.r3_1)
      (View.ld (Gen.iblk3 V c 3 t) Gen.r3_2) (View.ld (Gen.iblk3 V c 3 t) Gen.r3_3) (Gen.iblk3 V c 4 t) (ix2 p q)
    = combT (V c main_v178) (V c main_v202) (V c main_v228) (V c main_arg7) (V c main_arg8) (((cfg3.win 5).blk t).view.emb (ix2 p q))
  rw [oemb t p q, combT_apply]
  refine (Pay.k3_pay1_apply (Gen.iblk3 V c 0 t) (Gen.iblk3 V c 1 t) (Gen.iblk3 V c 2 t) (View.ld (Gen.iblk3 V c 3 t) Gen.r3_1)
      (View.ld (Gen.iblk3 V c 3 t) Gen.r3_2) (View.ld (Gen.iblk3 V c 3 t) Gen.r3_3) (Gen.iblk3 V c 4 t) p q).trans ?_
  simp only [iblk_0 V c t p, iblk_1 V c t p, iblk_2 V c t p, wld_1 V c t, wld_2 V c t, wld_3 V c t, iblk_4 V c t q]

/-- An index of the array is in point t's block iff each coordinate is in the block's range on its axis. -/
theorem mem_blk (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v229).slice (win3_5.rect t)).set ↔ _
  rw [View.set_slice_whole, Rect.mem_set_unit]
  exact Iff.rfl

/-- Row r of the array is in block r / 2000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : grid3.N = 25 := Gen.N_3
  have ht : (i 0).val / 2000 < grid3.N := by omega
  refine ⟨⟨(i 0).val / 2000, ht⟩, Gen.flush3_5 _, ?_⟩
  rw [mem_blk]
  obtain ⟨-, -, -, -, -, -, -, -, -, -, e0, e1⟩ := idx_facts ⟨(i 0).val / 2000, ht⟩
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ (1 : Fin 2) * 128 ≤ (i 1).val
      ∧ (i 1).val < win3_5.index ⟨(i 0).val / 2000, ht⟩ (1 : Fin 2) * 128 + 128
    rw [e1]; omega

/-- THE OUTPUT ARRAY of region 3 after its run: the combine stage of the arrays the region finds. -/
theorem value (c : Dev nD) :
    (Gen.dat3 V c).arrAt 5 cfg3.N = combT (V c main_v178) (V c main_v202) (V c main_v228) (V c main_arg7) (V c main_arg8) :=
  (Gen.dat3 V c).arrAt_eq_of_cover 5 _ (fun t _ => flushed_eq V c t) cover

end Cert.KernelIdeal.Region3

end
-- ==== Proof.Region4.lean ====
/-
  What region 4 (the perceptron kernel over 25 blocks of 2000 rows) leaves in its output array, as one function of the
  arrays it finds: the perceptron stage of the whole arrays. Block t of the output is the body applied to block t of the
  input and to the whole weights and biases; row p of block t is row t·2000 + p of the array, and an entry of the stage
  depends on that row alone, so each block of the stage is what the point writes back; the 25 blocks tile the 50000 rows.
-/
import proofs.«144721_j84121229460224_1_alg».proof.Proof.Gen.KernelIdeal.Frame
import proofs.«144721_j84121229460224_1_alg».proof.Proof.PayIdx
import proofs.«144721_j84121229460224_1_alg».proof.Proof.SpecIdx

set_option maxRecDepth 16384

noncomputable section

namespace Cert.KernelIdeal.Region4

open Idealize.ShloMosaic Idealize.ShloMosaic.TcCoe Idealize.ShloMosaic.ValueIdx Idealize.SL.Sem Cert.KernelIdeal
open Cert.Stages (z0 mlpT mlpT_apply)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block (t, 0), the weights and biases at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Row p of block t is a row of the array. -/
theorem row_lt (t : Fin cfg4.N) (p : Fin 2000) : t.val * 2000 + p.val < 50000 := by
  have hN : grid4.N = 25 := Gen.N_4
  have ht : t.val < grid4.N := t.isLt
  have hp := p.isLt
  omega

/-- Row p of block t, as a row of the array. -/
abbrev row (t : Fin cfg4.N) (p : Fin 2000) : Fin 50000 := ⟨t.val * 2000 + p.val, row_lt t p⟩

theorem iblk_0 (c : Dev nD) (t : Fin cfg4.N) (p : Fin 2000) (k : Fin 128) :
    Gen.iblk4 V c 0 t (ix2 p k) = V c main_v230 (ix2 (row t p) k) := by
  show V c main_v230 (((cfg4.win 0).blk t).view.emb (ix2 p k)) = _
  refine congrArg (V c main_v230) (funext fun a => Fin.ext ?_)
  obtain ⟨e0, e1, -⟩ := idx_facts t
  match a with
  | ⟨0, _⟩ => show win4_0.index t (0 : Fin 2) * 2000 + 1 * p.val = t.val * 2000 + p.val; omega
  | ⟨1, _⟩ => show win4_0.index t (1 : Fin 2) * 128 + 1 * k.val = k.val; omega

/-- The first weight matrix's block is the whole matrix. -/
theorem iblk_1 (c : Dev nD) (t : Fin cfg4.N) (k j : Fin 128) :
    Gen.iblk4 V c 1 t (ix2 k j) = V c main_arg11 (ix2 k j) := by
  show V c main_arg11 (((cfg4.win 1).blk t).view.emb (ix2 k j)) = _
  refine congrArg (V c main_arg11) (funext fun a => Fin.ext ?_)
  obtain ⟨-, -, e0, e1, -⟩ := idx_facts t
  match a with
  | ⟨0, _⟩ => show win4_1.index t (0 : Fin 2) * 128 + 1 * k.val = k.val; omega
  | ⟨1, _⟩ => show win4_1.index t (1 : Fin 2) * 128 + 1 * j.val = j.val; omega

/-- The first bias's block is the whole bias. -/
theorem iblk_2 (c : Dev nD) (t : Fin cfg4.N) (j : Fin 128) :
    Gen.iblk4 V c 2 t (ix1 j) = V c main_arg12 (ix1 j) := by
  show V c main_arg12 (((cfg4.win 2).blk t).view.emb (ix1 j)) = _
  refine congrArg (V c main_arg12) (funext fun a => Fin.ext ?_)
  obtain ⟨-, -, -, -, e0, -⟩ := idx_facts t
  match a with
  | ⟨0, _⟩ => show win4_2.index t (0 : Fin 1) * 128 + 1 * j.val = j.val; omega

/-- The second weight matrix's block is the whole matrix. -/
theorem iblk_3 (c : Dev nD) (t : Fin cfg4.N) (j : Fin 128) (q : Fin 64) :
    Gen.iblk4 V c 3 t (ix2 j q) = V c main_arg13 (ix2 j q) := by
  show V c main_arg13 (((cfg4.win 3).blk t).view.emb (ix2 j q)) = _
  refine congrArg (V c main_arg13) (funext fun a => Fin.ext ?_)
  obtain ⟨-, -, -, -, -, e0, e1, -⟩ := idx_facts t
  match a with
  | ⟨0, _⟩ => show win4_3.index t (0 : Fin 2) * 128 + 1 * j.val = j.val; omega
  | ⟨1, _⟩ => show win4_3.index t (1 : Fin 2) * 64 + 1 * q.val = q.val; omega

/-- The second bias's block is the whole bias. -/
theorem iblk_4 (c : Dev nD) (t : Fin cfg4.N) (q : Fin 64) :
    Gen.iblk4 V c 4 t (ix1 q) = V c main_arg14 (ix1 q) := by
  show V c main_arg14 (((cfg4.win 4).blk t).view.emb (ix1 q)) = _
  refine congrArg (V c main_arg14) (funext fun a => Fin.ext ?_)
  obtain ⟨-, -, -, -, -, -, -, e0, -⟩ := idx_facts t
  match a with
  | ⟨0, _⟩ => show win4_4.index t (0 : Fin 1) * 64 + 1 * q.val = q.val; omega

/-- Entry (p, q) of the output's block t sits at row t·2000 + p of the array. -/
theorem oemb (t : Fin cfg4.N) (p : Fin 2000) (q : Fin 64) :
    ((cfg4.win 5).blk t).view.emb (ix2 p q) = ix2 (row t p) q := by
  refine funext fun a => Fin.ext ?_
  obtain ⟨-, -, -, -, -, -, -, -, e0, e1⟩ := idx_facts t
  match a with
  | ⟨0, _⟩ => show win4_5.index t (0 : Fin 2) * 2000 + 1 * p.val = t.val * 2000 + p.val; omega
  | ⟨1, _⟩ => show win4_5.index t (1 : Fin 2) * 64 + 1 * q.val = q.val; omega

/-- What point t writes back is block t of the perceptron stage of the whole arrays. -/
theorem flushed_eq (c : Dev nD) (t : Fin cfg4.N) :
    (Gen.dat4 V c).flushed 5 t = ((cfg4.win 5).blk t).view.read (Elt Ideal)
      (mlpT (V c main_v230) (V c main_arg11) (V c main_arg12) (V c main_arg13) (V c main_arg14)) := by
  show (cfg4.win 5).cut (grid4.coords t) ((Gen.dat4 V c).after 5 t) = _
  rw [Gen.after4_5]
  unfold Gen.out4_5
  rw [View.canon_unit_zero hz2]
  simp only [View.ld_unit_zero (S := S2000x128) hz2, View.ld_unit_zero (S := S128x128) hz2, View.ld_unit_zero (S := S128) hz1,
    View.ld_unit_zero (S := S128x64) hz2, View.ld_unit_zero (S := S64) hz1]
  funext j
  obtain ⟨p, q, rfl⟩ : ∃ (p : Fin 2000) (q : Fin 64), j = ix2 p q := ⟨j 0, j 1, eq_ix2 (n0 := 2000) (n1 := 64) j⟩
  show Gen.k4_pay1 (Gen.iblk4 V c 0 t) (Gen.iblk4 V c 1 t) (Gen.iblk4 V c 2 t) (Gen.iblk4 V c 3 t) (Gen.iblk4 V c 4 t) (ix2 p q)
    = mlpT (V c main_v230) (V c main_arg11) (V c main_arg12) (V c main_arg13) (V c main_arg14) (((cfg4.win 5).blk t).view.emb (ix2 p q))
  rw [oemb t p q, mlpT_apply]
  refine (Pay.k4_pay1_apply (Gen.iblk4 V c 0 t) (Gen.iblk4 V c 1 t) (Gen.iblk4 V c 2 t) (Gen.iblk4 V c 3 t) (Gen.iblk4 V c 4 t) p q).trans ?_
  simp only [iblk_0 V c t p, iblk_1 V c t, iblk_2 V c t, iblk_3 V c t, iblk_4 V c t q]

/-- An index of the array is in point t's block iff each coordinate is in the block's range on its axis. -/
theorem mem_blk (t : Fin cfg4.N) (i : S50000x64.Idx) :
    i ∈ ((cfg4.win 5).blk t).view.set ↔ ∀ a : Fin 2, win4_5.index t a * S2000x64.size a ≤ (i a).val
      ∧ (i a).val < win4_5.index t a * S2000x64.size a + S2000x64.size a := by
  show i ∈ ((View.whole main_v231).slice (win4_5.rect t)).set ↔ _
  rw [View.set_slice_whole, Rect.mem_set_unit]
  exact Iff.rfl

/-- Row r of the array is in block r / 2000. -/
theorem cover (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  have hN : grid4.N = 25 := Gen.N_4
  have ht : (i 0).val / 2000 < grid4.N := by omega
  refine ⟨⟨(i 0).val / 2000, ht⟩, Gen.flush4_5 _, ?_⟩
  rw [mem_blk]
  obtain ⟨-, -, -, -, -, -, -, -, e0, e1⟩ := idx_facts ⟨(i 0).val / 2000, ht⟩
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 64 ≤ (i 1).val
      ∧ (i 1).val < win4_5.index ⟨(i 0).val / 2000, ht⟩ (1 : Fin 2) * 64 + 64
    rw [e1]; omega

/-- THE OUTPUT ARRAY of region 4 after its run: the perceptron stage of the arrays the region finds. -/
theorem value (c : Dev nD) :
    (Gen.dat4 V c).arrAt 5 cfg4.N = mlpT (V c main_v230) (V c main_arg11) (V c main_arg12) (V c main_arg13) (V c main_arg14) :=
  (Gen.dat4 V c).arrAt_eq_of_cover 5 _ (fun t _ => flushed_eq V c t) cover

end Cert.KernelIdeal.Region4

end
-- ==== Proof.KernelValue.lean ====
/- The kernel program's result as the network function of its launch arguments.

   `Gen.W12 m ρ c` is core `c`'s buffer contents after the twelve segments of @main.  Reading it at the result
   buffer and walking back: each region's output array is its stage function of the region's input arrays at the
   region's entry (the five hypotheses `r0 … r4`, one per region); each host stretch's results are stage functions
   of the buffers it reads; every buffer a segment reads but an earlier segment wrote reaches it unchanged through
   the segments in between.  Composed layer by layer this is `netT` of the fifteen launch arrays. -/
import proofs.«144721_j84121229460224_1_alg».proof.Proof.KernelKeep
import proofs.«144721_j84121229460224_1_alg».proof.Proof.KernelStretch
import proofs.«144721_j84121229460224_1_alg».proof.Proof.Region0
import proofs.«144721_j84121229460224_1_alg».proof.Proof.Region1
import proofs.«144721_j84121229460224_1_alg».proof.Proof.Region2
import proofs.«144721_j84121229460224_1_alg».proof.Proof.Region3
import proofs.«144721_j84121229460224_1_alg».proof.Proof.Region4

set_option maxRecDepth 16384

noncomputable section

namespace Cert.KernelIdeal.KRun

open Idealize.ShloMosaic Idealize.ShloMosaic.TcCoe

variable {F : FTy → Type} [FloatOps F]

set_option maxHeartbeats 4000000 in
/-- The result buffer at the last boundary is the network of the launch arguments, given each region's output
    array as its stage function of the region's inputs. -/
theorem kernel_value_of
    (r0 : ∀ (V : (c : Dev nD) → (b : Ref sig .tc) → Buf (Elt F) ((c : Thread nD τ).loc b)) (c : Dev nD),
      (Gen.dat0 V c).arrAt 5 cfg0.N = Cert.Stages.combT (V c main_arg0) (V c main_v30) (V c main_v56) (V c main_arg3) (V c main_arg4))
    (r1 : ∀ (V : (c : Dev nD) → (b : Ref sig .tc) → Buf (Elt F) ((c : Thread nD τ).loc b)) (c : Dev nD),
      (Gen.dat1 V c).arrAt 5 cfg1.N = Cert.Stages.combT (V c main_v76) (V c main_v100) (V c main_v126) (V c main_arg5) (V c main_arg6))
    (r2 : ∀ (V : (c : Dev nD) → (b : Ref sig .tc) → Buf (Elt F) ((c : Thread nD τ).loc b)) (c : Dev nD),
      (Gen.dat2 V c).arrAt 5 cfg2.N = Cert.Stages.combT (V c main_v127) (V c main_v151) (V c main_v177) (V c main_arg5) (V c main_arg6))
    (r3 : ∀ (V : (c : Dev nD) → (b : Ref sig .tc) → Buf (Elt F) ((c : Thread nD τ).loc b)) (c : Dev nD),
      (Gen.dat3 V c).arrAt 5 cfg3.N = Cert.Stages.combT (V c main_v178) (V c main_v202) (V c main_v228) (V c main_arg7) (V c main_arg8))
    (r4 : ∀ (V : (c : Dev nD) → (b : Ref sig .tc) → Buf (Elt F) ((c : Thread nD τ).loc b)) (c : Dev nD),
      (Gen.dat4 V c).arrAt 5 cfg4.N = Cert.Stages.mlpT (V c main_v230) (V c main_arg11) (V c main_arg12) (V c main_arg13) (V c main_arg14))
    (m : (ℓ : Loc nD τ sig) → Buf (Elt F) ℓ) (ρ : Dev nD → PrngReg) (c : Dev nD) :
    Gen.W12 m ρ c (Proc.devRef .tc main_v231)
      = Cert.Stages.netT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  -- the first stretch, from the launch contents
  have e6 : (Gen.W1 m ρ c (Proc.devRef .tc main_v6)) = (Cert.Stages.dinvT (m ((c : Thread nD τ).loc main_arg2))) := KStretch.h0_v6 (Gen.W0 m ρ c)
  have e30 : (Gen.W1 m ρ c (Proc.devRef .tc main_v30)) = (Cert.Stages.x1T (m ((c : Thread nD τ).loc main_arg0)) (m ((c : Thread nD τ).loc main_arg1)) (m ((c : Thread nD τ).loc main_arg2)) (Cert.Stages.dinvT (m ((c : Thread nD τ).loc main_arg2)))) := KStretch.h0_v30 (Gen.W0 m ρ c)
  have e56 : (Gen.W1 m ρ c (Proc.devRef .tc main_v56)) = (Cert.Stages.x2T (m ((c : Thread nD τ).loc main_arg0)) (Cert.Stages.x1T (m ((c : Thread nD τ).loc main_arg0)) (m ((c : Thread nD τ).loc main_arg1)) (m ((c : Thread nD τ).loc main_arg2)) (Cert.Stages.dinvT (m ((c : Thread nD τ).loc main_arg2)))) (m ((c : Thread nD τ).loc main_arg1)) (m ((c : Thread nD τ).loc main_arg2)) (Cert.Stages.dinvT (m ((c : Thread nD τ).loc main_arg2)))) := KStretch.h0_v56 (Gen.W0 m ρ c)
  -- layer 1
  have e57 : (Gen.W2 m ρ c (Proc.devRef .tc main_v57)) = (Cert.Stages.h1T (m ((c : Thread nD τ).loc main_arg0)) (m ((c : Thread nD τ).loc main_arg1)) (m ((c : Thread nD τ).loc main_arg2)) (m ((c : Thread nD τ).loc main_arg3)) (m ((c : Thread nD τ).loc main_arg4))) :=
    (KKeep.W2_v57 m ρ c).trans ((r0 (Gen.V1 m ρ) c).trans (by
      show Cert.Stages.combT (Gen.W1 m ρ c (Proc.devRef .tc main_arg0)) (Gen.W1 m ρ c (Proc.devRef .tc main_v30)) (Gen.W1 m ρ c (Proc.devRef .tc main_v56)) (Gen.W1 m ρ c (Proc.devRef .tc main_arg3)) (Gen.W1 m ρ c (Proc.devRef .tc main_arg4)) = _
      rw [KKeep.W1_arg0 m ρ c, e30, e56, KKeep.W1_arg3 m ρ c, KKeep.W1_arg4 m ρ c] <;> rfl))
  -- batch normalisation and its Chebyshev terms
  have e76 : (Gen.W5 m ρ c (Proc.devRef .tc main_v76)) = (Cert.Stages.bnT (Cert.Stages.h1T (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg9)) (m ((c : Thread nD τ).loc main_arg10))) :=
    (KStretch.bn_v76 (Gen.W2 m ρ c)).trans (by rw [e57, KKeep.W2_arg9 m ρ c, KKeep.W2_arg10 m ρ c])
  have e100 : (Gen.W5 m ρ c (Proc.devRef .tc main_v100)) = (Cert.Stages.x1T (Cert.Stages.bnT (Cert.Stages.h1T (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg9)) (m ((c : Thread nD τ).loc main_arg10))) (m ((c : Thread nD τ).loc main_arg1)) (m ((c : Thread nD τ).loc main_arg2)) (Cert.Stages.dinvT (m ((c : Thread nD τ).loc main_arg2)))) :=
    (KStretch.bn_v100 (Gen.W2 m ρ c)).trans (by
      rw [e57, KKeep.W2_arg9 m ρ c, KKeep.W2_arg10 m ρ c, KKeep.W2_arg1 m ρ c, KKeep.W2_arg2 m ρ c, KKeep.W2_v6 m ρ c, e6])
  have e126 : (Gen.W5 m ρ c (Proc.devRef .tc main_v126)) = (Cert.Stages.x2T (Cert.Stages.bnT (Cert.Stages.h1T (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg9)) (m ((c : Thread nD τ).loc main_arg10))) (Cert.Stages.x1T (Cert.Stages.bnT (Cert.Stages.h1T (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg9)) (m ((c : Thread nD τ).loc main_arg10))) (m ((c : Thread nD τ).loc main_arg1)) (m ((c : Thread nD τ).loc main_arg2)) (Cert.Stages.dinvT (m ((c : Thread nD τ).loc main_arg2)))) (m ((c : Thread nD τ).loc main_arg1)) (m ((c : Thread nD τ).loc main_arg2)) (Cert.Stages.dinvT (m ((c : Thread nD τ).loc main_arg2)))) :=
    (KStretch.bn_v126 (Gen.W2 m ρ c)).trans (by
      rw [e57, KKeep.W2_arg9 m ρ c, KKeep.W2_arg10 m ρ c, KKeep.W2_arg1 m ρ c, KKeep.W2_arg2 m ρ c, KKeep.W2_v6 m ρ c, e6])
  -- layer 2
  have e127 : (Gen.W6 m ρ c (Proc.devRef .tc main_v127)) = (Cert.Stages.h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) :=
    (KKeep.W6_v127 m ρ c).trans ((r1 (Gen.V5 m ρ) c).trans (by
      show Cert.Stages.combT (Gen.W5 m ρ c (Proc.devRef .tc main_v76)) (Gen.W5 m ρ c (Proc.devRef .tc main_v100)) (Gen.W5 m ρ c (Proc.devRef .tc main_v126)) (Gen.W5 m ρ c (Proc.devRef .tc main_arg5)) (Gen.W5 m ρ c (Proc.devRef .tc main_arg6)) = _
      rw [e76, e100, e126, KKeep.W5_arg5 m ρ c, KKeep.W5_arg6 m ρ c] <;> rfl))
  have e127' : (Gen.W7 m ρ c (Proc.devRef .tc main_v127)) = (Cert.Stages.h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := (KKeep.W7_v127 m ρ c).trans e127
  have e151 : (Gen.W7 m ρ c (Proc.devRef .tc main_v151)) = (Cert.Stages.x1T (Cert.Stages.h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (m ((c : Thread nD τ).loc main_arg1)) (m ((c : Thread nD τ).loc main_arg2)) (Cert.Stages.dinvT (m ((c : Thread nD τ).loc main_arg2)))) :=
    (KStretch.h2_v151 (Gen.W6 m ρ c)).trans (by
      rw [e127, KKeep.W6_arg1 m ρ c, KKeep.W6_arg2 m ρ c, KKeep.W6_v6 m ρ c, e6])
  have e177 : (Gen.W7 m ρ c (Proc.devRef .tc main_v177)) = (Cert.Stages.x2T (Cert.Stages.h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (Cert.Stages.x1T (Cert.Stages.h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (m ((c : Thread nD τ).loc main_arg1)) (m ((c : Thread nD τ).loc main_arg2)) (Cert.Stages.dinvT (m ((c : Thread nD τ).loc main_arg2)))) (m ((c : Thread nD τ).loc main_arg1)) (m ((c : Thread nD τ).loc main_arg2)) (Cert.Stages.dinvT (m ((c : Thread nD τ).loc main_arg2)))) :=
    (KStretch.h2_v177 (Gen.W6 m ρ c)).trans (by
      rw [e127, KKeep.W6_arg1 m ρ c, KKeep.W6_arg2 m ρ c, KKeep.W6_v6 m ρ c, e6])
  -- layer 3
  have e178 : (Gen.W8 m ρ c (Proc.devRef .tc main_v178)) = (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) :=
    (KKeep.W8_v178 m ρ c).trans ((r2 (Gen.V7 m ρ) c).trans (by
      show Cert.Stages.combT (Gen.W7 m ρ c (Proc.devRef .tc main_v127)) (Gen.W7 m ρ c (Proc.devRef .tc main_v151)) (Gen.W7 m ρ c (Proc.devRef .tc main_v177)) (Gen.W7 m ρ c (Proc.devRef .tc main_arg5)) (Gen.W7 m ρ c (Proc.devRef .tc main_arg6)) = _
      rw [e127', e151, e177, KKeep.W7_arg5 m ρ c, KKeep.W7_arg6 m ρ c] <;> rfl))
  have e178' : (Gen.W9 m ρ c (Proc.devRef .tc main_v178)) = (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := (KKeep.W9_v178 m ρ c).trans e178
  have e202 : (Gen.W9 m ρ c (Proc.devRef .tc main_v202)) = (Cert.Stages.x1T (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (m ((c : Thread nD τ).loc main_arg1)) (m ((c : Thread nD τ).loc main_arg2)) (Cert.Stages.dinvT (m ((c : Thread nD τ).loc main_arg2)))) :=
    (KStretch.h3_v202 (Gen.W8 m ρ c)).trans (by
      rw [e178, KKeep.W8_arg1 m ρ c, KKeep.W8_arg2 m ρ c, KKeep.W8_v6 m ρ c, e6])
  have e228 : (Gen.W9 m ρ c (Proc.devRef .tc main_v228)) = (Cert.Stages.x2T (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (Cert.Stages.x1T (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (m ((c : Thread nD τ).loc main_arg1)) (m ((c : Thread nD τ).loc main_arg2)) (Cert.Stages.dinvT (m ((c : Thread nD τ).loc main_arg2)))) (m ((c : Thread nD τ).loc main_arg1)) (m ((c : Thread nD τ).loc main_arg2)) (Cert.Stages.dinvT (m ((c : Thread nD τ).loc main_arg2)))) :=
    (KStretch.h3_v228 (Gen.W8 m ρ c)).trans (by
      rw [e178, KKeep.W8_arg1 m ρ c, KKeep.W8_arg2 m ρ c, KKeep.W8_v6 m ρ c, e6])
  -- layer 4 and the residual
  have e229 : (Gen.W10 m ρ c (Proc.devRef .tc main_v229)) = (Cert.Stages.h4T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
    (KKeep.W10_v229 m ρ c).trans ((r3 (Gen.V9 m ρ) c).trans (by
      show Cert.Stages.combT (Gen.W9 m ρ c (Proc.devRef .tc main_v178)) (Gen.W9 m ρ c (Proc.devRef .tc main_v202)) (Gen.W9 m ρ c (Proc.devRef .tc main_v228)) (Gen.W9 m ρ c (Proc.devRef .tc main_arg7)) (Gen.W9 m ρ c (Proc.devRef .tc main_arg8)) = _
      rw [e178', e202, e228, KKeep.W9_arg7 m ρ c, KKeep.W9_arg8 m ρ c] <;> rfl))
  have e178'' : (Gen.W10 m ρ c (Proc.devRef .tc main_v178)) = (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := (KKeep.W10_v178 m ρ c).trans e178
  have e230 : (Gen.W11 m ρ c (Proc.devRef .tc main_v230)) = addf (Cert.Stages.h4T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.Stages.h3T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) :=
    (KStretch.h4_v230 (Gen.W10 m ρ c)).trans (by rw [e229, e178''])
  -- the perceptron
  exact (KKeep.W12_v231 m ρ c).trans ((r4 (Gen.V11 m ρ) c).trans (by
    show Cert.Stages.mlpT (Gen.W11 m ρ c (Proc.devRef .tc main_v230)) (Gen.W11 m ρ c (Proc.devRef .tc main_arg11)) (Gen.W11 m ρ c (Proc.devRef .tc main_arg12)) (Gen.W11 m ρ c (Proc.devRef .tc main_arg13)) (Gen.W11 m ρ c (Proc.devRef .tc main_arg14)) = _
    rw [e230, KKeep.W11_arg11 m ρ c, KKeep.W11_arg12 m ρ c, KKeep.W11_arg13 m ρ c, KKeep.W11_arg14 m ρ c] <;> rfl))

/-- At the extended reals, with each region's output array computed: the result buffer at the last boundary is the
    network of the launch arguments. -/
theorem kernel_value (m : (ℓ : Loc nD τ sig) → Buf (Elt Ideal) ℓ) (ρ : Dev nD → PrngReg) (c : Dev nD) :
    Gen.W12 m ρ c (Proc.devRef .tc main_v231)
      = Cert.Stages.netT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  kernel_value_of Region0.value Region1.value Region2.value Region3.value Region4.value m ρ c

end Cert.KernelIdeal.KRun

end
-- ==== Proof.RefOps.lean ====
import proofs.«144721_j84121229460224_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's part 0: the degree vector and its inverse square root, layer 1's two propagations up to the second gather's index. (60 operations, ending at `main_v47`.) -/
abbrev W0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.unary main_v5 main_v6 (Host.rsqrt : (⟨S50000, .f32⟩ : BufTy).Contents (Elt F) → (⟨S50000, .f32⟩ : BufTy).Contents (Elt F)),
    StableHlo.nullary main_c (constantI S_ 32 0#32),
    StableHlo.unary main_c main_v7 (broadcastInDim S800000 ![] bcast_S_S800000 : (⟨S_, .i32⟩ : BufTy).Contents (Elt F) → (⟨S800000, .i32⟩ : BufTy).Contents (Elt F)),
    StableHlo.binary main_arg1 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg1 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg1 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg0 main_v12 main_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_3 (constantI S_ 32 0#32),
    StableHlo.unary main_c_3 main_v14 (broadcastInDim S800000 ![] bcast_S_S800000 : (⟨S_, .i32⟩ : BufTy).Contents (Elt F) → (⟨S800000, .i32⟩ : BufTy).Contents (Elt F)),
    StableHlo.binary main_arg1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v16 (broadcastInDim S800000 ![] bcast_S_S800000 : (⟨S_, .i32⟩ : BufTy).Contents (Elt F) → (⟨S800000, .i32⟩ : BufTy).Contents (Elt F)),
    StableHlo.binary main_arg1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_arg1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v6 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v20 main_v21 (broadcastInDim S800000x1 ![0] bcast_S800000_S800000x1_0 : (⟨S800000, .f32⟩ : BufTy).Contents (Elt F) → (⟨S800000x1, .f32⟩ : BufTy).Contents (Elt F)),
    StableHlo.unary main_v21 main_v22 (broadcastInDim S800000x128 ![0, 1] bcast_S800000x1_S800000x128_0_1 : (⟨S800000x1, .f32⟩ : BufTy).Contents (Elt F) → (⟨S800000x128, .f32⟩ : BufTy).Contents (Elt F)),
    StableHlo.binary main_v13 main_v22 main_v23 (mulf : (⟨S800000x128, .f32⟩ : BufTy).Contents (Elt F) → (⟨S800000x128, .f32⟩ : BufTy).Contents (Elt F) → (⟨S800000x128, .f32⟩ : BufTy).Contents (Elt F)),
    StableHlo.nullary main_cst_5 (constant S_ .f32 0x00000000#32),
    StableHlo.unary main_cst_5 main_v24 (broadcastInDim S50000x128 ![] bcast_S_S50000x128 : (⟨S_, .f32⟩ : BufTy).Contents (Elt F) → (⟨S50000x128, .f32⟩ : BufTy).Contents (Elt F)),
    StableHlo.unary main_arg2 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v27 (broadcastInDim S50000x1 ![0] bcast_S50000_S50000x1_0 : (⟨S50000, .f32⟩ : BufTy).Contents (Elt F) → (⟨S50000x1, .f32⟩ : BufTy).Contents (Elt F)),
    StableHlo.unary main_v27 main_v28 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v28 main_v29 (mulf : (⟨S50000x128, .f32⟩ : BufTy).Contents (Elt F) → (⟨S50000x128, .f32⟩ : BufTy).Contents (Elt F) → (⟨S50000x128, .f32⟩ : BufTy).Contents (Elt F)),
    StableHlo.unary main_v29 main_v30 (Host.negf : (⟨S50000x128, .f32⟩ : BufTy).Contents (Elt F) → (⟨S50000x128, .f32⟩ : BufTy).Contents (Elt F)),
    StableHlo.unary main_arg3 main_v31 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v31 main_v32 rfl shapeCasts_S1x128x128_S128x128,
    StableHlo.binary main_arg0 main_v32 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v34 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v34 main_v35 rfl shapeCasts_S1x128x128_S128x128,
    StableHlo.binary main_v30 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v33 main_v36 main_v37 (addf : (⟨S50000x128, .f32⟩ : BufTy).Contents (Elt F) → (⟨S50000x128, .f32⟩ : BufTy).Contents (Elt F) → (⟨S50000x128, .f32⟩ : BufTy).Contents (Elt F)),
    StableHlo.nullary main_c_6 (constantI S_ 32 0#32),
    StableHlo.unary main_c_6 main_v38 (broadcastInDim S800000 ![] bcast_S_S800000 : (⟨S_, .i32⟩ : BufTy).Contents (Elt F) → (⟨S800000, .i32⟩ : BufTy).Contents (Elt F)),
    StableHlo.binary main_arg1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v40 (broadcastInDim S800000 ![] bcast_S_S800000 : (⟨S_, .i32⟩ : BufTy).Contents (Elt F) → (⟨S800000, .i32⟩ : BufTy).Contents (Elt F)),
    StableHlo.binary main_arg1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_arg1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v30 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_8 (constantI S_ 32 0#32),
    StableHlo.unary main_c_8 main_v45 (broadcastInDim S800000 ![] bcast_S_S800000 : (⟨S_, .i32⟩ : BufTy).Contents (Elt F) → (⟨S800000, .i32⟩ : BufTy).Contents (Elt F)),
    StableHlo.binary main_arg1 main_v45 main_v46 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v47 (broadcastInDim S800000 ![] bcast_S_S800000 : (⟨S_, .i32⟩ : BufTy).Contents (Elt F) → (⟨S800000, .i32⟩ : BufTy).Contents (Elt F)) ]

/-- Part 1 up to layer 1's rectified output (the relu function's three operations in its call's place). (28 operations, ending at `main_v71`.) -/
abbrev W1a : List (HloOp τ sig (Elt F)) :=
  [ StableHlo.binary main_arg1 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_arg1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)),
    StableHlo.binary main_v6 main_v50 main_v51 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v51 main_v52 (broadcastInDim S800000x1 ![0] bcast_S800000_S800000x1_0 : (⟨S800000, .f32⟩ : BufTy).Contents (Elt F) → (⟨S800000x1, .f32⟩ : BufTy).Contents (Elt F)),
    StableHlo.unary main_v52 main_v53 (broadcastInDim S800000x128 ![0, 1] bcast_S800000x1_S800000x128_0_1 : (⟨S800000x1, .f32⟩ : BufTy).Contents (Elt F) → (⟨S800000x128, .f32⟩ : BufTy).Contents (Elt F)),
    StableHlo.binary main_v44 main_v53 main_v54 (mulf : (⟨S800000x128, .f32⟩ : BufTy).Contents (Elt F) → (⟨S800000x128, .f32⟩ : BufTy).Contents (Elt F) → (⟨S800000x128, .f32⟩ : BufTy).Contents (Elt F)),
    StableHlo.nullary main_cst_10 (constant S_ .f32 0x00000000#32),
    StableHlo.unary main_cst_10 main_v55 (broadcastInDim S50000x128 ![] bcast_S_S50000x128 : (⟨S_, .f32⟩ : BufTy).Contents (Elt F) → (⟨S50000x128, .f32⟩ : BufTy).Contents (Elt F)),
    StableHlo.unary main_arg2 main_v56 (broadcastInDim S800000x1 ![0] bcast_S800000_S800000x1_0 : (⟨S800000, .i32⟩ : BufTy).Contents (Elt F) → (⟨S800000x1, .i32⟩ : BufTy).Contents (Elt F)),
    StableHlo.ternary main_v55 main_v56 main_v54 main_v57 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v58 (broadcastInDim S50000x1 ![0] bcast_S50000_S50000x1_0 : (⟨S50000, .f32⟩ : BufTy).Contents (Elt F) → (⟨S50000x1, .f32⟩ : BufTy).Contents (Elt F)),
    StableHlo.unary main_v58 main_v59 (broadcastInDim S50000x128 ![0, 1] bcast_S50000x1_S50000x128_0_1 : (⟨S50000x1, .f32⟩ : BufTy).Contents (Elt F) → (⟨S50000x128, .f32⟩ : BufTy).Contents (Elt F)),
    StableHlo.binary main_v57 main_v59 main_v60 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0xC0000000#32),
    StableHlo.unary main_cst_11 main_v61 (broadcastInDim S50000x128 ![] bcast_S_S50000x128 : (⟨S_, .f32⟩ : BufTy).Contents (Elt F) → (⟨S50000x128, .f32⟩ : BufTy).Contents (Elt F)),
    StableHlo.binary main_v61 main_v60 main_v62 (mulf : (⟨S50000x128, .f32⟩ : BufTy).Contents (Elt F) → (⟨S50000x128, .f32⟩ : BufTy).Contents (Elt F) → (⟨S50000x128, .f32⟩ : BufTy).Contents (Elt F)),
    StableHlo.binary main_v62 main_arg0 main_v63 (subf : (⟨S50000x128, .f32⟩ : BufTy).Contents (Elt F) → (⟨S50000x128, .f32⟩ : BufTy).Contents (Elt F) → (⟨S50000x128, .f32⟩ : BufTy).Contents (Elt F)),
    StableHlo.unary main_arg3 main_v64 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v64 main_v65 rfl shapeCasts_S1x128x128_S128x128,
    StableHlo.binary main_v63 main_v65 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v37 main_v66 main_v67 (addf : (⟨S50000x128, .f32⟩ : BufTy).Contents (Elt F) → (⟨S50000x128, .f32⟩ : BufTy).Contents (Elt F) → (⟨S50000x128, .f32⟩ : BufTy).Contents (Elt F)),
    StableHlo.unary main_arg4 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S50000x128, .f32⟩) main_call0_v0) (broadcastInDim S50000x128 ![] bcast_S_S50000x128),
    StableHlo.TRef.binary (StableHlo.TRef.of (T := ⟨S50000x128, .f32⟩) main_v70) (StableHlo.TRef.of (T := ⟨S50000x128, .f32⟩) main_call0_v0) (StableHlo.TRef.of (T := ⟨S50000x128, .f32⟩) main_v71) maximumf ]

/-- The rest of part 1: the batch normalisation (mean, the variance function's operations with its inner select in place, scale and shift) and the start of layer 2. (55 operations, ending at `main_v98`.) -/
abbrev W1b : List (HloOp τ sig (Elt F)) :=
  [ StableHlo.nullary main_cst_12 (constant S_ .f32 0x00000000#32),
    StableHlo.binary main_v71 main_cst_12 main_v72 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v73 (broadcastInDim S128 ![] bcast_S_S128 : (⟨S_, .f32⟩ : BufTy).Contents (Elt F) → (⟨S128, .f32⟩ : BufTy).Contents (Elt F)),
    StableHlo.binary main_v72 main_v73 main_v74 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary (StableHlo.TRef.of (T := ⟨S_, .f32⟩) main_call1_cst) (constant S_ .f32 0x00000000#32),
    StableHlo.TRef.binary (StableHlo.TRef.of (T := ⟨S50000x128, .f32⟩) main_v71) (StableHlo.TRef.of (T := ⟨S_, .f32⟩) main_call1_cst) (StableHlo.TRef.of (T := ⟨S128, .f32⟩) main_call1_v0) (fun x v => Host.reduceAdd x v reducesTo_S50000x128_S128_d0 h_S_),
    StableHlo.TRef.unary (StableHlo.TRef.of (T := ⟨S128, .f32⟩) main_call1_v0) (StableHlo.TRef.of (T := ⟨S1x128, .f32⟩) main_call1_v1) (broadcastInDim S1x128 ![1] bcast_S128_S1x128_1),
    StableHlo.TRef.nullary (StableHlo.TRef.of (T := ⟨S_, .f32⟩) main_call1_cst_0) (constant S_ .f32 0x47435000#32),
    StableHlo.TRef.unary (StableHlo.TRef.of (T := ⟨S_, .f32⟩) main_call1_cst_0) (StableHlo.TRef.of (T := ⟨S1x128, .f32⟩) main_call1_v2) (broadcastInDim S1x128 ![] bcast_S_S1x128),
    StableHlo.TRef.binary (StableHlo.TRef.of (T := ⟨S1x128, .f32⟩) main_call1_v1) (StableHlo.TRef.of (T := ⟨S1x128, .f32⟩) main_call1_v2) (StableHlo.TRef.of (T := ⟨S1x128, .f32⟩) main_call1_v3) Host.divf,
    StableHlo.TRef.unary (StableHlo.TRef.of (T := ⟨S1x128, .f32⟩) main_call1_v3) (StableHlo.TRef.of (T := ⟨S50000x128, .f32⟩) main_call1_v4) (broadcastInDim S50000x128 ![0, 1] bcast_S1x128_S50000x128_0_1),
    StableHlo.TRef.binary (StableHlo.TRef.of (T := ⟨S50000x128, .f32⟩) main_v71) (StableHlo.TRef.of (T := ⟨S50000x128, .f32⟩) main_call1_v4) (StableHlo.TRef.of (T := ⟨S50000x128, .f32⟩) main_call1_v5) subf,
    StableHlo.TRef.binary (StableHlo.TRef.of (T := ⟨S50000x128, .f32⟩) main_call1_v5) (StableHlo.TRef.of (T := ⟨S50000x128, .f32⟩) main_call1_v5) (StableHlo.TRef.of (T := ⟨S50000x128, .f32⟩) main_call1_v6) mulf,
    StableHlo.TRef.unary (StableHlo.TRef.of (T := ⟨S_, .i32⟩) main_c_14) (StableHlo.TRef.of (T := ⟨S_, .f32⟩) main_call1_v7) (sitofp .f32),
    StableHlo.TRef.nullary (StableHlo.TRef.of (T := ⟨S_, .f32⟩) main_call1_cst_1) (constant S_ .f32 0x47435000#32),
    StableHlo.TRef.binary (StableHlo.TRef.of (T := ⟨S_, .f32⟩) main_call1_cst_1) (StableHlo.TRef.of (T := ⟨S_, .f32⟩) main_call1_v7) (StableHlo.TRef.of (T := ⟨S_, .f32⟩) main_call1_v8) subf,
    StableHlo.TRef.nullary (StableHlo.TRef.of (T := ⟨S_, .f32⟩) main_call1_cst_2) (constant S_ .f32 0x00000000#32),
    StableHlo.TRef.binary (StableHlo.TRef.of (T := ⟨S50000x128, .f32⟩) main_call1_v6) (StableHlo.TRef.of (T := ⟨S_, .f32⟩) main_call1_cst_2) (StableHlo.TRef.of (T := ⟨S128, .f32⟩) main_call1_v9) (fun x v => Host.reduceAdd x v reducesTo_S50000x128_S128_d0 h_S_),
    StableHlo.TRef.unary (StableHlo.TRef.of (T := ⟨S_, .f32⟩) main_call1_v8) (StableHlo.TRef.of (T := ⟨S128, .f32⟩) main_call1_v10) (broadcastInDim S128 ![] bcast_S_S128),
    StableHlo.TRef.binary (StableHlo.TRef.of (T := ⟨S128, .f32⟩) main_call1_v9) (StableHlo.TRef.of (T := ⟨S128, .f32⟩) main_call1_v10) (StableHlo.TRef.of (T := ⟨S128, .f32⟩) main_call1_v11) Host.divf,
    StableHlo.TRef.nullary (StableHlo.TRef.of (T := ⟨S_, .f32⟩) main_call1_cst_3) (constant S_ .f32 0x00000000#32),
    StableHlo.TRef.binary (StableHlo.TRef.of (T := ⟨S_, .f32⟩) main_call1_v8) (StableHlo.TRef.of (T := ⟨S_, .f32⟩) main_call1_cst_3) (StableHlo.TRef.of (T := ⟨S_, .i1⟩) main_call1_v12) (cmpf .ogt),
    StableHlo.TRef.nullary (StableHlo.TRef.of (T := ⟨S_, .f32⟩) main_call1_cst_4) (constant S_ .f32 0x7FC00000#32),
    StableHlo.TRef.unary (StableHlo.TRef.of (T := ⟨S_, .f32⟩) main_call1_cst_4) (StableHlo.TRef.of (T := ⟨S_, .f32⟩) main_call1_call0_v0) id,
    StableHlo.TRef.unary (StableHlo.TRef.of (T := ⟨S_, .f32⟩) main_call1_call0_v0) (StableHlo.TRef.of (T := ⟨S128, .f32⟩) main_call1_call0_v1) (broadcastInDim S128 ![] bcast_S_S128),
    StableHlo.TRef.ternary (StableHlo.TRef.of (T := ⟨S_, .i1⟩) main_call1_v12) (StableHlo.TRef.of (T := ⟨S128, .f32⟩) main_call1_v11) (StableHlo.TRef.of (T := ⟨S128, .f32⟩) main_call1_call0_v1) (StableHlo.TRef.of (T := ⟨S128, .f32⟩) main_v75) (fun p a b => select (broadcastInDim S128 ![] bcast_S_S128 p) a b),
    StableHlo.unary main_v74 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v77 main_v78 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v79 (broadcastInDim S128 ![] bcast_S_S128 : (⟨S_, .f32⟩ : BufTy).Contents (Elt F) → (⟨S128, .f32⟩ : BufTy).Contents (Elt F)),
    StableHlo.binary main_v75 main_v79 main_v80 (addf : (⟨S128, .f32⟩ : BufTy).Contents (Elt F) → (⟨S128, .f32⟩ : BufTy).Contents (Elt F) → (⟨S128, .f32⟩ : BufTy).Contents (Elt F)),
    StableHlo.unary main_v80 main_v81 (Host.rsqrt : (⟨S128, .f32⟩ : BufTy).Contents (Elt F) → (⟨S128, .f32⟩ : BufTy).Contents (Elt F)),
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v83 main_v84 (mulf : (⟨S50000x128, .f32⟩ : BufTy).Contents (Elt F) → (⟨S50000x128, .f32⟩ : BufTy).Contents (Elt F) → (⟨S50000x128, .f32⟩ : BufTy).Contents (Elt F)),
    StableHlo.unary main_arg9 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (mulf : (⟨S50000x128, .f32⟩ : BufTy).Contents (Elt F) → (⟨S50000x128, .f32⟩ : BufTy).Contents (Elt F) → (⟨S50000x128, .f32⟩ : BufTy).Contents (Elt F)),
    StableHlo.unary main_arg10 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (addf : (⟨S50000x128, .f32⟩ : BufTy).Contents (Elt F) → (⟨S50000x128, .f32⟩ : BufTy).Contents (Elt F) → (⟨S50000x128, .f32⟩ : BufTy).Contents (Elt F)),
    StableHlo.nullary main_c_16 (constantI S_ 32 0#32),
    StableHlo.unary main_c_16 main_v91 (broadcastInDim S800000 ![] bcast_S_S800000 : (⟨S_, .i32⟩ : BufTy).Contents (Elt F) → (⟨S800000, .i32⟩ : BufTy).Contents (Elt F)),
    StableHlo.binary main_arg1 main_v91 main_v92 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v93 (broadcastInDim S800000 ![] bcast_S_S800000 : (⟨S_, .i32⟩ : BufTy).Contents (Elt F) → (⟨S800000, .i32⟩ : BufTy).Contents (Elt F)),
    StableHlo.binary main_arg1 main_v93 main_v94 (addi : (⟨S800000, .i32⟩ : BufTy).Contents (Elt F) → (⟨S800000, .i32⟩ : BufTy).Contents (Elt F) → (⟨S800000, .i32⟩ : BufTy).Contents (Elt F)),
    StableHlo.ternary main_v92 main_v94 main_arg1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v95 main_v96 (broadcastInDim S800000x1 ![0] bcast_S800000_S800000x1_0 : (⟨S800000, .i32⟩ : BufTy).Contents (Elt F) → (⟨S800000x1, .i32⟩ : BufTy).Contents (Elt F)),
    StableHlo.binary main_v90 main_v96 main_v97 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_18 (constantI S_ 32 0#32),
    StableHlo.unary main_c_18 main_v98 (broadcastInDim S800000 ![] bcast_S_S800000 : (⟨S_, .i32⟩ : BufTy).Contents (Elt F) → (⟨S800000, .i32⟩ : BufTy).Contents (Elt F)) ]

/-- Part 2: layer 2's propagations and products. (60 operations, ending at `main_v150`.) -/
abbrev W2 : List (HloOp τ sig (Elt F)) :=
  [ StableHlo.binary main_arg1 main_v98 main_v99 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v100 (broadcastInDim S800000 ![] bcast_S_S800000 : (⟨S_, .i32⟩ : BufTy).Contents (Elt F) → (⟨S800000, .i32⟩ : BufTy).Contents (Elt F)),
    StableHlo.binary main_arg1 main_v100 main_v101 (addi : (⟨S800000, .i32⟩ : BufTy).Contents (Elt F) → (⟨S800000, .i32⟩ : BufTy).Contents (Elt F) → (⟨S800000, .i32⟩ : BufTy).Contents (Elt F)),
    StableHlo.ternary main_v99 main_v101 main_arg1 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v102 main_v103 (broadcastInDim S800000x1 ![0] bcast_S800000_S800000x1_0 : (⟨S800000, .i32⟩ : BufTy).Contents (Elt F) → (⟨S800000x1, .i32⟩ : BufTy).Contents (Elt F)),
    StableHlo.binary main_v6 main_v103 main_v104 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v104 main_v105 (broadcastInDim S800000x1 ![0] bcast_S800000_S800000x1_0 : (⟨S800000, .f32⟩ : BufTy).Contents (Elt F) → (⟨S800000x1, .f32⟩ : BufTy).Contents (Elt F)),
    StableHlo.unary main_v105 main_v106 (broadcastInDim S800000x128 ![0, 1] bcast_S800000x1_S800000x128_0_1 : (⟨S800000x1, .f32⟩ : BufTy).Contents (Elt F) → (⟨S800000x128, .f32⟩ : BufTy).Contents (Elt F)),
    StableHlo.binary main_v97 main_v106 main_v107 (mulf : (⟨S800000x128, .f32⟩ : BufTy).Contents (Elt F) → (⟨S800000x128, .f32⟩ : BufTy).Contents (Elt F) → (⟨S800000x128, .f32⟩ : BufTy).Contents (Elt F)),
    StableHlo.nullary main_cst_20 (constant S_ .f32 0x00000000#32),
    StableHlo.unary main_cst_20 main_v108 (broadcastInDim S50000x128 ![] bcast_S_S50000x128 : (⟨S_, .f32⟩ : BufTy).Contents (Elt F) → (⟨S50000x128, .f32⟩ : BufTy).Contents (Elt F)),
    StableHlo.unary main_arg2 main_v109 (broadcastInDim S800000x1 ![0] bcast_S800000_S800000x1_0 : (⟨S800000, .i32⟩ : BufTy).Contents (Elt F) → (⟨S800000x1, .i32⟩ : BufTy).Contents (Elt F)),
    StableHlo.ternary main_v108 main_v109 main_v107 main_v110 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v111 (broadcastInDim S50000x1 ![0] bcast_S50000_S50000x1_0 : (⟨S50000, .f32⟩ : BufTy).Contents (Elt F) → (⟨S50000x1, .f32⟩ : BufTy).Contents (Elt F)),
    StableHlo.unary main_v111 main_v112 (broadcastInDim S50000x128 ![0, 1] bcast_S50000x1_S50000x128_0_1 : (⟨S50000x1, .f32⟩ : BufTy).Contents (Elt F) → (⟨S50000x128, .f32⟩ : BufTy).Contents (Elt F)),
    StableHlo.binary main_v110 main_v112 main_v113 (mulf : (⟨S50000x128, .f32⟩ : BufTy).Contents (Elt F) → (⟨S50000x128, .f32⟩ : BufTy).Contents (Elt F) → (⟨S50000x128, .f32⟩ : BufTy).Contents (Elt F)),
    StableHlo.unary main_v113 main_v114 (Host.negf : (⟨S50000x128, .f32⟩ : BufTy).Contents (Elt F) → (⟨S50000x128, .f32⟩ : BufTy).Contents (Elt F)),
    StableHlo.unary main_arg5 main_v115 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v115 main_v116 rfl shapeCasts_S1x128x128_S128x128,
    StableHlo.binary main_v90 main_v116 main_v117 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v118 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v118 main_v119 rfl shapeCasts_S1x128x128_S128x128,
    StableHlo.binary main_v114 main_v119 main_v120 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v117 main_v120 main_v121 (addf : (⟨S50000x128, .f32⟩ : BufTy).Contents (Elt F) → (⟨S50000x128, .f32⟩ : BufTy).Contents (Elt F) → (⟨S50000x128, .f32⟩ : BufTy).Contents (Elt F)),
    StableHlo.nullary main_c_21 (constantI S_ 32 0#32),
    StableHlo.unary main_c_21 main_v122 (broadcastInDim S800000 ![] bcast_S_S800000 : (⟨S_, .i32⟩ : BufTy).Contents (Elt F) → (⟨S800000, .i32⟩ : BufTy).Contents (Elt F)),
    StableHlo.binary main_arg1 main_v122 main_v123 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v124 (broadcastInDim S800000 ![] bcast_S_S800000 : (⟨S_, .i32⟩ : BufTy).Contents (Elt F) → (⟨S800000, .i32⟩ : BufTy).Contents (Elt F)),
    StableHlo.binary main_arg1 main_v124 main_v125 (addi : (⟨S800000, .i32⟩ : BufTy).Contents (Elt F) → (⟨S800000, .i32⟩ : BufTy).Contents (Elt F) → (⟨S800000, .i32⟩ : BufTy).Contents (Elt F)),
    StableHlo.ternary main_v123 main_v125 main_arg1 main_v126 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v126 main_v127 (broadcastInDim S800000x1 ![0] bcast_S800000_S800000x1_0 : (⟨S800000, .i32⟩ : BufTy).Contents (Elt F) → (⟨S800000x1, .i32⟩ : BufTy).Contents (Elt F)),
    StableHlo.binary main_v114 main_v127 main_v128 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_23 (constantI S_ 32 0#32),
    StableHlo.unary main_c_23 main_v129 (broadcastInDim S800000 ![] bcast_S_S800000 : (⟨S_, .i32⟩ : BufTy).Contents (Elt F) → (⟨S800000, .i32⟩ : BufTy).Contents (Elt F)),
    StableHlo.binary main_arg1 main_v129 main_v130 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v131 (broadcastInDim S800000 ![] bcast_S_S800000 : (⟨S_, .i32⟩ : BufTy).Contents (Elt F) → (⟨S800000, .i32⟩ : BufTy).Contents (Elt F)),
    StableHlo.binary main_arg1 main_v131 main_v132 (addi : (⟨S800000, .i32⟩ : BufTy).Contents (Elt F) → (⟨S800000, .i32⟩ : BufTy).Contents (Elt F) → (⟨S800000, .i32⟩ : BufTy).Contents (Elt F)),
    StableHlo.ternary main_v130 main_v132 main_arg1 main_v133 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v133 main_v134 (broadcastInDim S800000x1 ![0] bcast_S800000_S800000x1_0 : (⟨S800000, .i32⟩ : BufTy).Contents (Elt F) → (⟨S800000x1, .i32⟩ : BufTy).Contents (Elt F)),
    StableHlo.binary main_v6 main_v134 main_v135 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v135 main_v136 (broadcastInDim S800000x1 ![0] bcast_S800000_S800000x1_0 : (⟨S800000, .f32⟩ : BufTy).Contents (Elt F) → (⟨S800000x1, .f32⟩ : BufTy).Contents (Elt F)),
    StableHlo.unary main_v136 main_v137 (broadcastInDim S800000x128 ![0, 1] bcast_S800000x1_S800000x128_0_1 : (⟨S800000x1, .f32⟩ : BufTy).Contents (Elt F) → (⟨S800000x128, .f32⟩ : BufTy).Contents (Elt F)),
    StableHlo.binary main_v128 main_v137 main_v138 (mulf : (⟨S800000x128, .f32⟩ : BufTy).Contents (Elt F) → (⟨S800000x128, .f32⟩ : BufTy).Contents (Elt F) → (⟨S800000x128, .f32⟩ : BufTy).Contents (Elt F)),
    StableHlo.nullary main_cst_25 (constant S_ .f32 0x00000000#32),
    StableHlo.unary main_cst_25 main_v139 (broadcastInDim S50000x128 ![] bcast_S_S50000x128 : (⟨S_, .f32⟩ : BufTy).Contents (Elt F) → (⟨S50000x128, .f32⟩ : BufTy).Contents (Elt F)),
    StableHlo.unary main_arg2 main_v140 (broadcastInDim S800000x1 ![0] bcast_S800000_S800000x1_0 : (⟨S800000, .i32⟩ : BufTy).Contents (Elt F) → (⟨S800000x1, .i32⟩ : BufTy).Contents (Elt F)),
    StableHlo.ternary main_v139 main_v140 main_v138 main_v141 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v142 (broadcastInDim S50000x1 ![0] bcast_S50000_S50000x1_0 : (⟨S50000, .f32⟩ : BufTy).Contents (Elt F) → (⟨S50000x1, .f32⟩ : BufTy).Contents (Elt F)),
    StableHlo.unary main_v142 main_v143 (broadcastInDim S50000x128 ![0, 1] bcast_S50000x1_S50000x128_0_1 : (⟨S50000x1, .f32⟩ : BufTy).Contents (Elt F) → (⟨S50000x128, .f32⟩ : BufTy).Contents (Elt F)),
    StableHlo.binary main_v141 main_v143 main_v144 (mulf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0xC0000000#32),
    StableHlo.unary main_cst_26 main_v145 (broadcastInDim S50000x128 ![] bcast_S_S50000x128 : (⟨S_, .f32⟩ : BufTy).Contents (Elt F) → (⟨S50000x128, .f32⟩ : BufTy).Contents (Elt F)),
    StableHlo.binary main_v145 main_v144 main_v146 (mulf : (⟨S50000x128, .f32⟩ : BufTy).Contents (Elt F) → (⟨S50000x128, .f32⟩ : BufTy).Contents (Elt F) → (⟨S50000x128, .f32⟩ : BufTy).Contents (Elt F)),
    StableHlo.binary main_v146 main_v90 main_v147 (subf : (⟨S50000x128, .f32⟩ : BufTy).Contents (Elt F) → (⟨S50000x128, .f32⟩ : BufTy).Contents (Elt F) → (⟨S50000x128, .f32⟩ : BufTy).Contents (Elt F)),
    StableHlo.unary main_arg5 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v148 main_v149 rfl shapeCasts_S1x128x128_S128x128,
    StableHlo.binary main_v147 main_v149 main_v150 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Part 3 up to layer 2's rectified output. (7 operations, ending at `main_v155`.) -/
abbrev W3a : List (HloOp τ sig (Elt F)) :=
  [ StableHlo.binary main_v121 main_v150 main_v151 (addf : (⟨S50000x128, .f32⟩ : BufTy).Contents (Elt F) → (⟨S50000x128, .f32⟩ : BufTy).Contents (Elt F) → (⟨S50000x128, .f32⟩ : BufTy).Contents (Elt F)),
    StableHlo.unary main_arg6 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),
    StableHlo.binary main_v151 main_v153 main_v154 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S50000x128, .f32⟩) main_call2_v0) (broadcastInDim S50000x128 ![] bcast_S_S50000x128),
    StableHlo.TRef.binary (StableHlo.TRef.of (T := ⟨S50000x128, .f32⟩) main_v154) (StableHlo.TRef.of (T := ⟨S50000x128, .f32⟩) main_call2_v0) (StableHlo.TRef.of (T := ⟨S50000x128, .f32⟩) main_v155) maximumf ]

/-- The rest of part 3: layer 3's propagations. (55 operations, ending at `main_v201`.) -/
abbrev W3b : List (HloOp τ sig (Elt F)) :=
  [ StableHlo.nullary main_c_27 (constantI S_ 32 0#32),
    StableHlo.unary main_c_27 main_v156 (broadcastInDim S800000 ![] bcast_S_S800000 : (⟨S_, .i32⟩ : BufTy).Contents (Elt F) → (⟨S800000, .i32⟩ : BufTy).Contents (Elt F)),
    StableHlo.binary main_arg1 main_v156 main_v157 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v158 (broadcastInDim S800000 ![] bcast_S_S800000 : (⟨S_, .i32⟩ : BufTy).Contents (Elt F) → (⟨S800000, .i32⟩ : BufTy).Contents (Elt F)),
    StableHlo.binary main_arg1 main_v158 main_v159 (addi : (⟨S800000, .i32⟩ : BufTy).Contents (Elt F) → (⟨S800000, .i32⟩ : BufTy).Contents (Elt F) → (⟨S800000, .i32⟩ : BufTy).Contents (Elt F)),
    StableHlo.ternary main_v157 main_v159 main_arg1 main_v160 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v160 main_v161 (broadcastInDim S800000x1 ![0] bcast_S800000_S800000x1_0 : (⟨S800000, .i32⟩ : BufTy).Contents (Elt F) → (⟨S800000x1, .i32⟩ : BufTy).Contents (Elt F)),
    StableHlo.binary main_v155 main_v161 main_v162 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_29 (constantI S_ 32 0#32),
    StableHlo.unary main_c_29 main_v163 (broadcastInDim S800000 ![] bcast_S_S800000 : (⟨S_, .i32⟩ : BufTy).Contents (Elt F) → (⟨S800000, .i32⟩ : BufTy).Contents (Elt F)),
    StableHlo.binary main_arg1 main_v163 main_v164 (cmpi .slt : (⟨S800000, .i32⟩ : BufTy).Contents (Elt F) → (⟨S800000, .i32⟩ : BufTy).Contents (Elt F) → (⟨S800000, .i1⟩ : BufTy).Contents (Elt F)),
    StableHlo.nullary main_c_30 (constantI S_ 32 50000#32),
    StableHlo.unary main_c_30 main_v165 (broadcastInDim S800000 ![] bcast_S_S800000 : (⟨S_, .i32⟩ : BufTy).Contents (Elt F) → (⟨S800000, .i32⟩ : BufTy).Contents (Elt F)),
    StableHlo.binary main_arg1 main_v165 main_v166 (addi : (⟨S800000, .i32⟩ : BufTy).Contents (Elt F) → (⟨S800000, .i32⟩ : BufTy).Contents (Elt F) → (⟨S800000, .i32⟩ : BufTy).Contents (Elt F)),
    StableHlo.ternary main_v164 main_v166 main_arg1 main_v167 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v167 main_v168 (broadcastInDim S800000x1 ![0] bcast_S800000_S800000x1_0 : (⟨S800000, .i32⟩ : BufTy).Contents (Elt F) → (⟨S800000x1, .i32⟩ : BufTy).Contents (Elt F)),
    StableHlo.binary main_v6 main_v168 main_v169 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v169 main_v170 (broadcastInDim S800000x1 ![0] bcast_S800000_S800000x1_0 : (⟨S800000, .f32⟩ : BufTy).Contents (Elt F) → (⟨S800000x1, .f32⟩ : BufTy).Contents (Elt F)),
    StableHlo.unary main_v170 main_v171 (broadcastInDim S800000x128 ![0, 1] bcast_S800000x1_S800000x128_0_1 : (⟨S800000x1, .f32⟩ : BufTy).Contents (Elt F) → (⟨S800000x128, .f32⟩ : BufTy).Contents (Elt F)),
    StableHlo.binary main_v162 main_v171 main_v172 (mulf : (⟨S800000x128, .f32⟩ : BufTy).Contents (Elt F) → (⟨S800000x128, .f32⟩ : BufTy).Contents (Elt F) → (⟨S800000x128, .f32⟩ : BufTy).Contents (Elt F)),
    StableHlo.nullary main_cst_31 (constant S_ .f32 0x00000000#32),
    StableHlo.unary main_cst_31 main_v173 (broadcastInDim S50000x128 ![] bcast_S_S50000x128 : (⟨S_, .f32⟩ : BufTy).Contents (Elt F) → (⟨S50000x128, .f32⟩ : BufTy).Contents (Elt F)),
    StableHlo.unary main_arg2 main_v174 (broadcastInDim S800000x1 ![0] bcast_S800000_S800000x1_0 : (⟨S800000, .i32⟩ : BufTy).Contents (Elt F) → (⟨S800000x1, .i32⟩ : BufTy).Contents (Elt F)),
    StableHlo.ternary main_v173 main_v174 main_v172 main_v175 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v176 (broadcastInDim S50000x1 ![0] bcast_S50000_S50000x1_0 : (⟨S50000, .f32⟩ : BufTy).Contents (Elt F) → (⟨S50000x1, .f32⟩ : BufTy).Contents (Elt F)),
    StableHlo.unary main_v176 main_v177 (broadcastInDim S50000x128 ![0, 1] bcast_S50000x1_S50000x128_0_1 : (⟨S50000x1, .f32⟩ : BufTy).Contents (Elt F) → (⟨S50000x128, .f32⟩ : BufTy).Contents (Elt F)),
    StableHlo.binary main_v175 main_v177 main_v178 (mulf : (⟨S50000x128, .f32⟩ : BufTy).Contents (Elt F) → (⟨S50000x128, .f32⟩ : BufTy).Contents (Elt F) → (⟨S50000x128, .f32⟩ : BufTy).Contents (Elt F)),
    StableHlo.unary main_v178 main_v179 (Host.negf : (⟨S50000x128, .f32⟩ : BufTy).Contents (Elt F) → (⟨S50000x128, .f32⟩ : BufTy).Contents (Elt F)),
    StableHlo.unary main_arg5 main_v180 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v180 main_v181 rfl shapeCasts_S1x128x128_S128x128,
    StableHlo.binary main_v155 main_v181 main_v182 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v183 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v183 main_v184 rfl shapeCasts_S1x128x128_S128x128,
    StableHlo.binary main_v179 main_v184 main_v185 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v182 main_v185 main_v186 (addf : (⟨S50000x128, .f32⟩ : BufTy).Contents (Elt F) → (⟨S50000x128, .f32⟩ : BufTy).Contents (Elt F) → (⟨S50000x128, .f32⟩ : BufTy).Contents (Elt F)),
    StableHlo.nullary main_c_32 (constantI S_ 32 0#32),
    StableHlo.unary main_c_32 main_v187 (broadcastInDim S800000 ![] bcast_S_S800000 : (⟨S_, .i32⟩ : BufTy).Contents (Elt F) → (⟨S800000, .i32⟩ : BufTy).Contents (Elt F)),
    StableHlo.binary main_arg1 main_v187 main_v188 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v189 (broadcastInDim S800000 ![] bcast_S_S800000 : (⟨S_, .i32⟩ : BufTy).Contents (Elt F) → (⟨S800000, .i32⟩ : BufTy).Contents (Elt F)),
    StableHlo.binary main_arg1 main_v189 main_v190 (addi : (⟨S800000, .i32⟩ : BufTy).Contents (Elt F) → (⟨S800000, .i32⟩ : BufTy).Contents (Elt F) → (⟨S800000, .i32⟩ : BufTy).Contents (Elt F)),
    StableHlo.ternary main_v188 main_v190 main_arg1 main_v191 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v191 main_v192 (broadcastInDim S800000x1 ![0] bcast_S800000_S800000x1_0 : (⟨S800000, .i32⟩ : BufTy).Contents (Elt F) → (⟨S800000x1, .i32⟩ : BufTy).Contents (Elt F)),
    StableHlo.binary main_v179 main_v192 main_v193 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_34 (constantI S_ 32 0#32),
    StableHlo.unary main_c_34 main_v194 (broadcastInDim S800000 ![] bcast_S_S800000 : (⟨S_, .i32⟩ : BufTy).Contents (Elt F) → (⟨S800000, .i32⟩ : BufTy).Contents (Elt F)),
    StableHlo.binary main_arg1 main_v194 main_v195 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v196 (broadcastInDim S800000 ![] bcast_S_S800000 : (⟨S_, .i32⟩ : BufTy).Contents (Elt F) → (⟨S800000, .i32⟩ : BufTy).Contents (Elt F)),
    StableHlo.binary main_arg1 main_v196 main_v197 (addi : (⟨S800000, .i32⟩ : BufTy).Contents (Elt F) → (⟨S800000, .i32⟩ : BufTy).Contents (Elt F) → (⟨S800000, .i32⟩ : BufTy).Contents (Elt F)),
    StableHlo.ternary main_v195 main_v197 main_arg1 main_v198 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v198 main_v199 (broadcastInDim S800000x1 ![0] bcast_S800000_S800000x1_0 : (⟨S800000, .i32⟩ : BufTy).Contents (Elt F) → (⟨S800000x1, .i32⟩ : BufTy).Contents (Elt F)),
    StableHlo.binary main_v6 main_v199 main_v200 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v200 main_v201 (broadcastInDim S800000x1 ![0] bcast_S800000_S800000x1_0 : (⟨S800000, .f32⟩ : BufTy).Contents (Elt F) → (⟨S800000x1, .f32⟩ : BufTy).Contents (Elt F)) ]

/-- Part 4 up to layer 3's rectified output. (23 operations, ending at `main_v220`.) -/
abbrev W4a : List (HloOp τ sig (Elt F)) :=
  [ StableHlo.unary main_v201 main_v202 (broadcastInDim S800000x128 ![0, 1] bcast_S800000x1_S800000x128_0_1 : (⟨S800000x1, .f32⟩ : BufTy).Contents (Elt F) → (⟨S800000x128, .f32⟩ : BufTy).Contents (Elt F)),
    StableHlo.binary main_v193 main_v202 main_v203 (mulf : (⟨S800000x128, .f32⟩ : BufTy).Contents (Elt F) → (⟨S800000x128, .f32⟩ : BufTy).Contents (Elt F) → (⟨S800000x128, .f32⟩ : BufTy).Contents (Elt F)),
    StableHlo.nullary main_cst_36 (constant S_ .f32 0x00000000#32),
    StableHlo.unary main_cst_36 main_v204 (broadcastInDim S50000x128 ![] bcast_S_S50000x128 : (⟨S_, .f32⟩ : BufTy).Contents (Elt F) → (⟨S50000x128, .f32⟩ : BufTy).Contents (Elt F)),
    StableHlo.unary main_arg2 main_v205 (broadcastInDim S800000x1 ![0] bcast_S800000_S800000x1_0 : (⟨S800000, .i32⟩ : BufTy).Contents (Elt F) → (⟨S800000x1, .i32⟩ : BufTy).Contents (Elt F)),
    StableHlo.ternary main_v204 main_v205 main_v203 main_v206 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v207 (broadcastInDim S50000x1 ![0] bcast_S50000_S50000x1_0 : (⟨S50000, .f32⟩ : BufTy).Contents (Elt F) → (⟨S50000x1, .f32⟩ : BufTy).Contents (Elt F)),
    StableHlo.unary main_v207 main_v208 (broadcastInDim S50000x128 ![0, 1] bcast_S50000x1_S50000x128_0_1 : (⟨S50000x1, .f32⟩ : BufTy).Contents (Elt F) → (⟨S50000x128, .f32⟩ : BufTy).Contents (Elt F)),
    StableHlo.binary main_v206 main_v208 main_v209 (mulf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0xC0000000#32),
    StableHlo.unary main_cst_37 main_v210 (broadcastInDim S50000x128 ![] bcast_S_S50000x128 : (⟨S_, .f32⟩ : BufTy).Contents (Elt F) → (⟨S50000x128, .f32⟩ : BufTy).Contents (Elt F)),
    StableHlo.binary main_v210 main_v209 main_v211 (mulf : (⟨S50000x128, .f32⟩ : BufTy).Contents (Elt F) → (⟨S50000x128, .f32⟩ : BufTy).Contents (Elt F) → (⟨S50000x128, .f32⟩ : BufTy).Contents (Elt F)),
    StableHlo.binary main_v211 main_v155 main_v212 (subf : (⟨S50000x128, .f32⟩ : BufTy).Contents (Elt F) → (⟨S50000x128, .f32⟩ : BufTy).Contents (Elt F) → (⟨S50000x128, .f32⟩ : BufTy).Contents (Elt F)),
    StableHlo.unary main_arg5 main_v213 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v213 main_v214 rfl shapeCasts_S1x128x128_S128x128,
    StableHlo.binary main_v212 main_v214 main_v215 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v186 main_v215 main_v216 (addf : (⟨S50000x128, .f32⟩ : BufTy).Contents (Elt F) → (⟨S50000x128, .f32⟩ : BufTy).Contents (Elt F) → (⟨S50000x128, .f32⟩ : BufTy).Contents (Elt F)),
    StableHlo.unary main_arg6 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v218 main_v219 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S50000x128, .f32⟩) main_call3_v0) (broadcastInDim S50000x128 ![] bcast_S_S50000x128),
    StableHlo.TRef.binary (StableHlo.TRef.of (T := ⟨S50000x128, .f32⟩) main_v219) (StableHlo.TRef.of (T := ⟨S50000x128, .f32⟩) main_call3_v0) (StableHlo.TRef.of (T := ⟨S50000x128, .f32⟩) main_v220) maximumf ]

/-- The rest of part 4: layer 4's propagations. (39 operations, ending at `main_v253`.) -/
abbrev W4b : List (HloOp τ sig (Elt F)) :=
  [ StableHlo.nullary main_c_38 (constantI S_ 32 0#32),
    StableHlo.unary main_c_38 main_v221 (broadcastInDim S800000 ![] bcast_S_S800000 : (⟨S_, .i32⟩ : BufTy).Contents (Elt F) → (⟨S800000, .i32⟩ : BufTy).Contents (Elt F)),
    StableHlo.binary main_arg1 main_v221 main_v222 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v223 (broadcastInDim S800000 ![] bcast_S_S800000 : (⟨S_, .i32⟩ : BufTy).Contents (Elt F) → (⟨S800000, .i32⟩ : BufTy).Contents (Elt F)),
    StableHlo.binary main_arg1 main_v223 main_v224 (addi : (⟨S800000, .i32⟩ : BufTy).Contents (Elt F) → (⟨S800000, .i32⟩ : BufTy).Contents (Elt F) → (⟨S800000, .i32⟩ : BufTy).Contents (Elt F)),
    StableHlo.ternary main_v222 main_v224 main_arg1 main_v225 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v225 main_v226 (broadcastInDim S800000x1 ![0] bcast_S800000_S800000x1_0 : (⟨S800000, .i32⟩ : BufTy).Contents (Elt F) → (⟨S800000x1, .i32⟩ : BufTy).Contents (Elt F)),
    StableHlo.binary main_v220 main_v226 main_v227 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_40 (constantI S_ 32 0#32),
    StableHlo.unary main_c_40 main_v228 (broadcastInDim S800000 ![] bcast_S_S800000 : (⟨S_, .i32⟩ : BufTy).Contents (Elt F) → (⟨S800000, .i32⟩ : BufTy).Contents (Elt F)),
    StableHlo.binary main_arg1 main_v228 main_v229 (cmpi .slt : (⟨S800000, .i32⟩ : BufTy).Contents (Elt F) → (⟨S800000, .i32⟩ : BufTy).Contents (Elt F) → (⟨S800000, .i1⟩ : BufTy).Contents (Elt F)),
    StableHlo.nullary main_c_41 (constantI S_ 32 50000#32),
    StableHlo.unary main_c_41 main_v230 (broadcastInDim S800000 ![] bcast_S_S800000 : (⟨S_, .i32⟩ : BufTy).Contents (Elt F) → (⟨S800000, .i32⟩ : BufTy).Contents (Elt F)),
    StableHlo.binary main_arg1 main_v230 main_v231 (addi : (⟨S800000, .i32⟩ : BufTy).Contents (Elt F) → (⟨S800000, .i32⟩ : BufTy).Contents (Elt F) → (⟨S800000, .i32⟩ : BufTy).Contents (Elt F)),
    StableHlo.ternary main_v229 main_v231 main_arg1 main_v232 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v232 main_v233 (broadcastInDim S800000x1 ![0] bcast_S800000_S800000x1_0 : (⟨S800000, .i32⟩ : BufTy).Contents (Elt F) → (⟨S800000x1, .i32⟩ : BufTy).Contents (Elt F)),
    StableHlo.binary main_v6 main_v233 main_v234 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v234 main_v235 (broadcastInDim S800000x1 ![0] bcast_S800000_S800000x1_0 : (⟨S800000, .f32⟩ : BufTy).Contents (Elt F) → (⟨S800000x1, .f32⟩ : BufTy).Contents (Elt F)),
    StableHlo.unary main_v235 main_v236 (broadcastInDim S800000x128 ![0, 1] bcast_S800000x1_S800000x128_0_1 : (⟨S800000x1, .f32⟩ : BufTy).Contents (Elt F) → (⟨S800000x128, .f32⟩ : BufTy).Contents (Elt F)),
    StableHlo.binary main_v227 main_v236 main_v237 (mulf : (⟨S800000x128, .f32⟩ : BufTy).Contents (Elt F) → (⟨S800000x128, .f32⟩ : BufTy).Contents (Elt F) → (⟨S800000x128, .f32⟩ : BufTy).Contents (Elt F)),
    StableHlo.nullary main_cst_42 (constant S_ .f32 0x00000000#32),
    StableHlo.unary main_cst_42 main_v238 (broadcastInDim S50000x128 ![] bcast_S_S50000x128 : (⟨S_, .f32⟩ : BufTy).Contents (Elt F) → (⟨S50000x128, .f32⟩ : BufTy).Contents (Elt F)),
    StableHlo.unary main_arg2 main_v239 (broadcastInDim S800000x1 ![0] bcast_S800000_S800000x1_0 : (⟨S800000, .i32⟩ : BufTy).Contents (Elt F) → (⟨S800000x1, .i32⟩ : BufTy).Contents (Elt F)),
    StableHlo.ternary main_v238 main_v239 main_v237 main_v240 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v241 (broadcastInDim S50000x1 ![0] bcast_S50000_S50000x1_0 : (⟨S50000, .f32⟩ : BufTy).Contents (Elt F) → (⟨S50000x1, .f32⟩ : BufTy).Contents (Elt F)),
    StableHlo.unary main_v241 main_v242 (broadcastInDim S50000x128 ![0, 1] bcast_S50000x1_S50000x128_0_1 : (⟨S50000x1, .f32⟩ : BufTy).Contents (Elt F) → (⟨S50000x128, .f32⟩ : BufTy).Contents (Elt F)),
    StableHlo.binary main_v240 main_v242 main_v243 (mulf : (⟨S50000x128, .f32⟩ : BufTy).Contents (Elt F) → (⟨S50000x128, .f32⟩ : BufTy).Contents (Elt F) → (⟨S50000x128, .f32⟩ : BufTy).Contents (Elt F)),
    StableHlo.unary main_v243 main_v244 (Host.negf : (⟨S50000x128, .f32⟩ : BufTy).Contents (Elt F) → (⟨S50000x128, .f32⟩ : BufTy).Contents (Elt F)),
    StableHlo.unary main_arg7 main_v245 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v245 main_v246 rfl shapeCasts_S1x128x128_S128x128,
    StableHlo.binary main_v220 main_v246 main_v247 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v248 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v248 main_v249 rfl shapeCasts_S1x128x128_S128x128,
    StableHlo.binary main_v244 main_v249 main_v250 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v247 main_v250 main_v251 (addf : (⟨S50000x128, .f32⟩ : BufTy).Contents (Elt F) → (⟨S50000x128, .f32⟩ : BufTy).Contents (Elt F) → (⟨S50000x128, .f32⟩ : BufTy).Contents (Elt F)),
    StableHlo.nullary main_c_43 (constantI S_ 32 0#32),
    StableHlo.unary main_c_43 main_v252 (broadcastInDim S800000 ![] bcast_S_S800000 : (⟨S_, .i32⟩ : BufTy).Contents (Elt F) → (⟨S800000, .i32⟩ : BufTy).Contents (Elt F)),
    StableHlo.binary main_arg1 main_v252 main_v253 (cmpi .slt : (⟨S800000, .i32⟩ : BufTy).Contents (Elt F) → (⟨S800000, .i32⟩ : BufTy).Contents (Elt F) → (⟨S800000, .i1⟩ : BufTy).Contents (Elt F)) ]

/-- Part 5 up to layer 4's rectified output. (39 operations, ending at `main_v285`.) -/
abbrev W5a : List (HloOp τ sig (Elt F)) :=
  [ StableHlo.nullary main_c_44 (constantI S_ 32 50000#32),
    StableHlo.unary main_c_44 main_v254 (broadcastInDim S800000 ![] bcast_S_S800000 : (⟨S_, .i32⟩ : BufTy).Contents (Elt F) → (⟨S800000, .i32⟩ : BufTy).Contents (Elt F)),
    StableHlo.binary main_arg1 main_v254 main_v255 (addi : (⟨S800000, .i32⟩ : BufTy).Contents (Elt F) → (⟨S800000, .i32⟩ : BufTy).Contents (Elt F) → (⟨S800000, .i32⟩ : BufTy).Contents (Elt F)),
    StableHlo.ternary main_v253 main_v255 main_arg1 main_v256 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v256 main_v257 (broadcastInDim S800000x1 ![0] bcast_S800000_S800000x1_0 : (⟨S800000, .i32⟩ : BufTy).Contents (Elt F) → (⟨S800000x1, .i32⟩ : BufTy).Contents (Elt F)),
    StableHlo.binary main_v244 main_v257 main_v258 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_45 (constantI S_ 32 0#32),
    StableHlo.unary main_c_45 main_v259 (broadcastInDim S800000 ![] bcast_S_S800000 : (⟨S_, .i32⟩ : BufTy).Contents (Elt F) → (⟨S800000, .i32⟩ : BufTy).Contents (Elt F)),
    StableHlo.binary main_arg1 main_v259 main_v260 (cmpi .slt : (⟨S800000, .i32⟩ : BufTy).Contents (Elt F) → (⟨S800000, .i32⟩ : BufTy).Contents (Elt F) → (⟨S800000, .i1⟩ : BufTy).Contents (Elt F)),
    StableHlo.nullary main_c_46 (constantI S_ 32 50000#32),
    StableHlo.unary main_c_46 main_v261 (broadcastInDim S800000 ![] bcast_S_S800000 : (⟨S_, .i32⟩ : BufTy).Contents (Elt F) → (⟨S800000, .i32⟩ : BufTy).Contents (Elt F)),
    StableHlo.binary main_arg1 main_v261 main_v262 (addi : (⟨S800000, .i32⟩ : BufTy).Contents (Elt F) → (⟨S800000, .i32⟩ : BufTy).Contents (Elt F) → (⟨S800000, .i32⟩ : BufTy).Contents (Elt F)),
    StableHlo.ternary main_v260 main_v262 main_arg1 main_v263 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v263 main_v264 (broadcastInDim S800000x1 ![0] bcast_S800000_S800000x1_0 : (⟨S800000, .i32⟩ : BufTy).Contents (Elt F) → (⟨S800000x1, .i32⟩ : BufTy).Contents (Elt F)),
    StableHlo.binary main_v6 main_v264 main_v265 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v265 main_v266 (broadcastInDim S800000x1 ![0] bcast_S800000_S800000x1_0 : (⟨S800000, .f32⟩ : BufTy).Contents (Elt F) → (⟨S800000x1, .f32⟩ : BufTy).Contents (Elt F)),
    StableHlo.unary main_v266 main_v267 (broadcastInDim S800000x128 ![0, 1] bcast_S800000x1_S800000x128_0_1 : (⟨S800000x1, .f32⟩ : BufTy).Contents (Elt F) → (⟨S800000x128, .f32⟩ : BufTy).Contents (Elt F)),
    StableHlo.binary main_v258 main_v267 main_v268 (mulf : (⟨S800000x128, .f32⟩ : BufTy).Contents (Elt F) → (⟨S800000x128, .f32⟩ : BufTy).Contents (Elt F) → (⟨S800000x128, .f32⟩ : BufTy).Contents (Elt F)),
    StableHlo.nullary main_cst_47 (constant S_ .f32 0x00000000#32),
    StableHlo.unary main_cst_47 main_v269 (broadcastInDim S50000x128 ![] bcast_S_S50000x128 : (⟨S_, .f32⟩ : BufTy).Contents (Elt F) → (⟨S50000x128, .f32⟩ : BufTy).Contents (Elt F)),
    StableHlo.unary main_arg2 main_v270 (broadcastInDim S800000x1 ![0] bcast_S800000_S800000x1_0 : (⟨S800000, .i32⟩ : BufTy).Contents (Elt F) → (⟨S800000x1, .i32⟩ : BufTy).Contents (Elt F)),
    StableHlo.ternary main_v269 main_v270 main_v268 main_v271 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v6 main_v272 (broadcastInDim S50000x1 ![0] bcast_S50000_S50000x1_0 : (⟨S50000, .f32⟩ : BufTy).Contents (Elt F) → (⟨S50000x1, .f32⟩ : BufTy).Contents (Elt F)),
    StableHlo.unary main_v272 main_v273 (broadcastInDim S50000x128 ![0, 1] bcast_S50000x1_S50000x128_0_1 : (⟨S50000x1, .f32⟩ : BufTy).Contents (Elt F) → (⟨S50000x128, .f32⟩ : BufTy).Contents (Elt F)),
    StableHlo.binary main_v271 main_v273 main_v274 (mulf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0xC0000000#32),
    StableHlo.unary main_cst_48 main_v275 (broadcastInDim S50000x128 ![] bcast_S_S50000x128 : (⟨S_, .f32⟩ : BufTy).Contents (Elt F) → (⟨S50000x128, .f32⟩ : BufTy).Contents (Elt F)),
    StableHlo.binary main_v275 main_v274 main_v276 (mulf : (⟨S50000x128, .f32⟩ : BufTy).Contents (Elt F) → (⟨S50000x128, .f32⟩ : BufTy).Contents (Elt F) → (⟨S50000x128, .f32⟩ : BufTy).Contents (Elt F)),
    StableHlo.binary main_v276 main_v220 main_v277 (subf : (⟨S50000x128, .f32⟩ : BufTy).Contents (Elt F) → (⟨S50000x128, .f32⟩ : BufTy).Contents (Elt F) → (⟨S50000x128, .f32⟩ : BufTy).Contents (Elt F)),
    StableHlo.unary main_arg7 main_v278 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v278 main_v279 rfl shapeCasts_S1x128x128_S128x128,
    StableHlo.binary main_v277 main_v279 main_v280 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v251 main_v280 main_v281 (addf : (⟨S50000x128, .f32⟩ : BufTy).Contents (Elt F) → (⟨S50000x128, .f32⟩ : BufTy).Contents (Elt F) → (⟨S50000x128, .f32⟩ : BufTy).Contents (Elt F)),
    StableHlo.unary main_arg8 main_v282 (broadcastInDim S1x128 ![1] bcast_S128_S1x128_1 : (⟨S128, .f32⟩ : BufTy).Contents (Elt F) → (⟨S1x128, .f32⟩ : BufTy).Contents (Elt F)),
    StableHlo.unary main_v282 main_v283 (broadcastInDim S50000x128 ![0, 1] bcast_S1x128_S50000x128_0_1 : (⟨S1x128, .f32⟩ : BufTy).Contents (Elt F) → (⟨S50000x128, .f32⟩ : BufTy).Contents (Elt F)),
    StableHlo.binary main_v281 main_v283 main_v284 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S50000x128, .f32⟩) main_call4_v0) (broadcastInDim S50000x128 ![] bcast_S_S50000x128),
    StableHlo.TRef.binary (StableHlo.TRef.of (T := ⟨S50000x128, .f32⟩) main_v284) (StableHlo.TRef.of (T := ⟨S50000x128, .f32⟩) main_call4_v0) (StableHlo.TRef.of (T := ⟨S50000x128, .f32⟩) main_v285) maximumf ]

/-- The rest of part 5: the residual sum and the two dense layers, ending at the result. (12 operations, ending at `main_v295`.) -/
abbrev W5b : List (HloOp τ sig (Elt F)) :=
  [ StableHlo.binary main_v285 main_v220 main_v286 (addf : (⟨S50000x128, .f32⟩ : BufTy).Contents (Elt F) → (⟨S50000x128, .f32⟩ : BufTy).Contents (Elt F) → (⟨S50000x128, .f32⟩ : BufTy).Contents (Elt F)),
    StableHlo.binary main_v286 main_arg11 main_v287 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S50000x128 ![0, 1] bcast_S1x128_S50000x128_0_1 : (⟨S1x128, .f32⟩ : BufTy).Contents (Elt F) → (⟨S50000x128, .f32⟩ : BufTy).Contents (Elt F)),
    StableHlo.binary main_v287 main_v289 main_v290 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call5_cst) (constant S_ .f32 0x00000000#32),
    StableHlo.TRef.unary (StableHlo.TRef.of (T := ⟨S_, .f32⟩) main_call5_cst) (StableHlo.TRef.of (T := ⟨S50000x128, .f32⟩) main_call5_v0) (broadcastInDim S50000x128 ![] bcast_S_S50000x128),
    StableHlo.TRef.binary (StableHlo.TRef.of (T := ⟨S50000x128, .f32⟩) main_v290) (StableHlo.TRef.of (T := ⟨S50000x128, .f32⟩) main_call5_v0) (StableHlo.TRef.of (T := ⟨S50000x128, .f32⟩) main_v291) maximumf,
    StableHlo.binary main_v291 main_arg13 main_v292 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg14 main_v293 (broadcastInDim S1x64 ![1] bcast_S64_S1x64_1 : (⟨S64, .f32⟩ : BufTy).Contents (Elt F) → (⟨S1x64, .f32⟩ : BufTy).Contents (Elt F)),
    StableHlo.unary main_v293 main_v294 (broadcastInDim S50000x64 ![0, 1] bcast_S1x64_S50000x64_0_1 : (⟨S1x64, .f32⟩ : BufTy).Contents (Elt F) → (⟨S50000x64, .f32⟩ : BufTy).Contents (Elt F)),
    StableHlo.binary main_v292 main_v294 main_v295 (addf : (⟨S50000x64, .f32⟩ : BufTy).Contents (Elt F) → (⟨S50000x64, .f32⟩ : BufTy).Contents (Elt F) → (⟨S50000x64, .f32⟩ : BufTy).Contents (Elt F)) ]

/-- The buffers that `W0`'s operations write, in order. -/
abbrev W0_W : List (Ref sig .tc) := [main_cst, main_v0, main_cst_0, main_v1, main_v2, main_v3, main_cst_1, main_v4, main_v5, main_v6, main_c, main_v7, main_v8, main_c_2, main_v9, main_v10, main_v11, main_v12, main_v13, main_c_3, main_v14, main_v15, main_c_4, main_v16, main_v17, main_v18, main_v19, main_v20, main_v21, main_v22, main_v23, main_cst_5, main_v24, main_v25, main_v26, main_v27, main_v28, main_v29, main_v30, main_v31, main_v32, main_v33, main_v34, main_v35, main_v36, main_v37, main_c_6, main_v38, main_v39, main_c_7, main_v40, main_v41, main_v42, main_v43, main_v44, main_c_8, main_v45, main_v46, main_c_9, main_v47]

/-- The buffers that `W1a`'s operations write, in order. -/
abbrev W1a_W : List (Ref sig .tc) := [main_v48, main_v49, main_v50, main_v51, main_v52, main_v53, main_v54, main_cst_10, main_v55, main_v56, main_v57, main_v58, main_v59, main_v60, main_cst_11, main_v61, main_v62, main_v63, main_v64, main_v65, main_v66, main_v67, main_v68, main_v69, main_v70, main_call0_cst, main_call0_v0, main_v71]

/-- The buffers that `W1b`'s operations write, in order. -/
abbrev W1b_W : List (Ref sig .tc) := [main_cst_12, main_v72, main_cst_13, main_v73, main_v74, main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v75, main_v76, main_v77, main_v78, main_cst_15, main_v79, main_v80, main_v81, main_v82, main_v83, main_v84, main_v85, main_v86, main_v87, main_v88, main_v89, main_v90, main_c_16, main_v91, main_v92, main_c_17, main_v93, main_v94, main_v95, main_v96, main_v97, main_c_18, main_v98]

/-- The buffers that `W2`'s operations write, in order. -/
abbrev W2_W : List (Ref sig .tc) := [main_v99, main_c_19, main_v100, main_v101, main_v102, main_v103, main_v104, main_v105, main_v106, main_v107, main_cst_20, main_v108, main_v109, main_v110, main_v111, main_v112, main_v113, main_v114, main_v115, main_v116, main_v117, main_v118, main_v119, main_v120, main_v121, main_c_21, main_v122, main_v123, main_c_22, main_v124, main_v125, main_v126, main_v127, main_v128, main_c_23, main_v129, main_v130, main_c_24, main_v131, main_v132, main_v133, main_v134, main_v135, main_v136, main_v137, main_v138, main_cst_25, main_v139, main_v140, main_v141, main_v142, main_v143, main_v144, main_cst_26, main_v145, main_v146, main_v147, main_v148, main_v149, main_v150]

/-- The buffers that `W3a`'s operations write, in order. -/
abbrev W3a_W : List (Ref sig .tc) := [main_v151, main_v152, main_v153, main_v154, main_call2_cst, main_call2_v0, main_v155]

/-- The buffers that `W3b`'s operations write, in order. -/
abbrev W3b_W : List (Ref sig .tc) := [main_c_27, main_v156, main_v157, main_c_28, main_v158, main_v159, main_v160, main_v161, main_v162, main_c_29, main_v163, main_v164, main_c_30, main_v165, main_v166, main_v167, main_v168, main_v169, main_v170, main_v171, main_v172, main_cst_31, main_v173, main_v174, main_v175, main_v176, main_v177, main_v178, main_v179, main_v180, main_v181, main_v182, main_v183, main_v184, main_v185, main_v186, main_c_32, main_v187, main_v188, main_c_33, main_v189, main_v190, main_v191, main_v192, main_v193, main_c_34, main_v194, main_v195, main_c_35, main_v196, main_v197, main_v198, main_v199, main_v200, main_v201]

/-- The buffers that `W4a`'s operations write, in order. -/
abbrev W4a_W : List (Ref sig .tc) := [main_v202, main_v203, main_cst_36, main_v204, main_v205, main_v206, main_v207, main_v208, main_v209, main_cst_37, main_v210, main_v211, main_v212, main_v213, main_v214, main_v215, main_v216, main_v217, main_v218, main_v219, main_call3_cst, main_call3_v0, main_v220]

/-- The buffers that `W4b`'s operations write, in order. -/
abbrev W4b_W : List (Ref sig .tc) := [main_c_38, main_v221, main_v222, main_c_39, main_v223, main_v224, main_v225, main_v226, main_v227, main_c_40, main_v228, main_v229, main_c_41, main_v230, main_v231, main_v232, main_v233, main_v234, main_v235, main_v236, main_v237, main_cst_42, main_v238, main_v239, main_v240, main_v241, main_v242, main_v243, main_v244, main_v245, main_v246, main_v247, main_v248, main_v249, main_v250, main_v251, main_c_43, main_v252, main_v253]

/-- The buffers that `W5a`'s operations write, in order. -/
abbrev W5a_W : List (Ref sig .tc) := [main_c_44, main_v254, main_v255, main_v256, main_v257, main_v258, main_c_45, main_v259, main_v260, main_c_46, main_v261, main_v262, main_v263, main_v264, main_v265, main_v266, main_v267, main_v268, main_cst_47, main_v269, main_v270, main_v271, main_v272, main_v273, main_v274, main_cst_48, main_v275, main_v276, main_v277, main_v278, main_v279, main_v280, main_v281, main_v282, main_v283, main_v284, main_call4_cst, main_call4_v0, main_v285]

/-- The buffers that `W5b`'s operations write, in order. -/
abbrev W5b_W : List (Ref sig .tc) := [main_v286, main_v287, main_v288, main_v289, main_v290, main_call5_cst, main_call5_v0, main_v291, main_v292, main_v293, main_v294, main_v295]

end Cert.ReferenceIdeal.RefRun

end
-- ==== Proof.RefRun.lean ====
/- The reference program's @main as a LIST of its 378 host operations, each called function's operations standing in
   its call's place, and its run read back as a fold: every weakly fair execution terminates with each buffer at
   the fold of the operations' results over the launch contents. The list is cut where the network's layers end
   (`R0` … `R4`), so that a value argument can follow one layer at a time. The ten literal lists `W0` … `W5b`
   are the imported table; everything stated about them is proved here. -/
import proofs.«144721_j84121229460224_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The parts of @main inside which a layer ends, whole. -/
abbrev W1 : List (HloOp τ sig (Elt F)) := W1a ++ W1b
abbrev W3 : List (HloOp τ sig (Elt F)) := W3a ++ W3b
abbrev W4 : List (HloOp τ sig (Elt F)) := W4a ++ W4b
abbrev W5 : List (HloOp τ sig (Elt F)) := W5a ++ W5b

/-- Every operation up to and including layer 1's rectified output `main_v71`. -/
abbrev R0 : List (HloOp τ sig (Elt F)) := W0 ++ W1a
/-- After that, up to and including layer 2's rectified output `main_v155`. -/
abbrev R1 : List (HloOp τ sig (Elt F)) := W1b ++ W2 ++ W3a
/-- After that, up to and including layer 3's rectified output `main_v220`. -/
abbrev R2 : List (HloOp τ sig (Elt F)) := W3b ++ W4a
/-- After that, up to and including layer 4's rectified output `main_v285`. -/
abbrev R3 : List (HloOp τ sig (Elt F)) := W4b ++ W5a
/-- The rest, ending at the result `main_v295`. -/
abbrev R4 : List (HloOp τ sig (Elt F)) := W5b

/-- @main's 378 operations, in order, layer by layer. -/
abbrev ops : List (HloOp τ sig (Elt F)) := R0 ++ R1 ++ R2 ++ R3 ++ R4

/-- The same list grouped by @main's six parts: concatenation is associative. -/
theorem ops_windows : (ops : List (HloOp τ sig (Elt F))) = W0 ++ (W1 ++ (W2 ++ (W3 ++ (W4 ++ W5)))) := by
  simp only [ops, R0, R1, R2, R3, R4, W1, W3, W4, W5, List.append_assoc]

/-! Each part of @main is the straight line of its operations: the called functions' definitions unfold at their
    calls, and sequencing computes. -/

set_option maxRecDepth 8192 in
set_option maxHeartbeats 4000000 in
theorem main_part0_eq (c : Dev nD) : main_part0 (F := F) c = seq W0 := rfl
set_option maxRecDepth 8192 in
set_option maxHeartbeats 4000000 in
theorem main_part1_eq (c : Dev nD) : main_part1 (F := F) c = seq W1 := rfl
set_option maxRecDepth 8192 in
set_option maxHeartbeats 4000000 in
theorem main_part2_eq (c : Dev nD) : main_part2 (F := F) c = seq W2 := rfl
set_option maxRecDepth 8192 in
set_option maxHeartbeats 4000000 in
theorem main_part3_eq (c : Dev nD) : main_part3 (F := F) c = seq W3 := rfl
set_option maxRecDepth 8192 in
set_option maxHeartbeats 4000000 in
theorem main_part4_eq (c : Dev nD) : main_part4 (F := F) c = seq W4 := rfl
set_option maxRecDepth 8192 in
set_option maxHeartbeats 4000000 in
theorem main_part5_eq (c : Dev nD) : main_part5 (F := F) c = seq W5 := rfl

/-- @main is the straight line of `ops`: its six parts in turn, each the line of its own operations, and two lines
    run one after the other are their concatenation run as one. -/
theorem main_eq (c : Dev nD) : main (F := F) c = seq ops := by
  rw [ops_windows, seq_append W0, seq_append W1, seq_append W2, seq_append W3, seq_append W4,
    ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

/-- A property of every operation of a literal list, one operation at a time: the list's `Forall` unfolds to the
    conjunction of its instances, and the given step closes each of them. The proof does not depend on how many
    operations the list has. -/
local macro "each_op " l:ident " => " t:tactic : tactic =>
  `(tactic| (simp only [$l:ident, List.Forall]; (repeat' apply And.intro); all_goals ($t:tactic)))

/-- What closes "this operation touches TensorCore references only": the fact of the operation's own arity, told apart
    by the operation's head alone (no definition other than an abbreviation is unfolded to tell). -/
local macro "bufs_sub_step" : tactic =>
  `(tactic| with_reducible first | exact unary_bufs_sub .. | exact binary_bufs_sub .. | exact nullary_bufs_sub ..
                                  | exact ternary_bufs_sub .. | exact reshape_bufs_sub ..)

/-! Every operation touches TensorCore references only, list by list. -/

set_option maxRecDepth 8192 in
theorem W0_sub : (W0 : List (HloOp τ sig (Elt F))).Forall fun op => op.bufs ⊆ tcRefs τ sig := by each_op W0 => bufs_sub_step
set_option maxRecDepth 8192 in
theorem W1a_sub : (W1a : List (HloOp τ sig (Elt F))).Forall fun op => op.bufs ⊆ tcRefs τ sig := by each_op W1a => bufs_sub_step
set_option maxRecDepth 8192 in
theorem W1b_sub : (W1b : List (HloOp τ sig (Elt F))).Forall fun op => op.bufs ⊆ tcRefs τ sig := by each_op W1b => bufs_sub_step
set_option maxRecDepth 8192 in
theorem W2_sub : (W2 : List (HloOp τ sig (Elt F))).Forall fun op => op.bufs ⊆ tcRefs τ sig := by each_op W2 => bufs_sub_step
set_option maxRecDepth 8192 in
theorem W3a_sub : (W3a : List (HloOp τ sig (Elt F))).Forall fun op => op.bufs ⊆ tcRefs τ sig := by each_op W3a => bufs_sub_step
set_option maxRecDepth 8192 in
theorem W3b_sub : (W3b : List (HloOp τ sig (Elt F))).Forall fun op => op.bufs ⊆ tcRefs τ sig := by each_op W3b => bufs_sub_step
set_option maxRecDepth 8192 in
theorem W4a_sub : (W4a : List (HloOp τ sig (Elt F))).Forall fun op => op.bufs ⊆ tcRefs τ sig := by each_op W4a => bufs_sub_step
set_option maxRecDepth 8192 in
theorem W4b_sub : (W4b : List (HloOp τ sig (Elt F))).Forall fun op => op.bufs ⊆ tcRefs τ sig := by each_op W4b => bufs_sub_step
set_option maxRecDepth 8192 in
theorem W5a_sub : (W5a : List (HloOp τ sig (Elt F))).Forall fun op => op.bufs ⊆ tcRefs τ sig := by each_op W5a => bufs_sub_step
set_option maxRecDepth 8192 in
theorem W5b_sub : (W5b : List (HloOp τ sig (Elt F))).Forall fun op => op.bufs ⊆ tcRefs τ sig := by each_op W5b => bufs_sub_step

/-! Every operation determines its results (none allocates a buffer of contents not chosen), list by list. -/

set_option maxRecDepth 8192 in
theorem W0_fresh : (W0 : List (HloOp τ sig (Elt F))).Forall fun op => op.fresh = ∅ := by each_op W0 => rfl
set_option maxRecDepth 8192 in
theorem W1a_fresh : (W1a : List (HloOp τ sig (Elt F))).Forall fun op => op.fresh = ∅ := by each_op W1a => rfl
set_option maxRecDepth 8192 in
theorem W1b_fresh : (W1b : List (HloOp τ sig (Elt F))).Forall fun op => op.fresh = ∅ := by each_op W1b => rfl
set_option maxRecDepth 8192 in
theorem W2_fresh : (W2 : List (HloOp τ sig (Elt F))).Forall fun op => op.fresh = ∅ := by each_op W2 => rfl
set_option maxRecDepth 8192 in
theorem W3a_fresh : (W3a : List (HloOp τ sig (Elt F))).Forall fun op => op.fresh = ∅ := by each_op W3a => rfl
set_option maxRecDepth 8192 in
theorem W3b_fresh : (W3b : List (HloOp τ sig (Elt F))).Forall fun op => op.fresh = ∅ := by each_op W3b => rfl
set_option maxRecDepth 8192 in
theorem W4a_fresh : (W4a : List (HloOp τ sig (Elt F))).Forall fun op => op.fresh = ∅ := by each_op W4a => rfl
set_option maxRecDepth 8192 in
theorem W4b_fresh : (W4b : List (HloOp τ sig (Elt F))).Forall fun op => op.fresh = ∅ := by each_op W4b => rfl
set_option maxRecDepth 8192 in
theorem W5a_fresh : (W5a : List (HloOp τ sig (Elt F))).Forall fun op => op.fresh = ∅ := by each_op W5a => rfl
set_option maxRecDepth 8192 in
theorem W5b_fresh : (W5b : List (HloOp τ sig (Elt F))).Forall fun op => op.fresh = ∅ := by each_op W5b => rfl

/-- Every operation touches TensorCore references only. -/
theorem ops_sub : (ops : List (HloOp τ sig (Elt F))).Forall fun op => op.bufs ⊆ tcRefs τ sig :=
  forall_append (forall_append (forall_append (forall_append (forall_append W0_sub W1a_sub)
    (forall_append (forall_append W1b_sub W2_sub) W3a_sub)) (forall_append W3b_sub W4a_sub)) (forall_append W4b_sub W5a_sub)) W5b_sub

/-- Every operation determines its results. -/
theorem ops_fresh : (ops : List (HloOp τ sig (Elt F))).Forall fun op => op.fresh = ∅ :=
  forall_append (forall_append (forall_append (forall_append (forall_append W0_fresh W1a_fresh)
    (forall_append (forall_append W1b_fresh W2_fresh) W3a_fresh)) (forall_append W3b_fresh W4a_fresh)) (forall_append W4b_fresh W5a_fresh)) W5b_fresh

/-- On every device, for any float values, from any memory with zero counters: every weakly fair execution of @main on
    the TensorCores terminates, and every final state has each TensorCore buffer at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefValue.lean ====
/- What the reference program's operations compute, layer by layer: after each stretch of the operation list the layer's
   output buffer holds the layer's stage function of what the stretch read, every buffer the stretch does not write
   keeps its contents, and so the result buffer after the whole list holds the network function of the arguments. -/
import proofs.«144721_j84121229460224_1_alg».proof.Proof.RefRun
import proofs.«144721_j84121229460224_1_alg».proof.Proof.Stages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo Cert.Stages

variable {F : FTy → Type} [FloatOps F]

/-! ## What each stretch writes, and that it leaves the rest alone

`Wx_W` (imported with the lists) names the result buffer of each operation of `Wx`, in order. Each operation writes
exactly its result buffer, which is in that list; so a buffer not in the list is written by no operation of the
stretch and keeps its contents through it. -/

/-- A property of every operation of a literal list, one operation at a time: the list's `Forall` unfolds to the
    conjunction of its instances, and the given step closes each of them. The proof does not depend on how many
    operations the list has. -/
local macro "each_op " l:ident " => " t:tactic : tactic =>
  `(tactic| (simp only [$l:ident, List.Forall]; (repeat' apply And.intro); all_goals ($t:tactic)))

/-- What closes "this operation writes only buffers of the list": its one result buffer is a member. -/
local macro "writes_step" : tactic =>
  `(tactic| exact Finset.singleton_subset_iff.mpr (List.mem_toFinset.mpr (List.mem_map_of_mem (by decide))))

set_option maxRecDepth 8192 in
theorem W0_writes : (W0 : List (HloOp τ sig (Elt F))).Forall fun op => op.writes ⊆ (W0_W.map (Proc.devRef (τ := τ) .tc)).toFinset := by
  each_op W0 => writes_step
set_option maxRecDepth 8192 in
theorem W1a_writes : (W1a : List (HloOp τ sig (Elt F))).Forall fun op => op.writes ⊆ (W1a_W.map (Proc.devRef (τ := τ) .tc)).toFinset := by
  each_op W1a => writes_step
set_option maxRecDepth 8192 in
theorem W1b_writes : (W1b : List (HloOp τ sig (Elt F))).Forall fun op => op.writes ⊆ (W1b_W.map (Proc.devRef (τ := τ) .tc)).toFinset := by
  each_op W1b => writes_step
set_option maxRecDepth 8192 in
theorem W2_writes : (W2 : List (HloOp τ sig (Elt F))).Forall fun op => op.writes ⊆ (W2_W.map (Proc.devRef (τ := τ) .tc)).toFinset := by
  each_op W2 => writes_step
set_option maxRecDepth 8192 in
theorem W3a_writes : (W3a : List (HloOp τ sig (Elt F))).Forall fun op => op.writes ⊆ (W3a_W.map (Proc.devRef (τ := τ) .tc)).toFinset := by
  each_op W3a => writes_step
set_option maxRecDepth 8192 in
theorem W3b_writes : (W3b : List (HloOp τ sig (Elt F))).Forall fun op => op.writes ⊆ (W3b_W.map (Proc.devRef (τ := τ) .tc)).toFinset := by
  each_op W3b => writes_step
set_option maxRecDepth 8192 in
theorem W4a_writes : (W4a : List (HloOp τ sig (Elt F))).Forall fun op => op.writes ⊆ (W4a_W.map (Proc.devRef (τ := τ) .tc)).toFinset := by
  each_op W4a => writes_step
set_option maxRecDepth 8192 in
theorem W4b_writes : (W4b : List (HloOp τ sig (Elt F))).Forall fun op => op.writes ⊆ (W4b_W.map (Proc.devRef (τ := τ) .tc)).toFinset := by
  each_op W4b => writes_step
set_option maxRecDepth 8192 in
theorem W5a_writes : (W5a : List (HloOp τ sig (Elt F))).Forall fun op => op.writes ⊆ (W5a_W.map (Proc.devRef (τ := τ) .tc)).toFinset := by
  each_op W5a => writes_step
set_option maxRecDepth 8192 in
theorem W5b_writes : (W5b : List (HloOp τ sig (Elt F))).Forall fun op => op.writes ⊆ (W5b_W.map (Proc.devRef (τ := τ) .tc)).toFinset := by
  each_op W5b => writes_step

/-! A buffer that a stretch does not write keeps its contents through it. -/

theorem W0_keep (V : Valuation τ sig (Elt F)) (r : Ref sig .tc) (h : r ∉ W0_W) :
    after W0 V (Proc.devRef .tc r) = V (Proc.devRef .tc r) := after_of_writes_sub W0 V W0_writes h
theorem W1a_keep (V : Valuation τ sig (Elt F)) (r : Ref sig .tc) (h : r ∉ W1a_W) :
    after W1a V (Proc.devRef .tc r) = V (Proc.devRef .tc r) := after_of_writes_sub W1a V W1a_writes h
theorem W1b_keep (V : Valuation τ sig (Elt F)) (r : Ref sig .tc) (h : r ∉ W1b_W) :
    after W1b V (Proc.devRef .tc r) = V (Proc.devRef .tc r) := after_of_writes_sub W1b V W1b_writes h
theorem W2_keep (V : Valuation τ sig (Elt F)) (r : Ref sig .tc) (h : r ∉ W2_W) :
    after W2 V (Proc.devRef .tc r) = V (Proc.devRef .tc r) := after_of_writes_sub W2 V W2_writes h
theorem W3a_keep (V : Valuation τ sig (Elt F)) (r : Ref sig .tc) (h : r ∉ W3a_W) :
    after W3a V (Proc.devRef .tc r) = V (Proc.devRef .tc r) := after_of_writes_sub W3a V W3a_writes h
theorem W3b_keep (V : Valuation τ sig (Elt F)) (r : Ref sig .tc) (h : r ∉ W3b_W) :
    after W3b V (Proc.devRef .tc r) = V (Proc.devRef .tc r) := after_of_writes_sub W3b V W3b_writes h
theorem W4a_keep (V : Valuation τ sig (Elt F)) (r : Ref sig .tc) (h : r ∉ W4a_W) :
    after W4a V (Proc.devRef .tc r) = V (Proc.devRef .tc r) := after_of_writes_sub W4a V W4a_writes h
theorem W4b_keep (V : Valuation τ sig (Elt F)) (r : Ref sig .tc) (h : r ∉ W4b_W) :
    after W4b V (Proc.devRef .tc r) = V (Proc.devRef .tc r) := after_of_writes_sub W4b V W4b_writes h
theorem W5a_keep (V : Valuation τ sig (Elt F)) (r : Ref sig .tc) (h : r ∉ W5a_W) :
    after W5a V (Proc.devRef .tc r) = V (Proc.devRef .tc r) := after_of_writes_sub W5a V W5a_writes h
theorem W5b_keep (V : Valuation τ sig (Elt F)) (r : Ref sig .tc) (h : r ∉ W5b_W) :
    after W5b V (Proc.devRef .tc r) = V (Proc.devRef .tc r) := after_of_writes_sub W5b V W5b_writes h

/-- The buffers that `R0`'s operations write. -/
abbrev R0_W : List (Ref sig .tc) := W0_W ++ W1a_W
/-- The buffers that `R1`'s operations write. -/
abbrev R1_W : List (Ref sig .tc) := W1b_W ++ W2_W ++ W3a_W
/-- The buffers that `R2`'s operations write. -/
abbrev R2_W : List (Ref sig .tc) := W3b_W ++ W4a_W
/-- The buffers that `R3`'s operations write. -/
abbrev R3_W : List (Ref sig .tc) := W4b_W ++ W5a_W
/-- The buffers that `R4`'s operations write. -/
abbrev R4_W : List (Ref sig .tc) := W5b_W

/-- A buffer that `R0` does not write keeps its contents through it: through its second list, then through its first. -/
theorem R0_keep (V : Valuation τ sig (Elt F)) (r : Ref sig .tc) (h : r ∉ R0_W) :
    after R0 V (Proc.devRef .tc r) = V (Proc.devRef .tc r) := by
  rw [after_append W0 W1a, W1a_keep _ r (fun hm => h (List.mem_append_right _ hm)),
    W0_keep V r (fun hm => h (List.mem_append_left _ hm))]
/-- A buffer that `R1` does not write keeps its contents through it. -/
theorem R1_keep (V : Valuation τ sig (Elt F)) (r : Ref sig .tc) (h : r ∉ R1_W) :
    after R1 V (Proc.devRef .tc r) = V (Proc.devRef .tc r) := by
  rw [after_append (W1b ++ W2) W3a, after_append W1b W2,
    W3a_keep _ r (fun hm => h (List.mem_append_right _ hm)),
    W2_keep _ r (fun hm => h (List.mem_append_left _ (List.mem_append_right _ hm))),
    W1b_keep V r (fun hm => h (List.mem_append_left _ (List.mem_append_left _ hm)))]
/-- A buffer that `R2` does not write keeps its contents through it. -/
theorem R2_keep (V : Valuation τ sig (Elt F)) (r : Ref sig .tc) (h : r ∉ R2_W) :
    after R2 V (Proc.devRef .tc r) = V (Proc.devRef .tc r) := by
  rw [after_append W3b W4a, W4a_keep _ r (fun hm => h (List.mem_append_right _ hm)),
    W3b_keep V r (fun hm => h (List.mem_append_left _ hm))]
/-- A buffer that `R3` does not write keeps its contents through it. -/
theorem R3_keep (V : Valuation τ sig (Elt F)) (r : Ref sig .tc) (h : r ∉ R3_W) :
    after R3 V (Proc.devRef .tc r) = V (Proc.devRef .tc r) := by
  rw [after_append W4b W5a, W5a_keep _ r (fun hm => h (List.mem_append_right _ hm)),
    W4b_keep V r (fun hm => h (List.mem_append_left _ hm))]
/-- A buffer that `R4` does not write keeps its contents through it. -/
theorem R4_keep (V : Valuation τ sig (Elt F)) (r : Ref sig .tc) (h : r ∉ R4_W) :
    after R4 V (Proc.devRef .tc r) = V (Proc.devRef .tc r) :=
  W5b_keep V r h

/-! ## What each stretch computes

Each equation is read off the operations: the fold unrolled, each operation's result at its own buffer its function's
value and at any other buffer what was there, down to the contents the stretch started from; the stage function is
the same term by unfolding. -/

set_option maxRecDepth 8192 in
set_option maxHeartbeats 4000000 in
/-- The inverse square root of the clamped in-degree, computed at the head of the list. -/
theorem R0_v6 (V : Valuation τ sig (Elt F)) :
    after R0 V (Proc.devRef .tc main_v6)
      = dinvT (V (Proc.devRef .tc main_arg2)) := by
  simp only [R0, after_append, W0, W1a]
  after_results_simp
  rfl

set_option maxRecDepth 8192 in
set_option maxHeartbeats 4000000 in
/-- Layer 1 on the features. -/
theorem R0_v71 (V : Valuation τ sig (Elt F)) :
    after R0 V (Proc.devRef .tc main_v71)
      = layerT (V (Proc.devRef .tc main_arg0)) (V (Proc.devRef .tc main_arg1)) (V (Proc.devRef .tc main_arg2)) (dinvT (V (Proc.devRef .tc main_arg2))) (V (Proc.devRef .tc main_arg3)) (V (Proc.devRef .tc main_arg4)) := by
  simp only [R0, after_append, W0, W1a]
  after_results_simp
  rfl

set_option maxRecDepth 8192 in
set_option maxHeartbeats 4000000 in
/-- Batch normalisation of layer 1's output, then layer 2. -/
theorem R1_v155 (V : Valuation τ sig (Elt F)) :
    after R1 V (Proc.devRef .tc main_v155)
      = layerT (bnT (V (Proc.devRef .tc main_v71)) (V (Proc.devRef .tc main_arg9)) (V (Proc.devRef .tc main_arg10))) (V (Proc.devRef .tc main_arg1)) (V (Proc.devRef .tc main_arg2)) (V (Proc.devRef .tc main_v6)) (V (Proc.devRef .tc main_arg5)) (V (Proc.devRef .tc main_arg6)) := by
  simp only [R1, after_append, W1b, W2, W3a]
  after_results_simp
  rfl

set_option maxRecDepth 8192 in
set_option maxHeartbeats 4000000 in
/-- Layer 3, with layer 2's weights. -/
theorem R2_v220 (V : Valuation τ sig (Elt F)) :
    after R2 V (Proc.devRef .tc main_v220)
      = layerT (V (Proc.devRef .tc main_v155)) (V (Proc.devRef .tc main_arg1)) (V (Proc.devRef .tc main_arg2)) (V (Proc.devRef .tc main_v6)) (V (Proc.devRef .tc main_arg5)) (V (Proc.devRef .tc main_arg6)) := by
  simp only [R2, after_append, W3b, W4a]
  after_results_simp
  rfl

set_option maxRecDepth 8192 in
set_option maxHeartbeats 4000000 in
/-- Layer 4. -/
theorem R3_v285 (V : Valuation τ sig (Elt F)) :
    after R3 V (Proc.devRef .tc main_v285)
      = layerT (V (Proc.devRef .tc main_v220)) (V (Proc.devRef .tc main_arg1)) (V (Proc.devRef .tc main_arg2)) (V (Proc.devRef .tc main_v6)) (V (Proc.devRef .tc main_arg7)) (V (Proc.devRef .tc main_arg8)) := by
  simp only [R3, after_append, W4b, W5a]
  after_results_simp
  rfl

set_option maxRecDepth 8192 in
set_option maxHeartbeats 4000000 in
/-- The residual sum and the two dense layers. -/
theorem R4_v295 (V : Valuation τ sig (Elt F)) :
    after R4 V (Proc.devRef .tc main_v295)
      = mlpT (addf (V (Proc.devRef .tc main_v285)) (V (Proc.devRef .tc main_v220))) (V (Proc.devRef .tc main_arg11)) (V (Proc.devRef .tc main_arg12)) (V (Proc.devRef .tc main_arg13)) (V (Proc.devRef .tc main_arg14)) := by
  simp only [R4, W5b]
  after_results_simp
  rfl

/-! ## The whole list -/

/-- The result buffer after all 378 operations holds the network function of the fifteen arguments: the list run
    stretch by stretch, each stretch's output its stage function of the previous stretch's, the arguments and the
    degree vector carried through the stretches that do not write them. -/
theorem ref_value (V : Valuation τ sig (Elt F)) :
    after ops V (Proc.devRef .tc main_v295)
      = netT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_append (R0 ++ R1 ++ R2 ++ R3) R4, after_append (R0 ++ R1 ++ R2) R3, after_append (R0 ++ R1) R2, after_append R0 R1]
  rw [R4_v295, R3_v285, R3_keep _ main_v220 (by decide), R3_keep _ main_arg11 (by decide), R3_keep _ main_arg12 (by decide),
    R3_keep _ main_arg13 (by decide), R3_keep _ main_arg14 (by decide)]
  rw [R2_v220, R2_keep _ main_v6 (by decide), R2_keep _ main_arg1 (by decide), R2_keep _ main_arg2 (by decide),
    R2_keep _ main_arg7 (by decide), R2_keep _ main_arg8 (by decide), R2_keep _ main_arg11 (by decide),
    R2_keep _ main_arg12 (by decide), R2_keep _ main_arg13 (by decide), R2_keep _ main_arg14 (by decide)]
  rw [R1_v155, R1_keep _ main_v6 (by decide), R1_keep _ main_arg1 (by decide), R1_keep _ main_arg2 (by decide),
    R1_keep _ main_arg5 (by decide), R1_keep _ main_arg6 (by decide), R1_keep _ main_arg7 (by decide),
    R1_keep _ main_arg8 (by decide), R1_keep _ main_arg11 (by decide), R1_keep _ main_arg12 (by decide),
    R1_keep _ main_arg13 (by decide), R1_keep _ main_arg14 (by decide)]
  rw [R0_v71, R0_v6, R0_keep _ main_arg1 (by decide), R0_keep _ main_arg2 (by decide), R0_keep _ main_arg5 (by decide),
    R0_keep _ main_arg6 (by decide), R0_keep _ main_arg7 (by decide), R0_keep _ main_arg8 (by decide),
    R0_keep _ main_arg9 (by decide), R0_keep _ main_arg10 (by decide), R0_keep _ main_arg11 (by decide),
    R0_keep _ main_arg12 (by decide), R0_keep _ main_arg13 (by decide), R0_keep _ main_arg14 (by decide)]
  rfl

/-- A buffer that no operation of the list writes keeps its contents through the whole list. -/
theorem ops_keep (V : Valuation τ sig (Elt F)) (r : Ref sig .tc)
    (h0 : r ∉ R0_W) (h1 : r ∉ R1_W) (h2 : r ∉ R2_W) (h3 : r ∉ R3_W) (h4 : r ∉ R4_W) :
    after ops V (Proc.devRef .tc r) = V (Proc.devRef .tc r) := by
  rw [after_append (R0 ++ R1 ++ R2 ++ R3) R4, after_append (R0 ++ R1 ++ R2) R3, after_append (R0 ++ R1) R2, after_append R0 R1,
    R4_keep _ r h4, R3_keep _ r h3, R2_keep _ r h2, R1_keep _ r h1, R0_keep V r h0]

/-! The arguments end as they began: no operation writes one. -/

theorem kept_arg0 (V : Valuation τ sig (Elt F)) : after ops V (Proc.devRef .tc main_arg0) = V (Proc.devRef .tc main_arg0) :=
  ops_keep V main_arg0 (by decide) (by decide) (by decide) (by decide) (by decide)
theorem kept_arg1 (V : Valuation τ sig (Elt F)) : after ops V (Proc.devRef .tc main_arg1) = V (Proc.devRef .tc main_arg1) :=
  ops_keep V main_arg1 (by decide) (by decide) (by decide) (by decide) (by decide)
theorem kept_arg2 (V : Valuation τ sig (Elt F)) : after ops V (Proc.devRef .tc main_arg2) = V (Proc.devRef .tc main_arg2) :=
  ops_keep V main_arg2 (by decide) (by decide) (by decide) (by decide) (by decide)
theorem kept_arg3 (V : Valuation τ sig (Elt F)) : after ops V (Proc.devRef .tc main_arg3) = V (Proc.devRef .tc main_arg3) :=
  ops_keep V main_arg3 (by decide) (by decide) (by decide) (by decide) (by decide)
theorem kept_arg4 (V : Valuation τ sig (Elt F)) : after ops V (Proc.devRef .tc main_arg4) = V (Proc.devRef .tc main_arg4) :=
  ops_keep V main_arg4 (by decide) (by decide) (by decide) (by decide) (by decide)
theorem kept_arg5 (V : Valuation τ sig (Elt F)) : after ops V (Proc.devRef .tc main_arg5) = V (Proc.devRef .tc main_arg5) :=
  ops_keep V main_arg5 (by decide) (by decide) (by decide) (by decide) (by decide)
theorem kept_arg6 (V : Valuation τ sig (Elt F)) : after ops V (Proc.devRef .tc main_arg6) = V (Proc.devRef .tc main_arg6) :=
  ops_keep V main_arg6 (by decide) (by decide) (by decide) (by decide) (by decide)
theorem kept_arg7 (V : Valuation τ sig (Elt F)) : after ops V (Proc.devRef .tc main_arg7) = V (Proc.devRef .tc main_arg7) :=
  ops_keep V main_arg7 (by decide) (by decide) (by decide) (by decide) (by decide)
theorem kept_arg8 (V : Valuation τ sig (Elt F)) : after ops V (Proc.devRef .tc main_arg8) = V (Proc.devRef .tc main_arg8) :=
  ops_keep V main_arg8 (by decide) (by decide) (by decide) (by decide) (by decide)
theorem kept_arg9 (V : Valuation τ sig (Elt F)) : after ops V (Proc.devRef .tc main_arg9) = V (Proc.devRef .tc main_arg9) :=
  ops_keep V main_arg9 (by decide) (by decide) (by decide) (by decide) (by decide)
theorem kept_arg10 (V : Valuation τ sig (Elt F)) : after ops V (Proc.devRef .tc main_arg10) = V (Proc.devRef .tc main_arg10) :=
  ops_keep V main_arg10 (by decide) (by decide) (by decide) (by decide) (by decide)
theorem kept_arg11 (V : Valuation τ sig (Elt F)) : after ops V (Proc.devRef .tc main_arg11) = V (Proc.devRef .tc main_arg11) :=
  ops_keep V main_arg11 (by decide) (by decide) (by decide) (by decide) (by decide)
theorem kept_arg12 (V : Valuation τ sig (Elt F)) : after ops V (Proc.devRef .tc main_arg12) = V (Proc.devRef .tc main_arg12) :=
  ops_keep V main_arg12 (by decide) (by decide) (by decide) (by decide) (by decide)
theorem kept_arg13 (V : Valuation τ sig (Elt F)) : after ops V (Proc.devRef .tc main_arg13) = V (Proc.devRef .tc main_arg13) :=
  ops_keep V main_arg13 (by decide) (by decide) (by decide) (by decide) (by decide)
theorem kept_arg14 (V : Valuation τ sig (Elt F)) : after ops V (Proc.devRef .tc main_arg14) = V (Proc.devRef .tc main_arg14) :=
  ops_keep V main_arg14 (by decide) (by decide) (by decide) (by decide) (by decide)

end Cert.ReferenceIdeal.RefRun

end
-- ==== Proof.lean ====
/-
  The certificate of a four-layer Chebyshev graph network: the kernel program computes each layer's dense stage
  relu(((X0·W[0] + X1·W[1]) + X2·W[2]) + b) and the final two-layer perceptron in tiled kernels over 25 blocks of 2000
  rows, and everything else (degrees, the normalised adjacency products, batch normalisation, the residual sum) on the
  host; the reference computes all of it on the host. Over the extended reals the two agree entry by entry:

  * both host sides apply the same operations in the same order, so they are one function of their inputs
    (Proof/Stages.lean names the stages; the kernel program's stretches and the reference's chunks are read as those);
  * a tiled kernel's output array is the stage of the whole arrays: an entry of a matrix product depends on one row of
    the left operand, the row blocks tile the array, and a product accumulated into zeros is the plain sum over the
    contracted axis, as the host's product is (Proof/Region0 … Region4.lean over Proof/PayIdx.lean and Proof/SpecIdx.lean);
    rounding a product's operands to a narrower format is the identity on the extended reals.
  No law that could fail at an infinity is used (only the two sums' identical shape), so the precondition is not opened.
  The three frames are the generated frame of each kernel program and the reference's run with the result dropped; the
  idealization rewrote nothing, so it preserves trivially.
-/
import proofs.«144721_j84121229460224_1_alg».proof.Defs
import proofs.«144721_j84121229460224_1_alg».proof.Proof.Gen.Kernel
import proofs.«144721_j84121229460224_1_alg».proof.Proof.Gen.Kernel.Frame
import proofs.«144721_j84121229460224_1_alg».proof.Proof.Gen.KernelIdeal
import proofs.«144721_j84121229460224_1_alg».proof.Proof.Gen.KernelIdeal.Frame
import proofs.«144721_j84121229460224_1_alg».proof.Proof.Gen.ReferenceIdeal
import proofs.«144721_j84121229460224_1_alg».proof.Proof.Gen.Pre_finite_inputs
import proofs.«144721_j84121229460224_1_alg».proof.Proof.KernelRun
import proofs.«144721_j84121229460224_1_alg».proof.Proof.KernelValue
import proofs.«144721_j84121229460224_1_alg».proof.Proof.RefRun
import proofs.«144721_j84121229460224_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _),
     (h c Cert.ReferenceIdeal.main_arg12).trans (Cert.ReferenceIdeal.RefRun.kept_arg12 _),
     (h c Cert.ReferenceIdeal.main_arg13).trans (Cert.ReferenceIdeal.RefRun.kept_arg13 _),
     (h c Cert.ReferenceIdeal.main_arg14).trans (Cert.ReferenceIdeal.RefRun.kept_arg14 _)⟩)
    (Cert.ReferenceIdeal.RefRun.run_fold (F := Ideal) m ρ)

/-- Both programs end with the network of the arguments in the result array. -/
theorem algebraic : Cert.algebraic_KernelIdeal_ReferenceIdeal := by
  intro m ρ m' ρ' _ hagree
  refine ⟨fun c => Cert.Stages.netT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KRun.kernel_value m ρ c), (h c).2⟩)
      (Cert.KernelIdeal.KRun.run_value (F := Ideal) m ρ)
  · refine (θ_run Cert.ReferenceIdeal.defs _ _).mono (fun r h c => ⟨?_,
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _),
      (h c Cert.ReferenceIdeal.main_arg14).trans (Cert.ReferenceIdeal.RefRun.kept_arg14 _)⟩)
      (Cert.ReferenceIdeal.RefRun.run_fold (F := Ideal) m' ρ')
    refine ((h c Cert.ReferenceIdeal.main_v295).trans (Cert.ReferenceIdeal.RefRun.ref_value _)).trans ?_
    obtain ⟨e0, e1, e2, e3, e4, e5, e6, e7, e8, e9, e10, e11, e12, e13, e14⟩ := hagree c
    show Cert.Stages.netT (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
